-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S2x4096x4096 : Shape := ⟨3, ![2, 4096, 4096]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S2x4096x4096 : S_.BroadcastsInDim S2x4096x4096 (![] : Fin 0 → Fin S2x4096x4096.rank)
  reducesTo_S2x4096x4096_S_d0_1_2 : S2x4096x4096.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S256x128 .f32) (main_arg5 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S4096x256 .f32) (main_arg1 : FVec F S2x4096x4096 .f32) (main_arg2 : FVec F S256x256 .f32) (main_arg3 : FVec F S256 .f32) (main_arg4 : FVec F S256x128 .f32) (main_arg5 : FVec F S128 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S2x4096x4096 .f32 := Host.absf main_arg1
  let main_cst_0 : FVec F S_ .f32 := constant S_ .f32 0x7F800000#32
  let main_v5 : FVec F S2x4096x4096 .f32 := broadcastInDim S2x4096x4096 ![] bcast_S_S2x4096x4096 main_cst_0
  let main_v6 : IVec S2x4096x4096 1 := cmpf .olt main_v4 main_v5
  let main_c_1 : IVec S_ 1 := constantI S_ 1 1#1
  let main_v7 : IVec S_ 1 := (fun x v => Host.reduce IntOp.andi x v reducesTo_S2x4096x4096_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S4096x256 : Shape := ⟨2, ![4096, 256]⟩
abbrev S2x4096x4096 : Shape := ⟨3, ![2, 4096, 4096]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x256 : Shape := ⟨2, ![1, 256]⟩
abbrev S1x128 : Shape := ⟨2, ![1, 128]⟩
abbrev S4096x128 : Shape := ⟨2, ![4096, 128]⟩
abbrev S1x1024x2048 : Shape := ⟨3, ![1, 1024, 2048]⟩
abbrev S1024x128 : Shape := ⟨2, ![1024, 128]⟩
abbrev S1024x2048 : Shape := ⟨2, ![1024, 2048]⟩
abbrev S2048x256 : Shape := ⟨2, ![2048, 256]⟩
abbrev S1024x256 : Shape := ⟨2, ![1024, 256]⟩
abbrev S2048x128 : Shape := ⟨2, ![2048, 128]⟩
abbrev S1024 : Shape := ⟨1, ![1024]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x256, .f32⟩
  | .hbm, ⟨1, _⟩ => ⟨S2x4096x4096, .f32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S1x256, .f32⟩
  | .hbm, ⟨7, _⟩ => ⟨S1x128, .f32⟩
  | .hbm, ⟨8, _⟩ => ⟨S4096x128, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1024x2048, .f32⟩
  | .local _ .vmem, ⟨3, _⟩ => ⟨S1x1024x2048, .f32⟩
  | .local _ .vmem, ⟨4, _⟩ => ⟨S4096x256, .f32⟩
  | .local _ .vmem, ⟨5, _⟩ => ⟨S256x256, .f32⟩
  | .local _ .vmem, ⟨6, _⟩ => ⟨S1x256, .f32⟩
  | .local _ .vmem, ⟨7, _⟩ => ⟨S256x128, .f32⟩
  | .local _ .vmem, ⟨8, _⟩ => ⟨S1x128, .f32⟩
  | .local _ .vmem, ⟨9, _⟩ => ⟨S1024x128, .f32⟩
  | .local _ .vmem, ⟨10, _⟩ => ⟨S1024x128, .f32⟩
  | .local _ .vmem, ⟨11, _⟩ => ⟨S4096x256, .bf16⟩
  | .local _ .vmem, ⟨12, _⟩ => ⟨S4096x128, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c4_i32 : BitVec 32 := 4#32
  let v9 : BitVec 1 := Scalar.cmpi .slt arg0 c4_i32
  let v10 : BitVec 32 := Scalar.extui v9
  let c0_i32_6 : BitVec 32 := 0#32
  let v11 : BitVec 1 := Scalar.cmpi .ne v10 c0_i32_6
  v11

def k0_off1 (i : grid0.Coords) : Fin 2 → Nat :=
  let arg0 : BitVec 32 := BitVec.ofNat 32 (i 0).val
  let c1024_i32 : BitVec 32 := 1024#32
  let v29 : BitVec 32 := Scalar.muli arg0 c1024_i32
  let v30 : Index := Scalar.indexCast v29
  let c0_19 : Index := 0#32
  ![v30.toNat, 0]
def k0_cond3 (i : grid0.Coords) : BitVec 1 :=
  let arg0 : BitVec 32 := BitVec.ofNat 32 (i 0).val
  let c4_i32_7 : BitVec 32 := 4#32
  let v12 : BitVec 1 := Scalar.cmpi .sge arg0 c4_i32_7
  let v13 : BitVec 32 := Scalar.extui v12
  let c0_i32_8 : BitVec 32 := 0#32
  let v14 : BitVec 1 := Scalar.cmpi .ne v13 c0_i32_8
  v14

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  ![v16.toNat, v26.toNat, c1_i32_10.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S256_S1x256 : S256.ShapeCasts S1x256
  shapeCasts_S128_S1x128 : S128.ShapeCasts S1x128
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  shapeCasts_S4096x256_S4096x256 : S4096x256.ShapeCasts S4096x256
  packedbf16_S4096x256_S4096x256_0_0 : (Rect.unit (s := S4096x256) ![0, 0] S4096x256.size inb_S4096x256_S4096x256_0_0).PackedRows (EltTy.packing .bf16)
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S4096x256_S2048x256_0_0 : ∀ a, (![0, 0] : Fin 2 → Nat) a + S2048x256.size a ≤ S4096x256.size a
  h_S2048x256 : 0 < S2048x256.numel
  inb_S4096x256_S2048x256_2048_0 : ∀ a, (![2048, 0] : Fin 2 → Nat) a + S2048x256.size a ≤ S4096x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x128_S256x128_0_0 : ∀ a, (![0, 0] : Fin 2 → Nat) a + S256x128.size a ≤ S256x128.size a
  h_S256x128 : 0 < S256x128.numel
  h_S1024x128 : 0 < S1024x128.numel
  shapeCasts_S1024x128_S1024x128 : S1024x128.ShapeCasts S1024x128
  inb_S1024x128_S1024x128_0_0 : ∀ a, (![0, 0] : Fin 2 → Nat) a + S1024x128.size a ≤ S1024x128.size a
  inb_S4096x128_S2048x128_0_0 : ∀ a, (![0, 0] : Fin 2 → Nat) a + S2048x128.size a ≤ S4096x128.size a
  h_S2048x128 : 0 < S2048x128.numel
  inb_S4096x128_S2048x128_2048_0 : ∀ a, (![2048, 0] : Fin 2 → Nat) a + S2048x128.size a ≤ S4096x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  reduces_S1024x128_S1024 : S1024x128.Reduces [1] S1024
  shapeCasts_S1024_S1024x1 : S1024.ShapeCasts S1024x1
  broadcasts_S1024x1_S1024x128 : S1024x1.Broadcasts S1024x128
  dot_S4096x256_S256x256_S4096x256_1_0_0_1_n_n_wf : DotDims.WF S4096x256 S256x256 S4096x256 [1] [0] [0] [1] [] []
  dot_S1024x2048_S2048x256_S1024x256_1_0_0_1_n_n_wf : DotDims.WF S1024x2048 S2048x256 S1024x256 [1] [0] [0] [1] [] []
  dot_S1024x256_S256x128_S1024x128_1_0_0_1_n_n_wf : DotDims.WF S1024x256 S256x128 S1024x128 [1] [0] [0] [1] [] []
  dot_S1024x2048_S2048x128_S1024x128_1_0_0_1_n_n_wf : DotDims.WF S1024x2048 S2048x128 S1024x128 [1] [0] [0] [1] [] []
  hrank0 : 0 < grid0.rank
  k0_off1_inb : ∀ i : grid0.Coords, ∀ (k0_h2 : k0_cond2 i = 1#1), ∀ a, (k0_off1 i) a + S1024x128.size a ≤ S4096x128.size a
  k0_off1_packedbf16 : ∀ i : grid0.Coords, ∀ (k0_h2 : k0_cond2 i = 1#1), (Rect.unit (s := S4096x128) (k0_off1 i) S1024x128.size (k0_off1_inb i k0_h2)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S2x4096x4096.size a
  hwx0_0 : ∀ i : grid0.Coords, EltTy.bits .f32 = 32 ∨ (Rect.block (s := S2x4096x4096) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S2x4096x4096.size a
  hwx0_1 : ∀ i : grid0.Coords, EltTy.bits .f32 = 32 ∨ (Rect.block (s := S2x4096x4096) S1x1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x256.size a
  hwx0_2 : ∀ i : grid0.Coords, EltTy.bits .f32 = 32 ∨ (Rect.block (s := S4096x256) S4096x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S4096x128.size a
  hwx0_7 : ∀ i : grid0.Coords, EltTy.bits .f32 = 32 ∨ (Rect.block (s := S4096x128) S1024x128.size (cc0_transform_7 i) (hinb0_7 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg1) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4096x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v1) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1024x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) && !(k0_cond3 i == 1#1) | ⟨_ + 8, h⟩ => absurd h (Nat.not_lt.2 (Nat.le_add_left _ _))

class Facts : Prop extends Facts₀ where

variable [Facts]
-- ==== ReferenceIdeal.lean ====
abbrev S4096x256 : Shape := ⟨2, ![4096, 256]⟩
abbrev S2x4096x4096 : Shape := ⟨3, ![2, 4096, 4096]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x4096x4096 : Shape := ⟨3, ![1, 4096, 4096]⟩
abbrev S4096x4096 : Shape := ⟨2, ![4096, 4096]⟩
abbrev S1x256 : Shape := ⟨2, ![1, 256]⟩
abbrev S_ : Shape := ⟨0, ![]⟩
abbrev S4096x128 : Shape := ⟨2, ![4096, 128]⟩
abbrev S1x128 : Shape := ⟨2, ![1, 128]⟩
abbrev S4096 : Shape := ⟨1, ![4096]⟩
abbrev S4096x1 : Shape := ⟨2, ![4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S2x4096x4096, .f32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S1x4096x4096, .f32⟩
  | .hbm, ⟨7, _⟩ => ⟨S4096x4096, .f32⟩
  | .hbm, ⟨8, _⟩ => ⟨S4096x256, .f32⟩
  | .hbm, ⟨9, _⟩ => ⟨S4096x256, .f32⟩
  | .hbm, ⟨10, _⟩ => ⟨S1x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096x256, .f32⟩
  | .hbm, ⟨15, _⟩ => ⟨S4096x256, .f32⟩
  | .hbm, ⟨16, _⟩ => ⟨S1x4096x4096, .f32⟩
  | .hbm, ⟨17, _⟩ => ⟨S4096x4096, .f32⟩
  | .hbm, ⟨18, _⟩ => ⟨S4096x128, .f32⟩
  | .hbm, ⟨19, _⟩ => ⟨S4096x128, .f32⟩
  | .hbm, ⟨20, _⟩ => ⟨S1x128, .f32⟩
  | .hbm, ⟨21, _⟩ => ⟨S4096x128, .f32⟩
  | .hbm, ⟨22, _⟩ => ⟨S4096x128, .f32⟩
  | .hbm, ⟨23, _⟩ => ⟨S_, .f32⟩
  | .hbm, ⟨24, _⟩ => ⟨S4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096x1, .f32⟩
  | .hbm, ⟨29, _⟩ => ⟨S4096x128, .f32⟩
  | .hbm, ⟨30, _⟩ => ⟨S4096x128, .f32⟩
  | .hbm, ⟨31, _⟩ => ⟨S4096x128, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x1, .f32⟩
  | .hbm, ⟨36, _⟩ => ⟨S4096x128, .f32⟩
  | .hbm, ⟨37, _⟩ => ⟨S4096x128, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_cst : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call1_cst : Ref sig .tc := ⟨.hbm, 23, rfl⟩
abbrev main_call1_v0 : Ref sig .tc := ⟨.hbm, 24, rfl⟩
abbrev main_call1_cst_0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_cst_1 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_v15 : Ref sig .tc := ⟨.hbm, 37, rfl⟩

abbrev nD : Nat := 1
abbrev τ : Topo := Topo.v7x

variable {F : FTy → Type} [FloatOps F]

class Facts₀ : Prop where
  slices_S2x4096x4096_S1x4096x4096_0_0_0 : S2x4096x4096.Slices ![0, 0, 0] S1x4096x4096
  shapeCasts_S1x4096x4096_S4096x4096 : S1x4096x4096.ShapeCasts S4096x4096
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  slices_S2x4096x4096_S1x4096x4096_1_0_0 : S2x4096x4096.Slices ![1, 0, 0] S1x4096x4096
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  reducesTo_S4096x128_S4096_d1 : S4096x128.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  dot_S4096x256_S256x256_S4096x256_1_0_0_1_n_n_wf : DotDims.WF S4096x256 S256x256 S4096x256 [1] [0] [0] [1] [] []
  dot_S4096x4096_S4096x256_S4096x256_1_0_0_1_n_n_wf : DotDims.WF S4096x4096 S4096x256 S4096x256 [1] [0] [0] [1] [] []
  dot_S4096x256_S256x128_S4096x128_1_0_0_1_n_n_wf : DotDims.WF S4096x256 S256x128 S4096x128 [1] [0] [0] [1] [] []
  dot_S4096x4096_S4096x128_S4096x128_1_0_0_1_n_n_wf : DotDims.WF S4096x4096 S4096x128 S4096x128 [1] [0] [0] [1] [] []

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.LibSharedFrame.lean ====
/-
  A one-region program whose input windows may read THE SAME array, with host operations before and after the
  region: the run from the launch to the end.

  When two windows of a pipeline stage blocks of one array, the array's buffer cannot be handed whole to each of
  them. It is held once, at the full share, before the region; at the region's entry its share is dealt among the
  windows on it (`hdeal`), each window then holds the array read-only at its part, and at the region's exit the parts
  are put together again (`hjoin` / `hdeal'`), so that the operations after the region find every unscoped buffer
  held whole at the full share, exactly as the operations before the region did. Those later operations may read
  anything unscoped and must write no array of the pipeline.

  The conclusion reads the final memory: each window's array at what the pipeline's write-backs leave in it (an
  input array: its entry contents), and every unscoped buffer that is no window's array at what the later operations
  compute from the contents at the region's exit.
-/
import Idealize.ShloMosaic.Lib.Pipeline.FrameSuffix

noncomputable section

namespace Cert.SharedFrame

open Idealize.ShloMosaic Idealize.ShloMosaic.Pipeline
open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The contents of core `c`'s unscoped buffers after the later operations `opss`, run from the contents `W c` the
    region's exit leaves. -/
abbrev finalAt (W : Dev nD → Valuation τ sig Val) (opss : List (List (HloOp τ sig Val))) (c : Dev nD) (b : Ref sig .tc) :
    Buf Val ((c.tc : Thread nD τ).loc b) :=
  StableHlo.after opss.flatten (W c) (Proc.devRef .tc b)

/-- THE RUN. `hcell`, `hw`, `hne`, `harr`, `hstage`: the layout the launch decides (the arrays need not be distinct).
    `hmain`: @main is earlier operations, the region, the later operations `opss`. `V₀ c`: the contents at the region's
    entry; `W c`: at its exit, equal to `V₀ c` off the windows' arrays (`hWrest`). `hdeal`: the arrays' buffers, whole
    at the entry contents, make the proof data's arrays at entry; `hjoin` and `hdeal'`: at the exit the proof data's
    arrays and the buffers whole at `W c` are each other. The later operations touch TensorCore buffers only, allocate
    nothing, and write no array. -/
theorem θ_run_around_shared
    (hcell : Function.Injective (cellOf (nD := nD) (τ := τ) cfgs))
    (hw : WinFacts₀ (cfg).spec) (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ W : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hWrest : ∀ c, ∀ b ∈ restRefs sig (cfg).spec, W c (Proc.devRef .tc b) = V₀ c (Proc.devRef .tc b))
    (hdeal : ∀ c, (arrBufs (cfg).spec c (fun b => V₀ c (Proc.devRef .tc b)) : sProp 𝕄) ⊢ (dats p c).arrays ((dats p c).arrAt · 0))
    (hjoin : ∀ c, (dats p c).arrays ((dats p c).arrAt · (cfg).N) ⊢ (arrBufs (cfg).spec c (fun b => W c (Proc.devRef .tc b)) : sProp 𝕄))
    (hdeal' : ∀ c, (arrBufs (cfg).spec c (fun b => W c (Proc.devRef .tc b)) : sProp 𝕄) ⊢ (dats p c).arrays ((dats p c).arrAt · (cfg).N))
    (hin : ∀ c, ΦA (cfg).spec c ⊢ (dats p c).Φ 0) (hout : ∀ c, (dats p c).Φ (Fin.last (cfg).N) ⊢ ΦA (cfg).spec c) :
    θ_run 𝔻 (onTc main) (s₀ m g) (fun r => ∀ c : Dev nD,
      (∀ w, r.2.mem (((cfg).spec w).arr.view.loc (c.tc : Thread nD τ)) = (dats p c).arrAt w (cfg).N)
        ∧ ∀ b ∈ restRefs sig (cfg).spec, r.2.mem ((c.tc : Thread nD τ).loc b) = finalAt W opss c b) := by
  classical
  -- the later operations write no array: an array's buffer holds after them what it held at the exit
  have hsame : ∀ c (w : Fin (cfg).W), StableHlo.after opss.flatten (W c) (Proc.devRef .tc (arrRef (cfg).spec w)) = W c (Proc.devRef .tc (arrRef (cfg).spec w)) :=
    fun c w => StableHlo.after_of_forall_not_mem _ _ fun op hop => by
      obtain ⟨ops, hops, hop⟩ := List.mem_flatten.mp hop
      exact hkeep ops hops op hop w
  have hcell' : Function.Injective (cellOf (nD := nD) (τ := τ) (pin (fun q => (cfgs q).toPCfg (Val := Val)) (fun q => (cfgs q).toPCfg_adm))) := hcell
  exact θ_run_region_pf_tail (fun q => (cfgs q).toPCfg (Val := Val)) (fun q => (cfgs q).toPCfg_adm) dats () hcell' p hw
    (OwnSemFacts.none (cfg).spec) (PreFacts.none _) emb₁ defs₀ 𝒱₀ m g main
    (fun _ => chain (opss.map StableHlo.seq)) hbody hne harr hstage howed
    (G := fun _ => iprop(emp)) (u₀ := initOf (cells (pin (fun q => (cfgs q).toPCfg (Val := Val)) (fun q => (cfgs q).toPCfg_adm)) hcell') (launchToks (pin (fun q => (cfgs q).toPCfg (Val := Val)) (fun q => (cfgs q).toPCfg_adm)) hcell'))
    (hu₀ := by
      iintro Hu; imodintro
      isplitl [Hu]; · iapply (show (ownU _ : sProp 𝕄) ⊢ BI.own (emb₁ (initOf (cells (pin (fun q => (cfgs q).toPCfg (Val := Val)) (fun q => (cfgs q).toPCfg_adm)) hcell') (launchToks (pin (fun q => (cfgs q).toPCfg (Val := Val)) (fun q => (cfgs q).toPCfg_adm)) hcell'))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := hdeal)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfg).spec c (fun b => V₀ c (Proc.devRef .tc b)))
    (Z' := fun c => unscopedRestP (Ix := Unit) (Name := ℕ) (U := UR sig nD τ) (Lvl := ℕ) Prefetch.none (cfg).spec c (finalAt W opss c))
    (hX := fun c => by
      iintro ⟨HU, -, -, -, Hp, -⟩; imodintro
      isplitl [Hp]; · iexists _; iexact Hp
      iexact HU)
    (hin := fun c => (show _ ⊢ ΦA (cfg).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => by
      -- every unscoped buffer, whole at the exit contents
      have hall : iprop((dats p c).arrays ((dats p c).arrAt · (cfg).N)
            ∗ unscopedRestP (Ix := Unit) (Name := ℕ) (U := UR sig nD τ) (Lvl := ℕ) Prefetch.none (cfg).spec c (fun b => V₀ c (Proc.devRef .tc b)))
          ⊢ (StableHlo.held (c.tc : Thread nD τ) (ucRefs τ sig) (W c) : sProp 𝕄) := by
        rw [← unscopedBufs_held (Ix := Unit) (Name := ℕ) (U := UR sig nD τ) (Lvl := ℕ) c (W c),
          unscopedBufs_split₀ cfgs p hw.arr_unscoped c (fun b => W c (Proc.devRef .tc b)), unscopedRestP_none]
        refine sep_mono (hjoin c) (Entails.of_eq ?_)
        unfold unscopedRest
        exact bigSep_congr fun b hb => by dsimp only; rw [hWrest c b hb]
      -- and back, after the later operations
      have hback : (StableHlo.held (c.tc : Thread nD τ) (ucRefs τ sig) (StableHlo.after opss.flatten (W c)) : sProp 𝕄)
          ⊢ iprop((dats p c).arrays ((dats p c).arrAt · (cfg).N)
            ∗ unscopedRestP (Ix := Unit) (Name := ℕ) (U := UR sig nD τ) (Lvl := ℕ) Prefetch.none (cfg).spec c (finalAt W opss c)) := by
        rw [← unscopedBufs_held (Ix := Unit) (Name := ℕ) (U := UR sig nD τ) (Lvl := ℕ) c (StableHlo.after opss.flatten (W c)),
          unscopedBufs_split₀ cfgs p hw.arr_unscoped c (fun b => StableHlo.after opss.flatten (W c) (Proc.devRef .tc b)), unscopedRestP_none]
        refine sep_mono ((Entails.of_eq ?_).trans (hdeal' c)) .rfl
        unfold arrBufs
        exact bigSep_congr fun b hb => by
          obtain ⟨w, -, rfl⟩ := Finset.mem_image.mp hb
          dsimp only; rw [hsame c w]
      rw [← List.append_nil (opss.map StableHlo.seq)]
      iintro ⟨Hk, Hb, Ha, Hz⟩
      iapply (wp_seqs_then (fun q => (cfgs q).toPCfg (Val := Val)) defs₀ 𝒱₀ c (ucRefs τ sig) [] opss
        (fun ops ho op h => sub_ucRefs op (hsub ops ho op h)) hfresh (W c)) $$ [Hb Ha Hz]
      · isplitl [Hb]; · iexact Hb
        iapply hall; isplitl [Ha] <;> iassumption
      iintro ⟨-, H⟩
      rw [chain_nil, wp_pure]
      imodintro
      iapply Hk
      iapply hback; iexact H)
    (QY := fun c s => ∀ b ∈ restRefsP sig Prefetch.none (cfg).spec, s.mem ((c.tc : Thread nD τ).loc b) = finalAt W opss c b)
    (hY := fun c s' => by
      iintro ⟨-, HU, HSI⟩
      unfold unscopedRestP
      imodintro
      iapply (pointsTo_read_all (restRefsP sig Prefetch.none (cfg).spec) (fun b => (c.tc : Thread nD τ).loc b) (finalAt W opss c) s')
      isplitl [HU] <;> iassumption)
    (hQ := fun s h c => ⟨(h c).1, fun b hb => (h c).2.2 b (by
      unfold restRefsP
      rw [show (Finset.univ : Finset (Fin 0)).image (Prefetch.none (sig := sig)).ref = ∅ from rfl, Finset.sdiff_empty]
      exact hb)⟩)

end Cert.SharedFrame

end
-- ==== Proof.BitsFrameBase.lean ====
/-
  The region of the two-layer graph convolution as the launch sees it: what the arrays hold when the region is entered,
  @main as the reshapes of the two bias vectors followed by the region, each input window's block at a grid point, the
  three conditions the body branches on decided over the eight grid points (the first point; points 0 to 3, which
  compute a row block of the hidden projection; points 4 to 7, which compute a row block of the result), and the two
  scratch arrays (X·W₀ and the hidden projection) as memrefs the invariant owns.
-/
import proofs.«181898_g33612414058620_cont_8to1_b_1984_15_alg».proof.Proof.Gen.Kernel.Launch
import proofs.«181898_g33612414058620_cont_8to1_b_1984_15_alg».proof.Proof.Gen.Kernel.Skeleton
import proofs.«181898_g33612414058620_cont_8to1_b_1984_15_alg».proof.Proof.Gen.Kernel.Points
import proofs.«181898_g33612414058620_cont_8to1_b_1984_15_alg».proof.Proof.LibSharedFrame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the two reshapes of the bias vectors. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the two reshapes, then the region, then nothing. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (([] : List (List (HloOp τ sig (Elt F)))).map StableHlo.seq)) :=
  Pipeline.hmain_around cfgs 0 defs₀ 𝒱₀ m main [hostOps0] [] (by simp only [List.Forall]; exact hostOps0_sub)
    (by simp only [List.Forall]; exact hostOps0_fresh) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's three conditions over the grid -/

/-- "This is the first point": the condition under which X·W₀ is computed into the first scratch array. -/
abbrev condA (i : grid0.Coords) : Prop := (Scalar.cmpi .ne (Scalar.extui (Scalar.cmpi .eq (BitVec.ofNat 32 (i 0).val) 0#32)) 0#32) = 1#1
theorem hcondA : ∀ t : Fin cfg0.N, condA (grid0.coords t) ↔ t.val = 0 :=
  (by decide +kernel : ∀ t : Fin grid0.N, condA (grid0.coords t) ↔ t.val = 0)

/-- "The point is below 4": a row block of the hidden projection is computed. -/
abbrev condB (i : grid0.Coords) : Prop := k0_cond2 i = 1#1
theorem hcondB : ∀ t : Fin cfg0.N, condB (grid0.coords t) ↔ t.val < 4 :=
  (by decide +kernel : ∀ t : Fin grid0.N, condB (grid0.coords t) ↔ t.val < 4)

/-- "The point is 4 or above": a row block of the result is computed. -/
abbrev condC (i : grid0.Coords) : Prop := k0_cond3 i = 1#1
theorem hcondC : ∀ t : Fin cfg0.N, condC (grid0.coords t) ↔ 4 ≤ t.val :=
  (by decide +kernel : ∀ t : Fin grid0.N, condC (grid0.coords t) ↔ 4 ≤ t.val)

/-- Below point 4 the rows of the hidden projection a point stores are rows 1024·t to 1024·t + 1023. -/
theorem off1_eq : ∀ t : Fin cfg0.N, condB (grid0.coords t) → k0_off1 (grid0.coords t) = ![t.val * 1024, 0] :=
  (by decide +kernel : ∀ t : Fin grid0.N, condB (grid0.coords t) → k0_off1 (grid0.coords t) = ![t.val * 1024, 0])

/-- No window is idle at any point (the result window is stored at every point). -/
theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
theorem liveAt6 : ∀ t : Fin cfg0.N, cfg0.idle 6 (grid0.coords t) = false := by decide +kernel
theorem liveAt7 : ∀ t : Fin cfg0.N, cfg0.idle 7 (grid0.coords t) = false := by decide +kernel

/-! ## The staging and scratch memrefs -/

abbrev ms0 (t : Fin cfg0.N) : Memref sig .tc .vmem S1x1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x128 .f32 := win0_7.stage (cfg0.slots t 7)
abbrev hs7 (t : Fin cfg0.N) : (ms7 t).IsWhole := hstage0_7 ((cfg0.slots t 7).cast nbuf0_7)
/-- The two scratch arrays: X·W₀ [4096, 256] and the hidden projection [4096, 128], both bf16. -/
abbrev scM0 : Memref sig .tc .vmem S4096x256 .bf16 := Memref.whole cc0_scratch0
abbrev scM1 : Memref sig .tc .vmem S4096x128 .bf16 := Memref.whole cc0_scratch1

/-- Before the first point the invariant is the two scratch arrays at some contents and the generator register. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

end Cert.Kernel.Fr

end
-- ==== Proof.BitsRunMid.lean ====
/-
  The body at a point t with 0 < t < 4: X·W₀ is already in the first scratch array; the point multiplies its two half
  row blocks of A₀ with the two halves of X·W₀, adds b₀, rectifies, multiplies by W₁, stores the 1024 rows
  1024·t … 1024·t + 1023 of the hidden projection into the second scratch array and the same block into the result
  window (a placeholder that a later point overwrites). The run leaves the inputs and the first scratch as they were.
-/
import proofs.«181898_g33612414058620_cont_8to1_b_1984_15_alg».proof.Proof.BitsFrameBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the point leaves in the result window's buffer and in the second scratch array, with the run that finds
    them: from the inputs at their contents, the result window's buffer at anything, the first scratch at `xs0` and the
    second at `xs1`, the body runs and hands everything back, the result buffer and the second scratch with the pieces
    written over what they held. -/
noncomputable def runMid (c : Dev nD) (i : grid0.Coords) (arg1 : Memref sig .tc .vmem S1x1024x2048 .f32) (harg1 : arg1.IsWhole) (arg2 : Memref sig .tc .vmem S1x1024x2048 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S4096x256 .bf16) (harg9 : arg9.IsWhole) (arg10 : Memref sig .tc .vmem S4096x128 .bf16) (harg10 : arg10.IsWhole) (hcA : ¬condA i) (hcB : condB i) (hcC : ¬condC i)
    (x0 x1 : Vec F S1x1024x2048 .f32) (x2 : Vec F S4096x256 .f32) (x3 : Vec F S256x256 .f32) (x4 : Vec F S1x256 .f32) (x5 : Vec F S256x128 .f32) (x6 : Vec F S1x128 .f32) (xs0 : Vec F S4096x256 .bf16) (xs1 : Vec F S4096x128 .bf16) :
    Σ' (L7 : List (View.Piece (Elt F) S1024x128 .f32)), { LS1 : List (View.Piece (Elt F) S4096x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7)
                ∗ owns (c : Thread nD τ) arg9 fullShare xs0
                ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg9.eq_unread hfs0; obtain rfl := harg10.eq_unread hfs1
    sl_exec (disch := first | exact hcA | exact hcB | exact hcC)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    isplitl [HS0]
    · iexists _; isplitr; · ipureintro; exact harg9.read_unread _
      iexact HS0
    iexact HS1

end Cert.Kernel.Fr

end
-- ==== Proof.BitsRunFirst.lean ====
/-
  The body at the first point: X·W₀ is computed from the whole X and W₀ and stored into the first scratch array, then the
  point proceeds as every point below 4: its two half row blocks of A₀ times the two halves of X·W₀ just stored, plus
  b₀, rectified, times W₁, stored as rows 0 … 1023 of the hidden projection in the second scratch array and as a
  placeholder in the result window.
-/
import proofs.«181898_g33612414058620_cont_8to1_b_1984_15_alg».proof.Proof.BitsRunMid

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the first point leaves in the result window's buffer, the first scratch array and the second, with the
    run that finds them. -/
noncomputable def runFirst (c : Dev nD) (i : grid0.Coords) (arg1 : Memref sig .tc .vmem S1x1024x2048 .f32) (harg1 : arg1.IsWhole) (arg2 : Memref sig .tc .vmem S1x1024x2048 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S4096x256 .bf16) (harg9 : arg9.IsWhole) (arg10 : Memref sig .tc .vmem S4096x128 .bf16) (harg10 : arg10.IsWhole) (hcA : condA i) (hcB : condB i) (hcC : ¬condC i)
    (x0 x1 : Vec F S1x1024x2048 .f32) (x2 : Vec F S4096x256 .f32) (x3 : Vec F S256x256 .f32) (x4 : Vec F S1x256 .f32) (x5 : Vec F S256x128 .f32) (x6 : Vec F S1x128 .f32) (xs0 : Vec F S4096x256 .bf16) (xs1 : Vec F S4096x128 .bf16) :
    Σ' (L7 : List (View.Piece (Elt F) S1024x128 .f32)) (LS0 : List (View.Piece (Elt F) S4096x256 .bf16)), { LS1 : List (View.Piece (Elt F) S4096x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7)
                ∗ (arg9.view.loc (c : Thread nD τ) ↦[arg9.view.set]{fullShare} arg9.view.writes (Elt F) (harg9.unread xs0) LS0)
                ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg9.eq_unread hfs0; obtain rfl := harg10.eq_unread hfs1
    sl_exec (disch := first | exact hcA | exact hcB | exact hcC)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    isplitl [HS0]
    · iexact HS0
    iexact HS1

end Cert.Kernel.Fr

end
-- ==== Proof.BitsRunLate.lean ====
/-
  The body at a point t ≥ 4: the hidden projection is complete in the second scratch array; the point multiplies its two
  half row blocks of A₁ with the two halves of the hidden projection, adds b₁, and stores the log-softmax of each of its
  1024 rows into the result window. Both scratch arrays and the inputs are left as they were.
-/
import proofs.«181898_g33612414058620_cont_8to1_b_1984_15_alg».proof.Proof.BitsRunFirst

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces a late point leaves in the result window's buffer, with the run that finds them. -/
noncomputable def runLate (c : Dev nD) (i : grid0.Coords) (arg1 : Memref sig .tc .vmem S1x1024x2048 .f32) (harg1 : arg1.IsWhole) (arg2 : Memref sig .tc .vmem S1x1024x2048 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S4096x256 .bf16) (harg9 : arg9.IsWhole) (arg10 : Memref sig .tc .vmem S4096x128 .bf16) (harg10 : arg10.IsWhole) (hcA : ¬condA i) (hcB : ¬condB i) (hcC : condC i)
    (x0 x1 : Vec F S1x1024x2048 .f32) (x2 : Vec F S4096x256 .f32) (x3 : Vec F S256x256 .f32) (x4 : Vec F S1x256 .f32) (x5 : Vec F S256x128 .f32) (x6 : Vec F S1x128 .f32) (xs0 : Vec F S4096x256 .bf16) (xs1 : Vec F S4096x128 .bf16) :
    { L7 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7)
                ∗ owns (c : Thread nD τ) arg9 fullShare xs0
                ∗ owns (c : Thread nD τ) arg10 fullShare xs1) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg9.eq_unread hfs0; obtain rfl := harg10.eq_unread hfs1
    sl_exec (disch := first | exact hcA | exact hcB | exact hcC)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    isplitl [HS0]
    · iexists _; isplitr; · ipureintro; exact harg9.read_unread _
      iexact HS0
    iexists _; isplitr; · ipureintro; exact harg10.read_unread _
    iexact HS1

end Cert.Kernel.Fr

end
-- ==== Proof.BitsContents.lean ====
/-
  What the two scratch arrays and the result window's buffer hold, as functions of the windows' blocks.

  X·W₀ is computed once, at the first point, from the whole X and W₀ (`xw`); it is read back as its first and its last
  2048 rows (`xwTop`, `xwBot`). A point t below 4 computes the row block t of the hidden projection from its two half row
  blocks of A₀, those two halves of X·W₀, b₀ and W₁ (`pblk`, and `pblk32` for the copy it leaves in the result window
  before the format change). The whole hidden projection is those four blocks one above the other (`pall`: row r is
  row r mod 1024 of block r div 1024), read back as its two halves of 2048 rows (`pTop`, `pBot`). A point t from 4 on
  computes its result block from its two half row blocks of A₁, the two halves of the hidden projection and b₁
  (`oblk`). `RowsOk n d` says that an array `d` agrees with the hidden projection on its first 1024·n rows: what is known
  of the second scratch array after point n − 1.
-/
import proofs.«181898_g33612414058620_cont_8to1_b_1984_15_alg».proof.Proof.BitsFrameBase
import Idealize.ShloMosaic.Lib.ValueIdx

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- X·W₀, as the first point computes it. -/
def xw (c : Dev nD) : Vec F S4096x256 .bf16 := k0_pay1 (iblk m c 2 t0_0) (iblk m c 3 t0_0)
/-- Its first 2048 rows and its last 2048 rows. -/
def xwTop (c : Dev nD) : Vec F S2048x256 .bf16 := View.ld (xw m c) (Rect.unit ![0, 0] S2048x256.size inb_S4096x256_S2048x256_0_0)
def xwBot (c : Dev nD) : Vec F S2048x256 .bf16 := View.ld (xw m c) (Rect.unit ![2048, 0] S2048x256.size inb_S4096x256_S2048x256_2048_0)

/-- The row block of the hidden projection a point computes, before and after the change of format. -/
def pblk32 (c : Dev nD) (t : Fin cfg0.N) : Vec F S1024x128 .f32 :=
  k0_pay4 (iblk m c 0 t) (iblk m c 1 t) (xwTop m c) (xwBot m c) (iblk m c 4 t) (iblk m c 5 t)
def pblk (c : Dev nD) (t : Fin cfg0.N) : Vec F S1024x128 .bf16 :=
  k0_pay5 (iblk m c 0 t) (iblk m c 1 t) (xwTop m c) (xwBot m c) (iblk m c 4 t) (iblk m c 5 t)

/-- The whole hidden projection: row r is row r mod 1024 of the block of point r div 1024. -/
def pall (c : Dev nD) : Vec F S4096x128 .bf16 := fun i =>
  pblk m c ⟨(i 0).val / 1024, by have h : (i 0).val < 4096 := (i 0).isLt; rw [show cfg0.N = 8 from N_0]; omega⟩
    (ix2 (⟨(i 0).val % 1024, Nat.mod_lt _ (by decide)⟩ : Fin 1024) (⟨(i 1).val, (i 1).isLt⟩ : Fin 128))
/-- Its first 2048 rows and its last 2048 rows. -/
def pTop (c : Dev nD) : Vec F S2048x128 .bf16 := View.ld (pall m c) (Rect.unit ![0, 0] S2048x128.size inb_S4096x128_S2048x128_0_0)
def pBot (c : Dev nD) : Vec F S2048x128 .bf16 := View.ld (pall m c) (Rect.unit ![2048, 0] S2048x128.size inb_S4096x128_S2048x128_2048_0)

/-- The result block a point from 4 on computes. -/
def oblk (c : Dev nD) (t : Fin cfg0.N) : Vec F S1024x128 .f32 :=
  k0_pay6 (iblk m c 0 t) (iblk m c 1 t) (pTop m c) (pBot m c) (iblk m c 6 t)

/-- What the result window's buffer holds after point t. -/
def outAt (c : Dev nD) (t : Fin cfg0.N) : Vec F S1024x128 .f32 := if t.val < 4 then pblk32 m c t else oblk m c t

theorem outAt_lo (c : Dev nD) (t : Fin cfg0.N) (h : t.val < 4) : outAt m c t = pblk32 m c t := if_pos h
theorem outAt_hi (c : Dev nD) (t : Fin cfg0.N) (h : ¬ t.val < 4) : outAt m c t = oblk m c t := if_neg h

/-- `d` agrees with the hidden projection on its first 1024·n rows. -/
def RowsOk (c : Dev nD) (n : ℕ) (d : Vec F S4096x128 .bf16) : Prop :=
  ∀ i : S4096x128.Idx, (i 0).val < 1024 * n → d i = pall m c i

/-- All 4096 rows: the array is the hidden projection. -/
theorem RowsOk.eq_pall {c : Dev nD} {n : ℕ} {d : Vec F S4096x128 .bf16} (h : RowsOk m c n d) (hn : 4 ≤ n) : d = pall m c :=
  funext fun i => h i (by have h : (i 0).val < 4096 := (i 0).isLt; omega)

theorem RowsOk.mono {c : Dev nD} {n n' : ℕ} {d : Vec F S4096x128 .bf16} (h : RowsOk m c n d) (hn : n' ≤ n) : RowsOk m c n' d :=
  fun i hi => h i (by have : 1024 * n' ≤ 1024 * n := Nat.mul_le_mul_left _ hn; omega)

end Cert.Kernel.Fr

end
-- ==== Proof.LibUnitRows.lean ====
/-
  Rows of a buffer after ONE store through a unit-stride rectangle, read back through another unit-stride rectangle:
  through the same offsets the read is the stored payload; through a rectangle that an axis keeps apart from the
  store's it is what the buffer held before; a store through the whole shape leaves its payload. Also the
  covered read (`View.readCov`) of a one-store list through the store's own offsets, and the congruence of a rectangle read in its
  offsets. All over any view, shape, element type and contents; the offsets may be any terms (closed or computed).
-/
import Idealize.ShloMosaic.Lib.WritesUnit
import Idealize.ShloMosaic.Lib.Pipeline.FrameBody
import Idealize.ShloMosaic.Lib.Pipeline.Value
import Idealize.ShloMosaic.Lib.Exec

noncomputable section

namespace Cert.UnitRows

open Idealize.ShloMosaic

variable {sig : RefSig} {κ : Kind} {sp : Space} {s : Shape} {e : EltTy} {Val : EltTy → Type}

/-- A rectangle read depends on the offsets only through their value. -/
theorem ld_unit_congr (Y : s.Idx → Val e) {off off' size : Fin s.rank → ℕ} (h : off = off')
    (inb : ∀ a, off a + size a ≤ s.size a) (inb' : ∀ a, off' a + size a ≤ s.size a) :
    View.ld Y (Rect.unit off size inb) = View.ld Y (Rect.unit off' size inb') := by
  subst h; rfl

/-- After one store through rows `off`, the same rows read the payload. -/
theorem ld_read_writes_same (v : View sig κ sp s e) (f : v.ty.Contents Val) {off size : Fin s.rank → ℕ}
    (inb inb' : ∀ a, off a + size a ≤ s.size a) (w : (Rect.unit off size inb).shape.Idx → Val e) :
    View.ld (v.read Val (v.writes Val f [(⟨Rect.unit off size inb, w⟩ : View.Piece Val s e)])) (Rect.unit off size inb') = w := by
  funext x
  exact View.read_writes_cons_unit_of_mem v f inb w [] ((Rect.unit off size inb').idx x) x rfl
    (fun a => by show off a + 1 * (x a).val = off a + (x a).val; rw [Nat.one_mul])

/-- After one store through rows `off`, rows that axis `a` keeps apart from them read what the buffer held. -/
theorem ld_read_writes_apart (v : View sig κ sp s e) (f : v.ty.Contents Val) {off size : Fin s.rank → ℕ}
    (inb : ∀ a, off a + size a ≤ s.size a) (w : (Rect.unit off size inb).shape.Idx → Val e)
    {off' size' : Fin s.rank → ℕ} (inb' : ∀ a, off' a + size' a ≤ s.size a) (a : Fin s.rank)
    (ha : off' a + size' a ≤ off a ∨ off a + size a ≤ off' a) :
    View.ld (v.read Val (v.writes Val f [(⟨Rect.unit off size inb, w⟩ : View.Piece Val s e)])) (Rect.unit off' size' inb')
      = View.ld (v.read Val f) (Rect.unit off' size' inb') := by
  funext x
  refine (View.read_writes_cons_unit_of_not_mem v f inb w [] ((Rect.unit off' size' inb').idx x) rfl a ?_).trans rfl
  have hx : (x a).val < size' a := (x a).isLt
  show off' a + 1 * (x a).val < off a ∨ off a + size a ≤ off' a + 1 * (x a).val
  omega

/-- One store through the whole shape leaves its payload, whatever the buffer held. -/
theorem read_writes_whole [∀ e, Nonempty (Val e)] (v : View sig κ sp s e) (f : v.ty.Contents Val) {off : Fin s.rank → ℕ}
    (h : off = fun _ => 0) (inb : ∀ a, off a + s.size a ≤ s.size a) (w : s.Idx → Val e) :
    v.read Val (v.writes Val f [(⟨Rect.unit off s.size inb, w⟩ : View.Piece Val s e)]) = w := by
  rw [View.read_writes_eq_canon v f _ (fun y => ⟨_, List.mem_singleton_self _, View.mem_set_unit_zero h inb y⟩),
    View.canon_unit_zero h]

/-- The covered read of a one-store list through the store's own rows is the payload. -/
theorem readCov_unit_same [∀ e, Nonempty (Val e)] (v : View sig κ sp s e) {off size : Fin s.rank → ℕ}
    (inb inb' : ∀ a, off a + size a ≤ s.size a) (w : (Rect.unit off size inb).shape.Idx → Val e) :
    v.readCov [(⟨Rect.unit off size inb, w⟩ : View.Piece Val s e)] (Rect.unit off size inb').toLoadRect = w :=
  ld_read_writes_same v v.junk inb inb' w

end Cert.UnitRows

end
-- ==== Proof.BitsRunReads.lean ====
/-
  The pieces the three runs found, read back.

  Every load of a whole staging buffer reads the buffer's contents, so each store's payload is the body's arithmetic of
  the input blocks themselves; a store through the whole result buffer leaves exactly its payload; the store of X·W₀
  through the whole first scratch array leaves X·W₀, and the two loads that follow it in the same point read its first
  and last 2048 rows. The store into the second scratch array goes through the 1024 rows 1024·t … 1024·t + 1023 only:
  if the array agreed with the hidden projection on its first 1024·t rows before, it agrees on its first 1024·(t + 1)
  rows after (`rowsOk_step`): a row below 1024·t is untouched, a row of the stored block reads the stored payload, and
  that payload is by definition the block of point t.
-/
import proofs.«181898_g33612414058620_cont_8to1_b_1984_15_alg».proof.Proof.BitsRunLate
import proofs.«181898_g33612414058620_cont_8to1_b_1984_15_alg».proof.Proof.BitsContents
import proofs.«181898_g33612414058620_cont_8to1_b_1984_15_alg».proof.Proof.LibUnitRows

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem hz2 : (![0, 0] : Fin 2 → ℕ) = fun _ => 0 := by funext a; fin_cases a <;> rfl
theorem hz3 : (![0, 0, 0] : Fin 3 → ℕ) = fun _ => 0 := by funext a; fin_cases a <;> rfl

section Reads

variable (c : Dev nD) (i : grid0.Coords) (arg1 : Memref sig .tc .vmem S1x1024x2048 .f32) (harg1 : arg1.IsWhole) (arg2 : Memref sig .tc .vmem S1x1024x2048 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S4096x256 .bf16) (harg9 : arg9.IsWhole) (arg10 : Memref sig .tc .vmem S4096x128 .bf16) (harg10 : arg10.IsWhole)
  (x0 x1 : Vec F S1x1024x2048 .f32) (x2 : Vec F S4096x256 .f32) (x3 : Vec F S256x256 .f32) (x4 : Vec F S1x256 .f32) (x5 : Vec F S256x128 .f32) (x6 : Vec F S1x128 .f32) (xs0 : Vec F S4096x256 .bf16) (xs1 : Vec F S4096x128 .bf16)

/-! ### A point 0 < t < 4 -/

theorem runMid_out (hcA : ¬condA i) (hcB : condB i) (hcC : ¬condC i) (f : arg8.view.ty.Contents (Elt F)) :
    arg8.view.read (Elt F) (arg8.view.writes (Elt F) f (runMid c i arg1 harg1 arg2 harg2 arg3 harg3 arg4 harg4 arg5 harg5 arg6 harg6 arg7 harg7 arg8 harg8 arg9 harg9 arg10 harg10 hcA hcB hcC x0 x1 x2 x3 x4 x5 x6 xs0 xs1).1)
      = k0_pay4 x0 x1 (View.ld xs0 (Rect.unit (s := S4096x256) ![0, 0] S2048x256.size inb_S4096x256_S2048x256_0_0)) (View.ld xs0 (Rect.unit (s := S4096x256) ![2048, 0] S2048x256.size inb_S4096x256_S2048x256_2048_0)) x4 x5 := by
  unfold runMid; dsimp only
  rw [Cert.UnitRows.read_writes_whole _ _ hz2]
  simp only [View.readAt_eq_ld, harg1.read_unread, harg2.read_unread, harg3.read_unread, harg4.read_unread, harg5.read_unread, harg6.read_unread, harg7.read_unread, harg9.read_unread, harg10.read_unread,
    View.ld_unit_zero (S := S1x1024x2048) hz3, View.ld_unit_zero (S := S4096x256) hz2, View.ld_unit_zero (S := S256x256) hz2, View.ld_unit_zero (S := S1x256) hz2, View.ld_unit_zero (S := S256x128) hz2, View.ld_unit_zero (S := S1x128) hz2]

theorem runMid_rows (hcA : ¬condA i) (hcB : condB i) (hcC : ¬condC i) :
    (runMid c i arg1 harg1 arg2 harg2 arg3 harg3 arg4 harg4 arg5 harg5 arg6 harg6 arg7 harg7 arg8 harg8 arg9 harg9 arg10 harg10 hcA hcB hcC x0 x1 x2 x3 x4 x5 x6 xs0 xs1).2.1
      = [⟨Rect.unit (s := S4096x128) (k0_off1 i) S1024x128.size (k0_off1_inb i hcB), k0_pay5 x0 x1 (View.ld xs0 (Rect.unit (s := S4096x256) ![0, 0] S2048x256.size inb_S4096x256_S2048x256_0_0)) (View.ld xs0 (Rect.unit (s := S4096x256) ![2048, 0] S2048x256.size inb_S4096x256_S2048x256_2048_0)) x4 x5⟩] := by
  unfold runMid; dsimp only
  simp only [View.readAt_eq_ld, harg1.read_unread, harg2.read_unread, harg3.read_unread, harg4.read_unread, harg5.read_unread, harg6.read_unread, harg7.read_unread, harg9.read_unread, harg10.read_unread,
    View.ld_unit_zero (S := S1x1024x2048) hz3, View.ld_unit_zero (S := S4096x256) hz2, View.ld_unit_zero (S := S256x256) hz2, View.ld_unit_zero (S := S1x256) hz2, View.ld_unit_zero (S := S256x128) hz2, View.ld_unit_zero (S := S1x128) hz2]

/-! ### The first point -/

theorem first_top : runFirst.sl.v15 c arg3 harg3 arg4 harg4 arg9 x2 x3 = View.ld (k0_pay1 x2 x3) (Rect.unit (s := S4096x256) ![0, 0] S2048x256.size inb_S4096x256_S2048x256_0_0) := by
  unfold runFirst.sl.v15 runFirst.sl.HS0_1
  rw [View.readCov_eq_canon_ld _ _ _ (fun y => ⟨_, List.mem_singleton_self _, View.mem_set_unit_zero hz2 inb_S4096x256_S4096x256_0_0 y⟩), View.canon_unit_zero hz2]
  simp only [View.readAt_eq_ld, harg3.read_unread, harg4.read_unread, View.ld_unit_zero (S := S4096x256) hz2, View.ld_unit_zero (S := S256x256) hz2]

theorem first_bot : runFirst.sl.v17 c arg3 harg3 arg4 harg4 arg9 x2 x3 = View.ld (k0_pay1 x2 x3) (Rect.unit (s := S4096x256) ![2048, 0] S2048x256.size inb_S4096x256_S2048x256_2048_0) := by
  unfold runFirst.sl.v17 runFirst.sl.HS0_1
  rw [View.readCov_eq_canon_ld _ _ _ (fun y => ⟨_, List.mem_singleton_self _, View.mem_set_unit_zero hz2 inb_S4096x256_S4096x256_0_0 y⟩), View.canon_unit_zero hz2]
  simp only [View.readAt_eq_ld, harg3.read_unread, harg4.read_unread, View.ld_unit_zero (S := S4096x256) hz2, View.ld_unit_zero (S := S256x256) hz2]

theorem runFirst_xw (hcA : condA i) (hcB : condB i) (hcC : ¬condC i) (f : arg9.view.ty.Contents (Elt F)) :
    arg9.view.read (Elt F) (arg9.view.writes (Elt F) f (runFirst c i arg1 harg1 arg2 harg2 arg3 harg3 arg4 harg4 arg5 harg5 arg6 harg6 arg7 harg7 arg8 harg8 arg9 harg9 arg10 harg10 hcA hcB hcC x0 x1 x2 x3 x4 x5 x6 xs0 xs1).2.1) = k0_pay1 x2 x3 := by
  unfold runFirst; dsimp only; unfold runFirst.sl.HS0_1
  rw [Cert.UnitRows.read_writes_whole _ _ hz2]
  simp only [View.readAt_eq_ld, harg1.read_unread, harg2.read_unread, harg3.read_unread, harg4.read_unread, harg5.read_unread, harg6.read_unread, harg7.read_unread, harg9.read_unread, harg10.read_unread,
    View.ld_unit_zero (S := S1x1024x2048) hz3, View.ld_unit_zero (S := S4096x256) hz2, View.ld_unit_zero (S := S256x256) hz2, View.ld_unit_zero (S := S1x256) hz2, View.ld_unit_zero (S := S256x128) hz2, View.ld_unit_zero (S := S1x128) hz2]

theorem runFirst_out (hcA : condA i) (hcB : condB i) (hcC : ¬condC i) (f : arg8.view.ty.Contents (Elt F)) :
    arg8.view.read (Elt F) (arg8.view.writes (Elt F) f (runFirst c i arg1 harg1 arg2 harg2 arg3 harg3 arg4 harg4 arg5 harg5 arg6 harg6 arg7 harg7 arg8 harg8 arg9 harg9 arg10 harg10 hcA hcB hcC x0 x1 x2 x3 x4 x5 x6 xs0 xs1).1)
      = k0_pay4 x0 x1 (View.ld (k0_pay1 x2 x3) (Rect.unit (s := S4096x256) ![0, 0] S2048x256.size inb_S4096x256_S2048x256_0_0)) (View.ld (k0_pay1 x2 x3) (Rect.unit (s := S4096x256) ![2048, 0] S2048x256.size inb_S4096x256_S2048x256_2048_0)) x4 x5 := by
  unfold runFirst; dsimp only
  rw [Cert.UnitRows.read_writes_whole _ _ hz2, first_top, first_bot]
  simp only [View.readAt_eq_ld, harg1.read_unread, harg2.read_unread, harg3.read_unread, harg4.read_unread, harg5.read_unread, harg6.read_unread, harg7.read_unread, harg9.read_unread, harg10.read_unread,
    View.ld_unit_zero (S := S1x1024x2048) hz3, View.ld_unit_zero (S := S4096x256) hz2, View.ld_unit_zero (S := S256x256) hz2, View.ld_unit_zero (S := S1x256) hz2, View.ld_unit_zero (S := S256x128) hz2, View.ld_unit_zero (S := S1x128) hz2]

theorem runFirst_rows (hcA : condA i) (hcB : condB i) (hcC : ¬condC i) :
    (runFirst c i arg1 harg1 arg2 harg2 arg3 harg3 arg4 harg4 arg5 harg5 arg6 harg6 arg7 harg7 arg8 harg8 arg9 harg9 arg10 harg10 hcA hcB hcC x0 x1 x2 x3 x4 x5 x6 xs0 xs1).2.2.1
      = [⟨Rect.unit (s := S4096x128) (k0_off1 i) S1024x128.size (k0_off1_inb i hcB), k0_pay5 x0 x1 (View.ld (k0_pay1 x2 x3) (Rect.unit (s := S4096x256) ![0, 0] S2048x256.size inb_S4096x256_S2048x256_0_0)) (View.ld (k0_pay1 x2 x3) (Rect.unit (s := S4096x256) ![2048, 0] S2048x256.size inb_S4096x256_S2048x256_2048_0)) x4 x5⟩] := by
  unfold runFirst; dsimp only
  rw [first_top, first_bot]
  simp only [View.readAt_eq_ld, harg1.read_unread, harg2.read_unread, harg3.read_unread, harg4.read_unread, harg5.read_unread, harg6.read_unread, harg7.read_unread, harg9.read_unread, harg10.read_unread,
    View.ld_unit_zero (S := S1x1024x2048) hz3, View.ld_unit_zero (S := S4096x256) hz2, View.ld_unit_zero (S := S256x256) hz2, View.ld_unit_zero (S := S1x256) hz2, View.ld_unit_zero (S := S256x128) hz2, View.ld_unit_zero (S := S1x128) hz2]

/-! ### A point t ≥ 4 -/

theorem runLate_out (hcA : ¬condA i) (hcB : ¬condB i) (hcC : condC i) (f : arg8.view.ty.Contents (Elt F)) :
    arg8.view.read (Elt F) (arg8.view.writes (Elt F) f (runLate c i arg1 harg1 arg2 harg2 arg3 harg3 arg4 harg4 arg5 harg5 arg6 harg6 arg7 harg7 arg8 harg8 arg9 harg9 arg10 harg10 hcA hcB hcC x0 x1 x2 x3 x4 x5 x6 xs0 xs1).1)
      = k0_pay6 x0 x1 (View.ld xs1 (Rect.unit (s := S4096x128) ![0, 0] S2048x128.size inb_S4096x128_S2048x128_0_0)) (View.ld xs1 (Rect.unit (s := S4096x128) ![2048, 0] S2048x128.size inb_S4096x128_S2048x128_2048_0)) x6 := by
  unfold runLate; dsimp only
  rw [Cert.UnitRows.read_writes_whole _ _ hz2]
  simp only [View.readAt_eq_ld, harg1.read_unread, harg2.read_unread, harg3.read_unread, harg4.read_unread, harg5.read_unread, harg6.read_unread, harg7.read_unread, harg9.read_unread, harg10.read_unread,
    View.ld_unit_zero (S := S1x1024x2048) hz3, View.ld_unit_zero (S := S4096x256) hz2, View.ld_unit_zero (S := S256x256) hz2, View.ld_unit_zero (S := S1x256) hz2, View.ld_unit_zero (S := S256x128) hz2, View.ld_unit_zero (S := S1x128) hz2]

end Reads

/-! ### The rows of the hidden projection known after a point below 4 -/

theorem rowsOk_step (c : Dev nD) (t : Fin cfg0.N) (hB : condB (grid0.coords t)) (d : Vec F S4096x128 .bf16)
    (h : RowsOk m c t.val d) :
    RowsOk m c (t.val + 1) (scM1.view.read (Elt F) (scM1.view.writes (Elt F) ((Memref.isWhole_whole cc0_scratch1).unread d)
      [⟨Rect.unit (s := S4096x128) (k0_off1 (grid0.coords t)) S1024x128.size (k0_off1_inb (grid0.coords t) hB), pblk m c t⟩])) := by
  intro i hi
  have hi0 : (i 0).val < 4096 := (i 0).isLt
  have hi1 : (i 1).val < 128 := (i 1).isLt
  have ht4 : t.val < 4 := (hcondB t).mp hB
  by_cases hlt : (i 0).val < 1024 * t.val
  · rw [View.read_writes_cons_unit_of_not_mem _ _ _ _ [] i (off1_eq t hB) 0 (Or.inl (by show (i 0).val < t.val * 1024; omega))]
    rw [View.writes_nil, Memref.IsWhole.read_unread]
    exact h i hlt
  · have hx : ∀ a, (i a).val = (![t.val * 1024, 0] : Fin 2 → ℕ) a
        + ((ix2 (⟨(i 0).val - 1024 * t.val, by omega⟩ : Fin 1024) (⟨(i 1).val, hi1⟩ : Fin 128) : S1024x128.Idx) a).val := fun a => by
      match a with
      | ⟨0, _⟩ => show (i 0).val = t.val * 1024 + ((i 0).val - 1024 * t.val); omega
      | ⟨1, _⟩ => show (i 1).val = 0 + (i 1).val; omega
    refine (View.read_writes_cons_unit_of_mem (s := S4096x128) (size := S1024x128.size) scM1.view _ (k0_off1_inb (grid0.coords t) hB) (pblk m c t) [] i
      (ix2 (⟨(i 0).val - 1024 * t.val, by omega⟩ : Fin 1024) (⟨(i 1).val, hi1⟩ : Fin 128)) (off1_eq t hB) hx).trans ?_
    unfold pall
    have e : (⟨(i 0).val / 1024, by rw [show cfg0.N = 8 from N_0]; omega⟩ : Fin cfg0.N) = t := Fin.ext (by show (i 0).val / 1024 = t.val; omega)
    have e2 : (⟨(i 0).val - 1024 * t.val, by omega⟩ : Fin 1024) = ⟨(i 0).val % 1024, Nat.mod_lt _ (by decide)⟩ := Fin.ext (by show (i 0).val - 1024 * t.val = (i 0).val % 1024; omega)
    rw [e, e2]

end Cert.Kernel.Fr

end
-- ==== Proof.BitsFrame.lean ====
/-
  The frame of the region: the proof data, the body at every grid point, and the run from the launch to the end.

  After the body at point t each input window's buffer still holds its block and the result window's buffer holds
  `outAt t`. Between points the invariant holds X·W₀ in the first scratch array and, in the second, some contents that
  agree with the hidden projection on the rows computed so far (1024·(t + 1) rows after point t < 4, all of them
  from point 3 on). The adjacency array is read by two windows (the left and the right column halves of a row block):
  each holds it read-only at one half of its share, dealt at the region's entry and joined again at its exit; the
  result array is the only one the write-backs change.
-/
import proofs.«181898_g33612414058620_cont_8to1_b_1984_15_alg».proof.Proof.BitsRunReads

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## The invariant -/

/-- Before position n: before the first point the two scratch arrays at anything; afterwards X·W₀ and the rows of the
    hidden projection computed so far. -/
def PhiS (c : Dev nD) : ℕ → sProp 𝕄
  | 0 => Pipeline.ΦA spec0 c
  | n + 1 => iprop(iprop(owns (c : Thread nD τ) scM0 fullShare (xw m c) ∗ (∃ d, ⌜RowsOk m c (min (n + 1) 4) d⌝ ∗ owns (c : Thread nD τ) scM1 fullShare d)) ∗ (∃ r, prngReg c r))

theorem PhiS_succ (c : Dev nD) (n : ℕ) :
    PhiS m c (n + 1) = iprop(iprop(owns (c : Thread nD τ) scM0 fullShare (xw m c) ∗ (∃ d, ⌜RowsOk m c (min (n + 1) 4) d⌝ ∗ owns (c : Thread nD τ) scM1 fullShare d)) ∗ (∃ r, prngReg c r)) := rfl

theorem PhiS_pos (c : Dev nD) (n : ℕ) (hz : n ≠ 0) :
    PhiS m c n = iprop(iprop(owns (c : Thread nD τ) scM0 fullShare (xw m c) ∗ (∃ d, ⌜RowsOk m c (min n 4) d⌝ ∗ owns (c : Thread nD τ) scM1 fullShare d)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt m c t := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- X·W₀'s two halves as the first point's own loads read them. -/
theorem xwTop_eq (c : Dev nD) : View.ld (k0_pay1 (iblk m c 2 t0_0) (iblk m c 3 t0_0)) (Rect.unit (s := S4096x256) ![0, 0] S2048x256.size inb_S4096x256_S2048x256_0_0) = xwTop m c := rfl
theorem xwBot_eq (c : Dev nD) : View.ld (k0_pay1 (iblk m c 2 t0_0) (iblk m c 3 t0_0)) (Rect.unit (s := S4096x256) ![2048, 0] S2048x256.size inb_S4096x256_S2048x256_2048_0) = xwBot m c := rfl

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0 t) fullShare ((dats m 0 c).after 0 t) from by
    unfold Dat.leavesExact; rw [liveAt0 t], after_0]
  rw [show (dats m 0 c).leavesExact 1 t = owns (c : Thread nD τ) (ms1 t) fullShare ((dats m 0 c).after 1 t) from by
    unfold Dat.leavesExact; rw [liveAt1 t], after_1]
  rw [show (dats m 0 c).leavesExact 2 t = owns (c : Thread nD τ) (ms2 t) fullShare ((dats m 0 c).after 2 t) from by
    unfold Dat.leavesExact; rw [liveAt2 t], after_2]
  rw [show (dats m 0 c).leavesExact 3 t = owns (c : Thread nD τ) (ms3 t) fullShare ((dats m 0 c).after 3 t) from by
    unfold Dat.leavesExact; rw [liveAt3 t], after_3]
  rw [show (dats m 0 c).leavesExact 4 t = owns (c : Thread nD τ) (ms4 t) fullShare ((dats m 0 c).after 4 t) from by
    unfold Dat.leavesExact; rw [liveAt4 t], after_4]
  rw [show (dats m 0 c).leavesExact 5 t = owns (c : Thread nD τ) (ms5 t) fullShare ((dats m 0 c).after 5 t) from by
    unfold Dat.leavesExact; rw [liveAt5 t], after_5]
  rw [show (dats m 0 c).leavesExact 6 t = owns (c : Thread nD τ) (ms6 t) fullShare ((dats m 0 c).after 6 t) from by
    unfold Dat.leavesExact; rw [liveAt6 t], after_6]
  rw [show (dats m 0 c).leavesExact 7 t = owns (c : Thread nD τ) (ms7 t) fullShare ((dats m 0 c).after 7 t) from by
    unfold Dat.leavesExact; rw [liveAt7 t], after_7]
  have hN : t.val < 8 := lt_of_lt_of_eq t.isLt (show cfg0.N = 8 from N_0)
  rw [Phi_castSucc m c t]
  by_cases h0 : t.val = 0
  · -- the first point
    have hA : condA (grid0.coords t) := (hcondA t).mpr h0
    have hB : condB (grid0.coords t) := (hcondB t).mpr (by omega)
    have hC : ¬condC (grid0.coords t) := fun h => by have := (hcondC t).mp h; omega
    obtain rfl : t = t0_0 := Fin.ext h0
    rw [show PhiS m c (t0_0 : Fin cfg0.N).val = Pipeline.ΦA spec0 c from rfl, PhiA0_eq]
    iintro ⟨⟨⟨⟨%d0, HS0⟩, ⟨%d1, HS1⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
    iapply ((runFirst c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) (ms7 t0_0) (hs7 t0_0) scM0 (Memref.isWhole_whole _) scM1 (Memref.isWhole_whole _) hA hB hC (iblk m c 0 t0_0) (iblk m c 1 t0_0) (iblk m c 2 t0_0) (iblk m c 3 t0_0) (iblk m c 4 t0_0) (iblk m c 5 t0_0) (iblk m c 6 t0_0) d0 d1).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, ⟨%f7, H7⟩, HS0, HS1⟩
    isplitl [HS0 HS1 Hg]
    · isplitl [HS0 HS1]
      · isplitl [HS0]
        · unfold owns; iexists _; isplitr
          swap; · iexact HS0
          ipureintro; exact runFirst_xw c _ (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) (ms7 t0_0) (hs7 t0_0) scM0 (Memref.isWhole_whole _) scM1 (Memref.isWhole_whole _) (iblk m c 0 t0_0) (iblk m c 1 t0_0) (iblk m c 2 t0_0) (iblk m c 3 t0_0) (iblk m c 4 t0_0) (iblk m c 5 t0_0) (iblk m c 6 t0_0) d0 d1 hA hB hC _
        · iexists _; isplitr
          swap
          · unfold owns; iexists _; isplitr
            swap; · iexact HS1
            ipureintro; rfl
          ipureintro
          rw [runFirst_rows c _ (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) (ms7 t0_0) (hs7 t0_0) scM0 (Memref.isWhole_whole _) scM1 (Memref.isWhole_whole _) (iblk m c 0 t0_0) (iblk m c 1 t0_0) (iblk m c 2 t0_0) (iblk m c 3 t0_0) (iblk m c 4 t0_0) (iblk m c 5 t0_0) (iblk m c 6 t0_0) d0 d1 hA hB hC, xwTop_eq, xwBot_eq]
          exact rowsOk_step m c t0_0 hB d1 (fun i hi => absurd hi (by show ¬ (i 0).val < 1024 * 0; omega))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro
    rw [outAt_lo m c t0_0 (by show (0 : ℕ) < 4; omega), runFirst_out c _ (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) (ms7 t0_0) (hs7 t0_0) scM0 (Memref.isWhole_whole _) scM1 (Memref.isWhole_whole _) (iblk m c 0 t0_0) (iblk m c 1 t0_0) (iblk m c 2 t0_0) (iblk m c 3 t0_0) (iblk m c 4 t0_0) (iblk m c 5 t0_0) (iblk m c 6 t0_0) d0 d1 hA hB hC, xwTop_eq, xwBot_eq]
    rfl
  · have hA : ¬condA (grid0.coords t) := fun h => h0 ((hcondA t).mp h)
    rw [PhiS_pos m c _ h0]
    by_cases h4 : t.val < 4
    · -- a point 0 < t < 4
      have hB : condB (grid0.coords t) := (hcondB t).mpr h4
      have hC : ¬condC (grid0.coords t) := fun h => by have := (hcondC t).mp h; omega
      iintro ⟨⟨⟨HS0, ⟨%d1, %hd1, HS1⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
      iapply ((runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) hA hB hC (iblk m c 0 t) (iblk m c 1 t) (iblk m c 2 t) (iblk m c 3 t) (iblk m c 4 t) (iblk m c 5 t) (iblk m c 6 t) (xw m c) d1).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, ⟨%f7, H7⟩, HS0, HS1⟩
      isplitl [HS0 HS1 Hg]
      · isplitl [HS0 HS1]
        · isplitl [HS0]
          · iexact HS0
          · iexists _; isplitr
            swap
            · unfold owns; iexists _; isplitr
              swap; · iexact HS1
              ipureintro; rfl
            ipureintro
            rw [runMid_rows c _ (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) (iblk m c 0 t) (iblk m c 1 t) (iblk m c 2 t) (iblk m c 3 t) (iblk m c 4 t) (iblk m c 5 t) (iblk m c 6 t) (xw m c) d1 hA hB hC]
            rw [show min (t.val + 1) 4 = t.val + 1 from by omega]
            exact rowsOk_step m c t hB d1 (by rw [show min t.val 4 = t.val from by omega] at hd1; exact hd1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro
      rw [outAt_lo m c t h4, runMid_out c _ (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) (iblk m c 0 t) (iblk m c 1 t) (iblk m c 2 t) (iblk m c 3 t) (iblk m c 4 t) (iblk m c 5 t) (iblk m c 6 t) (xw m c) d1 hA hB hC]
      rfl
    · -- a point t ≥ 4
      have hB : ¬condB (grid0.coords t) := fun h => h4 ((hcondB t).mp h)
      have hC : condC (grid0.coords t) := (hcondC t).mpr (by omega)
      iintro ⟨⟨⟨HS0, ⟨%d1, %hd1, HS1⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
      obtain rfl : d1 = pall m c := RowsOk.eq_pall m hd1 (by omega)
      iapply ((runLate c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) hA hB hC (iblk m c 0 t) (iblk m c 1 t) (iblk m c 2 t) (iblk m c 3 t) (iblk m c 4 t) (iblk m c 5 t) (iblk m c 6 t) (xw m c) (pall m c)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, ⟨%f7, H7⟩, HS0, HS1⟩
      isplitl [HS0 HS1 Hg]
      · isplitl [HS0 HS1]
        · isplitl [HS0]
          · iexact HS0
          · iexists _; isplitr
            swap; · iexact HS1
            ipureintro
            exact fun i _ => rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro
      rw [outAt_hi m c t h4, runLate_out c _ (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) (iblk m c 0 t) (iblk m c 1 t) (iblk m c 2 t) (iblk m c 3 t) (iblk m c 4 t) (iblk m c 5 t) (iblk m c 6 t) (xw m c) (pall m c) hA hB hC]
      rfl

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 8 := N_0; omega), PhiA0_eq]
  iintro ⟨⟨HS0, ⟨%d1, -, HS1⟩⟩, Hg⟩
  isplitl [HS0 HS1]
  · isplitl [HS0]
    · iexists _; iexact HS0
    · iexists _; iexact HS1
  iexact Hg

end Cert.Kernel.Fr

end
-- ==== Proof.BitsLaunch.lean ====
/-
  The run of @main from the launch to the end.

  The adjacency array stands behind two windows. Before the region it is held once, whole; at the region's entry its
  share is cut in two halves, one per window, and each window holds the array read-only; at the exit the two halves
  are put together again. Every other array stands behind one window and is held whole. The region changes the
  result array only: at the exit every buffer holds what it held at the entry, except the result array, which holds what
  the write-backs left in it.
-/
import proofs.«181898_g33612414058620_cont_8to1_b_1984_15_alg».proof.Proof.BitsFrame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrRef)

/-- The buffers' contents at the region's exit: the result array at what the write-backs left, everything else as at
    the entry. -/
def Wexit (c : Dev nD) : Valuation τ sig (Elt F) := by
  classical
  exact Function.update (V0 m c) (Proc.devRef .tc main_v0) ((dats m 0 c).arrAt 7 cfg0.N)

theorem Wexit_out (c : Dev nD) : Wexit m c (Proc.devRef .tc main_v0) = (dats m 0 c).arrAt 7 cfg0.N := by
  classical
  unfold Wexit
  exact Function.update_self _ _ _

theorem Wexit_of_ne (c : Dev nD) (b : Ref sig .tc) (h : b ≠ main_v0) : Wexit m c (Proc.devRef .tc b) = V0 m c (Proc.devRef .tc b) := by
  classical
  unfold Wexit
  exact Function.update_of_ne (fun e => h (Proc.devRef_injective _ e)) _ _

/-- The distinct buffers behind the windows, one by one. -/
theorem arrBufs_eq (c : Dev nD) (Vv : (b : Ref sig .tc) → Buf (Elt F) ((c.tc : Thread nD τ).loc b)) :
    (Pipeline.arrBufs spec0 c Vv : sProp 𝕄)
      = iprop((((c.tc : Thread nD τ).loc main_arg1) ↦{fullShare} Vv main_arg1) ∗ (((c.tc : Thread nD τ).loc main_arg0) ↦{fullShare} Vv main_arg0) ∗ (((c.tc : Thread nD τ).loc main_arg2) ↦{fullShare} Vv main_arg2) ∗ (((c.tc : Thread nD τ).loc main_call0_v0) ↦{fullShare} Vv main_call0_v0) ∗ (((c.tc : Thread nD τ).loc main_arg4) ↦{fullShare} Vv main_arg4) ∗ (((c.tc : Thread nD τ).loc main_call0_v1) ↦{fullShare} Vv main_call0_v1) ∗ (((c.tc : Thread nD τ).loc main_v0) ↦{fullShare} Vv main_v0)) := by
  unfold Pipeline.arrBufs
  exact bigSep_eq_bigSepL_of_eq [main_arg1, main_arg0, main_arg2, main_call0_v0, main_arg4, main_call0_v1, main_v0] (by decide) (by decide) _

/-- The windows' arrays as the proof data holds them, one by one: the adjacency array twice, at the two halves of the
    full share; every other array whole. -/
theorem arrays_eq (c : Dev nD) (Fw : (w : Fin cfg0.W) → Buf (Elt F) ((cfg0.win w).arr.view.loc (c.tc : Thread nD τ))) :
    ((dats m 0 c).arrays Fw : sProp 𝕄)
      = iprop((((c.tc : Thread nD τ).loc main_arg1) ↦{fullShare.left} Fw 0) ∗ (((c.tc : Thread nD τ).loc main_arg1) ↦{fullShare.right} Fw 1) ∗ (((c.tc : Thread nD τ).loc main_arg0) ↦{fullShare} Fw 2) ∗ (((c.tc : Thread nD τ).loc main_arg2) ↦{fullShare} Fw 3) ∗ (((c.tc : Thread nD τ).loc main_call0_v0) ↦{fullShare} Fw 4) ∗ (((c.tc : Thread nD τ).loc main_arg4) ↦{fullShare} Fw 5) ∗ (((c.tc : Thread nD τ).loc main_call0_v1) ↦{fullShare} Fw 6) ∗ (((c.tc : Thread nD τ).loc main_v0) ↦{fullShare} Fw 7)) := by
  unfold Dat.arrays
  rw [bigSep_W0]
  rw [show (cfg0.win 0).arr.view.set = Finset.univ from (arr_whole0 0).set_eq_univ]
  rw [show (cfg0.win 2).arr.view.set = Finset.univ from (arr_whole0 2).set_eq_univ]
  rw [show (cfg0.win 3).arr.view.set = Finset.univ from (arr_whole0 3).set_eq_univ]
  rw [show (cfg0.win 4).arr.view.set = Finset.univ from (arr_whole0 4).set_eq_univ]
  rw [show (cfg0.win 5).arr.view.set = Finset.univ from (arr_whole0 5).set_eq_univ]
  rw [show (cfg0.win 6).arr.view.set = Finset.univ from (arr_whole0 6).set_eq_univ]
  rw [show (cfg0.win 7).arr.view.set = Finset.univ from (arr_whole0 7).set_eq_univ]
  rfl

/-- At the entry: the adjacency array's share is cut in two, one half per window. -/
theorem hdeal (c : Dev nD) :
    (Pipeline.arrBufs spec0 c (fun b => V0 m c (Proc.devRef .tc b)) : sProp 𝕄) ⊢ (dats m 0 c).arrays ((dats m 0 c).arrAt · 0) := by
  rw [arrBufs_eq, arrays_eq]
  iintro ⟨Ha, H2, H3, H4, H5, H6, H7⟩
  ihave Hlr := (pointsTo_share (PosShare.mem_left_op_right fullShare)).1 $$ Ha
  icases Hlr with ⟨Hl, Hr⟩
  isplitl [Hl]; · iexact Hl
  isplitl [Hr]; · iexact Hr
  isplitl [H2]; · iexact H2
  isplitl [H3]; · iexact H3
  isplitl [H4]; · iexact H4
  isplitl [H5]; · iexact H5
  isplitl [H6]; · iexact H6
  iexact H7

/-- An input array is never written back. -/
theorem arrAt_in (c : Dev nD) (w : Fin cfg0.W) (hw : (cfg0.win w).isOut = false) (n : ℕ) :
    (dats m 0 c).arrAt w n = V m c (Pipeline.arrRef spec0 w) :=
  ((dats m 0 c).arrAt_in w hw n).trans (A_eq m c w)

/-- At the exit: the two halves are joined again. -/
theorem hjoin (c : Dev nD) :
    (dats m 0 c).arrays ((dats m 0 c).arrAt · cfg0.N) ⊢ (Pipeline.arrBufs spec0 c (fun b => Wexit m c (Proc.devRef .tc b)) : sProp 𝕄) := by
  rw [arrBufs_eq, arrays_eq]
  rw [arrAt_in m c 0 rfl, arrAt_in m c 1 rfl, arrAt_in m c 2 rfl, arrAt_in m c 3 rfl, arrAt_in m c 4 rfl, arrAt_in m c 5 rfl, arrAt_in m c 6 rfl]
  rw [Wexit_of_ne m c main_arg1 (by decide), Wexit_of_ne m c main_arg0 (by decide), Wexit_of_ne m c main_arg2 (by decide), Wexit_of_ne m c main_call0_v0 (by decide), Wexit_of_ne m c main_arg4 (by decide), Wexit_of_ne m c main_call0_v1 (by decide), Wexit_out]
  iintro ⟨Hl, Hr, H2, H3, H4, H5, H6, H7⟩
  isplitl [Hl Hr]
  · iapply (pointsTo_share (PosShare.mem_left_op_right fullShare)).2
    isplitl [Hl]; · iexact Hl
    iexact Hr
  isplitl [H2]; · iexact H2
  isplitl [H3]; · iexact H3
  isplitl [H4]; · iexact H4
  isplitl [H5]; · iexact H5
  isplitl [H6]; · iexact H6
  iexact H7

/-- And cut again, should anything follow the region. -/
theorem hdeal' (c : Dev nD) :
    (Pipeline.arrBufs spec0 c (fun b => Wexit m c (Proc.devRef .tc b)) : sProp 𝕄) ⊢ (dats m 0 c).arrays ((dats m 0 c).arrAt · cfg0.N) := by
  rw [arrBufs_eq, arrays_eq]
  rw [arrAt_in m c 0 rfl, arrAt_in m c 1 rfl, arrAt_in m c 2 rfl, arrAt_in m c 3 rfl, arrAt_in m c 4 rfl, arrAt_in m c 5 rfl, arrAt_in m c 6 rfl]
  rw [Wexit_of_ne m c main_arg1 (by decide), Wexit_of_ne m c main_arg0 (by decide), Wexit_of_ne m c main_arg2 (by decide), Wexit_of_ne m c main_call0_v0 (by decide), Wexit_of_ne m c main_arg4 (by decide), Wexit_of_ne m c main_call0_v1 (by decide), Wexit_out]
  iintro ⟨Ha, H2, H3, H4, H5, H6, H7⟩
  ihave Hlr := (pointsTo_share (PosShare.mem_left_op_right fullShare)).1 $$ Ha
  icases Hlr with ⟨Hl, Hr⟩
  isplitl [Hl]; · iexact Hl
  isplitl [Hr]; · iexact Hr
  isplitl [H2]; · iexact H2
  isplitl [H3]; · iexact H3
  isplitl [H4]; · iexact H4
  isplitl [H5]; · iexact H5
  isplitl [H6]; · iexact H6
  iexact H7

/-- Off the windows' arrays the exit contents are the entry contents. -/
theorem hWrest (c : Dev nD) : ∀ b ∈ Pipeline.restRefs sig spec0, Wexit m c (Proc.devRef .tc b) = V0 m c (Proc.devRef .tc b) := by
  intro b hb
  refine Wexit_of_ne m c b (fun e => ?_)
  subst e
  revert hb
  decide

set_option backward.isDefEq.respectTransparency.types false in
/-- THE RUN: every weakly fair execution of @main terminates; each window's array ends at what the write-backs leave in
    it, and every other unscoped buffer as the region found it. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N)
        ∧ ∀ b ∈ Pipeline.restRefs sig spec0, r.2.mem ((c.tc : Thread nD τ).loc b) = Cert.SharedFrame.finalAt (Wexit m) [] c b) :=
  Cert.SharedFrame.θ_run_around_shared cfgs (dats m) (0 : Fin 1) defs₀ Variants.none
    cellOf_inj winFacts₀0 block_pos0 arr_whole0 stage_whole0 m ρ main
    (hbody := fun c => (body_obligation m c).loose) (howed := fun _ _ => rfl)
    (V₀ := V0 m) (W := Wexit m) (opss := [])
    (hsub := fun _ h => absurd h (List.not_mem_nil)) (hfresh := fun _ h => absurd h (List.not_mem_nil)) (hkeep := fun _ h => absurd h (List.not_mem_nil))
    (hmain := hmain m Variants.none) (hWrest := hWrest m)
    (hdeal := hdeal m) (hjoin := hjoin m) (hdeal' := hdeal' m) (hin := hin m) (hout := hout m)

/-- THE FRAME: the argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 2).trans ((arrAt_in m c 2 rfl _).trans (V_main_arg0 m c)),
     ((h c).1 0).trans ((arrAt_in m c 0 rfl _).trans (V_main_arg1 m c)),
     ((h c).1 3).trans ((arrAt_in m c 3 rfl _).trans (V_main_arg2 m c)),
     ((h c).2 main_arg3 (by decide)).trans ((hWrest m c main_arg3 (by decide)).trans (V_main_arg3 m c)),
     ((h c).1 5).trans ((arrAt_in m c 5 rfl _).trans (V_main_arg4 m c)),
     ((h c).2 main_arg5 (by decide)).trans ((hWrest m c main_arg5 (by decide)).trans (V_main_arg5 m c))⟩) (run_main m ρ)

end Cert.Kernel.Fr

end
-- ==== Proof.IdealFrameBase.lean ====
/-
  The region of the two-layer graph convolution as the launch sees it: what the arrays hold when the region is entered,
  @main as the reshapes of the two bias vectors followed by the region, each input window's block at a grid point, the
  three conditions the body branches on decided over the eight grid points (the first point; points 0 to 3, which
  compute a row block of the hidden projection; points 4 to 7, which compute a row block of the result), and the two
  scratch arrays (X·W₀ and the hidden projection) as memrefs the invariant owns.
-/
import proofs.«181898_g33612414058620_cont_8to1_b_1984_15_alg».proof.Proof.Gen.KernelIdeal.Launch
import proofs.«181898_g33612414058620_cont_8to1_b_1984_15_alg».proof.Proof.Gen.KernelIdeal.Skeleton
import proofs.«181898_g33612414058620_cont_8to1_b_1984_15_alg».proof.Proof.Gen.KernelIdeal.Points
import proofs.«181898_g33612414058620_cont_8to1_b_1984_15_alg».proof.Proof.LibSharedFrame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the two reshapes of the bias vectors. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the two reshapes, then the region, then nothing. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (([] : List (List (HloOp τ sig (Elt F)))).map StableHlo.seq)) :=
  Pipeline.hmain_around cfgs 0 defs₀ 𝒱₀ m main [hostOps0] [] (by simp only [List.Forall]; exact hostOps0_sub)
    (by simp only [List.Forall]; exact hostOps0_fresh) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's three conditions over the grid -/

/-- "This is the first point": the condition under which X·W₀ is computed into the first scratch array. -/
abbrev condA (i : grid0.Coords) : Prop := (Scalar.cmpi .ne (Scalar.extui (Scalar.cmpi .eq (BitVec.ofNat 32 (i 0).val) 0#32)) 0#32) = 1#1
theorem hcondA : ∀ t : Fin cfg0.N, condA (grid0.coords t) ↔ t.val = 0 :=
  (by decide +kernel : ∀ t : Fin grid0.N, condA (grid0.coords t) ↔ t.val = 0)

/-- "The point is below 4": a row block of the hidden projection is computed. -/
abbrev condB (i : grid0.Coords) : Prop := k0_cond2 i = 1#1
theorem hcondB : ∀ t : Fin cfg0.N, condB (grid0.coords t) ↔ t.val < 4 :=
  (by decide +kernel : ∀ t : Fin grid0.N, condB (grid0.coords t) ↔ t.val < 4)

/-- "The point is 4 or above": a row block of the result is computed. -/
abbrev condC (i : grid0.Coords) : Prop := k0_cond3 i = 1#1
theorem hcondC : ∀ t : Fin cfg0.N, condC (grid0.coords t) ↔ 4 ≤ t.val :=
  (by decide +kernel : ∀ t : Fin grid0.N, condC (grid0.coords t) ↔ 4 ≤ t.val)

/-- Below point 4 the rows of the hidden projection a point stores are rows 1024·t to 1024·t + 1023. -/
theorem off1_eq : ∀ t : Fin cfg0.N, condB (grid0.coords t) → k0_off1 (grid0.coords t) = ![t.val * 1024, 0] :=
  (by decide +kernel : ∀ t : Fin grid0.N, condB (grid0.coords t) → k0_off1 (grid0.coords t) = ![t.val * 1024, 0])

/-- No window is idle at any point (the result window is stored at every point). -/
theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
theorem liveAt6 : ∀ t : Fin cfg0.N, cfg0.idle 6 (grid0.coords t) = false := by decide +kernel
theorem liveAt7 : ∀ t : Fin cfg0.N, cfg0.idle 7 (grid0.coords t) = false := by decide +kernel

/-! ## The staging and scratch memrefs -/

abbrev ms0 (t : Fin cfg0.N) : Memref sig .tc .vmem S1x1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x128 .f32 := win0_7.stage (cfg0.slots t 7)
abbrev hs7 (t : Fin cfg0.N) : (ms7 t).IsWhole := hstage0_7 ((cfg0.slots t 7).cast nbuf0_7)
/-- The two scratch arrays: X·W₀ [4096, 256] and the hidden projection [4096, 128], both bf16. -/
abbrev scM0 : Memref sig .tc .vmem S4096x256 .bf16 := Memref.whole cc0_scratch0
abbrev scM1 : Memref sig .tc .vmem S4096x128 .bf16 := Memref.whole cc0_scratch1

/-- Before the first point the invariant is the two scratch arrays at some contents and the generator register. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

end Cert.KernelIdeal.Fr

end
-- ==== Proof.IdealRunMid.lean ====
/-
  The body at a point t with 0 < t < 4: X·W₀ is already in the first scratch array; the point multiplies its two half
  row blocks of A₀ with the two halves of X·W₀, adds b₀, rectifies, multiplies by W₁, stores the 1024 rows
  1024·t … 1024·t + 1023 of the hidden projection into the second scratch array and the same block into the result
  window (a placeholder that a later point overwrites). The run leaves the inputs and the first scratch as they were.
-/
import proofs.«181898_g33612414058620_cont_8to1_b_1984_15_alg».proof.Proof.IdealFrameBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the point leaves in the result window's buffer and in the second scratch array, with the run that finds
    them: from the inputs at their contents, the result window's buffer at anything, the first scratch at `xs0` and the
    second at `xs1`, the body runs and hands everything back, the result buffer and the second scratch with the pieces
    written over what they held. -/
noncomputable def runMid (c : Dev nD) (i : grid0.Coords) (arg1 : Memref sig .tc .vmem S1x1024x2048 .f32) (harg1 : arg1.IsWhole) (arg2 : Memref sig .tc .vmem S1x1024x2048 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S4096x256 .bf16) (harg9 : arg9.IsWhole) (arg10 : Memref sig .tc .vmem S4096x128 .bf16) (harg10 : arg10.IsWhole) (hcA : ¬condA i) (hcB : condB i) (hcC : ¬condC i)
    (x0 x1 : Vec F S1x1024x2048 .f32) (x2 : Vec F S4096x256 .f32) (x3 : Vec F S256x256 .f32) (x4 : Vec F S1x256 .f32) (x5 : Vec F S256x128 .f32) (x6 : Vec F S1x128 .f32) (xs0 : Vec F S4096x256 .bf16) (xs1 : Vec F S4096x128 .bf16) :
    Σ' (L7 : List (View.Piece (Elt F) S1024x128 .f32)), { LS1 : List (View.Piece (Elt F) S4096x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7)
                ∗ owns (c : Thread nD τ) arg9 fullShare xs0
                ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg9.eq_unread hfs0; obtain rfl := harg10.eq_unread hfs1
    sl_exec (disch := first | exact hcA | exact hcB | exact hcC)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    isplitl [HS0]
    · iexists _; isplitr; · ipureintro; exact harg9.read_unread _
      iexact HS0
    iexact HS1

end Cert.KernelIdeal.Fr

end
-- ==== Proof.IdealRunFirst.lean ====
/-
  The body at the first point: X·W₀ is computed from the whole X and W₀ and stored into the first scratch array, then the
  point proceeds as every point below 4: its two half row blocks of A₀ times the two halves of X·W₀ just stored, plus
  b₀, rectified, times W₁, stored as rows 0 … 1023 of the hidden projection in the second scratch array and as a
  placeholder in the result window.
-/
import proofs.«181898_g33612414058620_cont_8to1_b_1984_15_alg».proof.Proof.IdealRunMid

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the first point leaves in the result window's buffer, the first scratch array and the second, with the
    run that finds them. -/
noncomputable def runFirst (c : Dev nD) (i : grid0.Coords) (arg1 : Memref sig .tc .vmem S1x1024x2048 .f32) (harg1 : arg1.IsWhole) (arg2 : Memref sig .tc .vmem S1x1024x2048 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S4096x256 .bf16) (harg9 : arg9.IsWhole) (arg10 : Memref sig .tc .vmem S4096x128 .bf16) (harg10 : arg10.IsWhole) (hcA : condA i) (hcB : condB i) (hcC : ¬condC i)
    (x0 x1 : Vec F S1x1024x2048 .f32) (x2 : Vec F S4096x256 .f32) (x3 : Vec F S256x256 .f32) (x4 : Vec F S1x256 .f32) (x5 : Vec F S256x128 .f32) (x6 : Vec F S1x128 .f32) (xs0 : Vec F S4096x256 .bf16) (xs1 : Vec F S4096x128 .bf16) :
    Σ' (L7 : List (View.Piece (Elt F) S1024x128 .f32)) (LS0 : List (View.Piece (Elt F) S4096x256 .bf16)), { LS1 : List (View.Piece (Elt F) S4096x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7)
                ∗ (arg9.view.loc (c : Thread nD τ) ↦[arg9.view.set]{fullShare} arg9.view.writes (Elt F) (harg9.unread xs0) LS0)
                ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg9.eq_unread hfs0; obtain rfl := harg10.eq_unread hfs1
    sl_exec (disch := first | exact hcA | exact hcB | exact hcC)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    isplitl [HS0]
    · iexact HS0
    iexact HS1

end Cert.KernelIdeal.Fr

end
-- ==== Proof.IdealRunLate.lean ====
/-
  The body at a point t ≥ 4: the hidden projection is complete in the second scratch array; the point multiplies its two
  half row blocks of A₁ with the two halves of the hidden projection, adds b₁, and stores the log-softmax of each of its
  1024 rows into the result window. Both scratch arrays and the inputs are left as they were.
-/
import proofs.«181898_g33612414058620_cont_8to1_b_1984_15_alg».proof.Proof.IdealRunFirst

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces a late point leaves in the result window's buffer, with the run that finds them. -/
noncomputable def runLate (c : Dev nD) (i : grid0.Coords) (arg1 : Memref sig .tc .vmem S1x1024x2048 .f32) (harg1 : arg1.IsWhole) (arg2 : Memref sig .tc .vmem S1x1024x2048 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S4096x256 .bf16) (harg9 : arg9.IsWhole) (arg10 : Memref sig .tc .vmem S4096x128 .bf16) (harg10 : arg10.IsWhole) (hcA : ¬condA i) (hcB : ¬condB i) (hcC : condC i)
    (x0 x1 : Vec F S1x1024x2048 .f32) (x2 : Vec F S4096x256 .f32) (x3 : Vec F S256x256 .f32) (x4 : Vec F S1x256 .f32) (x5 : Vec F S256x128 .f32) (x6 : Vec F S1x128 .f32) (xs0 : Vec F S4096x256 .bf16) (xs1 : Vec F S4096x128 .bf16) :
    { L7 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7)
                ∗ owns (c : Thread nD τ) arg9 fullShare xs0
                ∗ owns (c : Thread nD τ) arg10 fullShare xs1) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg9.eq_unread hfs0; obtain rfl := harg10.eq_unread hfs1
    sl_exec (disch := first | exact hcA | exact hcB | exact hcC)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    isplitl [HS0]
    · iexists _; isplitr; · ipureintro; exact harg9.read_unread _
      iexact HS0
    iexists _; isplitr; · ipureintro; exact harg10.read_unread _
    iexact HS1

end Cert.KernelIdeal.Fr

end
-- ==== Proof.IdealContents.lean ====
/-
  What the two scratch arrays and the result window's buffer hold, as functions of the windows' blocks.

  X·W₀ is computed once, at the first point, from the whole X and W₀ (`xw`); it is read back as its first and its last
  2048 rows (`xwTop`, `xwBot`). A point t below 4 computes the row block t of the hidden projection from its two half row
  blocks of A₀, those two halves of X·W₀, b₀ and W₁ (`pblk`, and `pblk32` for the copy it leaves in the result window
  before the format change). The whole hidden projection is those four blocks one above the other (`pall`: row r is
  row r mod 1024 of block r div 1024), read back as its two halves of 2048 rows (`pTop`, `pBot`). A point t from 4 on
  computes its result block from its two half row blocks of A₁, the two halves of the hidden projection and b₁
  (`oblk`). `RowsOk n d` says that an array `d` agrees with the hidden projection on its first 1024·n rows: what is known
  of the second scratch array after point n − 1.
-/
import proofs.«181898_g33612414058620_cont_8to1_b_1984_15_alg».proof.Proof.IdealFrameBase
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- X·W₀, as the first point computes it. -/
def xw (c : Dev nD) : Vec F S4096x256 .bf16 := k0_pay1 (iblk m c 2 t0_0) (iblk m c 3 t0_0)
/-- Its first 2048 rows and its last 2048 rows. -/
def xwTop (c : Dev nD) : Vec F S2048x256 .bf16 := View.ld (xw m c) (Rect.unit ![0, 0] S2048x256.size inb_S4096x256_S2048x256_0_0)
def xwBot (c : Dev nD) : Vec F S2048x256 .bf16 := View.ld (xw m c) (Rect.unit ![2048, 0] S2048x256.size inb_S4096x256_S2048x256_2048_0)

/-- The row block of the hidden projection a point computes, before and after the change of format. -/
def pblk32 (c : Dev nD) (t : Fin cfg0.N) : Vec F S1024x128 .f32 :=
  k0_pay4 (iblk m c 0 t) (iblk m c 1 t) (xwTop m c) (xwBot m c) (iblk m c 4 t) (iblk m c 5 t)
def pblk (c : Dev nD) (t : Fin cfg0.N) : Vec F S1024x128 .bf16 :=
  k0_pay5 (iblk m c 0 t) (iblk m c 1 t) (xwTop m c) (xwBot m c) (iblk m c 4 t) (iblk m c 5 t)

/-- The whole hidden projection: row r is row r mod 1024 of the block of point r div 1024. -/
def pall (c : Dev nD) : Vec F S4096x128 .bf16 := fun i =>
  pblk m c ⟨(i 0).val / 1024, by have h : (i 0).val < 4096 := (i 0).isLt; rw [show cfg0.N = 8 from N_0]; omega⟩
    (ix2 (⟨(i 0).val % 1024, Nat.mod_lt _ (by decide)⟩ : Fin 1024) (⟨(i 1).val, (i 1).isLt⟩ : Fin 128))
/-- Its first 2048 rows and its last 2048 rows. -/
def pTop (c : Dev nD) : Vec F S2048x128 .bf16 := View.ld (pall m c) (Rect.unit ![0, 0] S2048x128.size inb_S4096x128_S2048x128_0_0)
def pBot (c : Dev nD) : Vec F S2048x128 .bf16 := View.ld (pall m c) (Rect.unit ![2048, 0] S2048x128.size inb_S4096x128_S2048x128_2048_0)

/-- The result block a point from 4 on computes. -/
def oblk (c : Dev nD) (t : Fin cfg0.N) : Vec F S1024x128 .f32 :=
  k0_pay6 (iblk m c 0 t) (iblk m c 1 t) (pTop m c) (pBot m c) (iblk m c 6 t)

/-- What the result window's buffer holds after point t. -/
def outAt (c : Dev nD) (t : Fin cfg0.N) : Vec F S1024x128 .f32 := if t.val < 4 then pblk32 m c t else oblk m c t

theorem outAt_lo (c : Dev nD) (t : Fin cfg0.N) (h : t.val < 4) : outAt m c t = pblk32 m c t := if_pos h
theorem outAt_hi (c : Dev nD) (t : Fin cfg0.N) (h : ¬ t.val < 4) : outAt m c t = oblk m c t := if_neg h

/-- `d` agrees with the hidden projection on its first 1024·n rows. -/
def RowsOk (c : Dev nD) (n : ℕ) (d : Vec F S4096x128 .bf16) : Prop :=
  ∀ i : S4096x128.Idx, (i 0).val < 1024 * n → d i = pall m c i

/-- All 4096 rows: the array is the hidden projection. -/
theorem RowsOk.eq_pall {c : Dev nD} {n : ℕ} {d : Vec F S4096x128 .bf16} (h : RowsOk m c n d) (hn : 4 ≤ n) : d = pall m c :=
  funext fun i => h i (by have h : (i 0).val < 4096 := (i 0).isLt; omega)

theorem RowsOk.mono {c : Dev nD} {n n' : ℕ} {d : Vec F S4096x128 .bf16} (h : RowsOk m c n d) (hn : n' ≤ n) : RowsOk m c n' d :=
  fun i hi => h i (by have : 1024 * n' ≤ 1024 * n := Nat.mul_le_mul_left _ hn; omega)

end Cert.KernelIdeal.Fr

end
-- ==== Proof.IdealRunReads.lean ====
/-
  The pieces the three runs found, read back.

  Every load of a whole staging buffer reads the buffer's contents, so each store's payload is the body's arithmetic of
  the input blocks themselves; a store through the whole result buffer leaves exactly its payload; the store of X·W₀
  through the whole first scratch array leaves X·W₀, and the two loads that follow it in the same point read its first
  and last 2048 rows. The store into the second scratch array goes through the 1024 rows 1024·t … 1024·t + 1023 only:
  if the array agreed with the hidden projection on its first 1024·t rows before, it agrees on its first 1024·(t + 1)
  rows after (`rowsOk_step`): a row below 1024·t is untouched, a row of the stored block reads the stored payload, and
  that payload is by definition the block of point t.
-/
import proofs.«181898_g33612414058620_cont_8to1_b_1984_15_alg».proof.Proof.IdealRunLate
import proofs.«181898_g33612414058620_cont_8to1_b_1984_15_alg».proof.Proof.IdealContents
import proofs.«181898_g33612414058620_cont_8to1_b_1984_15_alg».proof.Proof.LibUnitRows

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem hz2 : (![0, 0] : Fin 2 → ℕ) = fun _ => 0 := by funext a; fin_cases a <;> rfl
theorem hz3 : (![0, 0, 0] : Fin 3 → ℕ) = fun _ => 0 := by funext a; fin_cases a <;> rfl

section Reads

variable (c : Dev nD) (i : grid0.Coords) (arg1 : Memref sig .tc .vmem S1x1024x2048 .f32) (harg1 : arg1.IsWhole) (arg2 : Memref sig .tc .vmem S1x1024x2048 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S4096x256 .bf16) (harg9 : arg9.IsWhole) (arg10 : Memref sig .tc .vmem S4096x128 .bf16) (harg10 : arg10.IsWhole)
  (x0 x1 : Vec F S1x1024x2048 .f32) (x2 : Vec F S4096x256 .f32) (x3 : Vec F S256x256 .f32) (x4 : Vec F S1x256 .f32) (x5 : Vec F S256x128 .f32) (x6 : Vec F S1x128 .f32) (xs0 : Vec F S4096x256 .bf16) (xs1 : Vec F S4096x128 .bf16)

/-! ### A point 0 < t < 4 -/

theorem runMid_out (hcA : ¬condA i) (hcB : condB i) (hcC : ¬condC i) (f : arg8.view.ty.Contents (Elt F)) :
    arg8.view.read (Elt F) (arg8.view.writes (Elt F) f (runMid c i arg1 harg1 arg2 harg2 arg3 harg3 arg4 harg4 arg5 harg5 arg6 harg6 arg7 harg7 arg8 harg8 arg9 harg9 arg10 harg10 hcA hcB hcC x0 x1 x2 x3 x4 x5 x6 xs0 xs1).1)
      = k0_pay4 x0 x1 (View.ld xs0 (Rect.unit (s := S4096x256) ![0, 0] S2048x256.size inb_S4096x256_S2048x256_0_0)) (View.ld xs0 (Rect.unit (s := S4096x256) ![2048, 0] S2048x256.size inb_S4096x256_S2048x256_2048_0)) x4 x5 := by
  unfold runMid; dsimp only
  rw [Cert.UnitRows.read_writes_whole _ _ hz2]
  simp only [View.readAt_eq_ld, harg1.read_unread, harg2.read_unread, harg3.read_unread, harg4.read_unread, harg5.read_unread, harg6.read_unread, harg7.read_unread, harg9.read_unread, harg10.read_unread,
    View.ld_unit_zero (S := S1x1024x2048) hz3, View.ld_unit_zero (S := S4096x256) hz2, View.ld_unit_zero (S := S256x256) hz2, View.ld_unit_zero (S := S1x256) hz2, View.ld_unit_zero (S := S256x128) hz2, View.ld_unit_zero (S := S1x128) hz2]

theorem runMid_rows (hcA : ¬condA i) (hcB : condB i) (hcC : ¬condC i) :
    (runMid c i arg1 harg1 arg2 harg2 arg3 harg3 arg4 harg4 arg5 harg5 arg6 harg6 arg7 harg7 arg8 harg8 arg9 harg9 arg10 harg10 hcA hcB hcC x0 x1 x2 x3 x4 x5 x6 xs0 xs1).2.1
      = [⟨Rect.unit (s := S4096x128) (k0_off1 i) S1024x128.size (k0_off1_inb i hcB), k0_pay5 x0 x1 (View.ld xs0 (Rect.unit (s := S4096x256) ![0, 0] S2048x256.size inb_S4096x256_S2048x256_0_0)) (View.ld xs0 (Rect.unit (s := S4096x256) ![2048, 0] S2048x256.size inb_S4096x256_S2048x256_2048_0)) x4 x5⟩] := by
  unfold runMid; dsimp only
  simp only [View.readAt_eq_ld, harg1.read_unread, harg2.read_unread, harg3.read_unread, harg4.read_unread, harg5.read_unread, harg6.read_unread, harg7.read_unread, harg9.read_unread, harg10.read_unread,
    View.ld_unit_zero (S := S1x1024x2048) hz3, View.ld_unit_zero (S := S4096x256) hz2, View.ld_unit_zero (S := S256x256) hz2, View.ld_unit_zero (S := S1x256) hz2, View.ld_unit_zero (S := S256x128) hz2, View.ld_unit_zero (S := S1x128) hz2]

/-! ### The first point -/

theorem first_top : runFirst.sl.v15 c arg3 harg3 arg4 harg4 arg9 x2 x3 = View.ld (k0_pay1 x2 x3) (Rect.unit (s := S4096x256) ![0, 0] S2048x256.size inb_S4096x256_S2048x256_0_0) := by
  unfold runFirst.sl.v15 runFirst.sl.HS0_1
  rw [View.readCov_eq_canon_ld _ _ _ (fun y => ⟨_, List.mem_singleton_self _, View.mem_set_unit_zero hz2 inb_S4096x256_S4096x256_0_0 y⟩), View.canon_unit_zero hz2]
  simp only [View.readAt_eq_ld, harg3.read_unread, harg4.read_unread, View.ld_unit_zero (S := S4096x256) hz2, View.ld_unit_zero (S := S256x256) hz2]

theorem first_bot : runFirst.sl.v17 c arg3 harg3 arg4 harg4 arg9 x2 x3 = View.ld (k0_pay1 x2 x3) (Rect.unit (s := S4096x256) ![2048, 0] S2048x256.size inb_S4096x256_S2048x256_2048_0) := by
  unfold runFirst.sl.v17 runFirst.sl.HS0_1
  rw [View.readCov_eq_canon_ld _ _ _ (fun y => ⟨_, List.mem_singleton_self _, View.mem_set_unit_zero hz2 inb_S4096x256_S4096x256_0_0 y⟩), View.canon_unit_zero hz2]
  simp only [View.readAt_eq_ld, harg3.read_unread, harg4.read_unread, View.ld_unit_zero (S := S4096x256) hz2, View.ld_unit_zero (S := S256x256) hz2]

theorem runFirst_xw (hcA : condA i) (hcB : condB i) (hcC : ¬condC i) (f : arg9.view.ty.Contents (Elt F)) :
    arg9.view.read (Elt F) (arg9.view.writes (Elt F) f (runFirst c i arg1 harg1 arg2 harg2 arg3 harg3 arg4 harg4 arg5 harg5 arg6 harg6 arg7 harg7 arg8 harg8 arg9 harg9 arg10 harg10 hcA hcB hcC x0 x1 x2 x3 x4 x5 x6 xs0 xs1).2.1) = k0_pay1 x2 x3 := by
  unfold runFirst; dsimp only; unfold runFirst.sl.HS0_1
  rw [Cert.UnitRows.read_writes_whole _ _ hz2]
  simp only [View.readAt_eq_ld, harg1.read_unread, harg2.read_unread, harg3.read_unread, harg4.read_unread, harg5.read_unread, harg6.read_unread, harg7.read_unread, harg9.read_unread, harg10.read_unread,
    View.ld_unit_zero (S := S1x1024x2048) hz3, View.ld_unit_zero (S := S4096x256) hz2, View.ld_unit_zero (S := S256x256) hz2, View.ld_unit_zero (S := S1x256) hz2, View.ld_unit_zero (S := S256x128) hz2, View.ld_unit_zero (S := S1x128) hz2]

theorem runFirst_out (hcA : condA i) (hcB : condB i) (hcC : ¬condC i) (f : arg8.view.ty.Contents (Elt F)) :
    arg8.view.read (Elt F) (arg8.view.writes (Elt F) f (runFirst c i arg1 harg1 arg2 harg2 arg3 harg3 arg4 harg4 arg5 harg5 arg6 harg6 arg7 harg7 arg8 harg8 arg9 harg9 arg10 harg10 hcA hcB hcC x0 x1 x2 x3 x4 x5 x6 xs0 xs1).1)
      = k0_pay4 x0 x1 (View.ld (k0_pay1 x2 x3) (Rect.unit (s := S4096x256) ![0, 0] S2048x256.size inb_S4096x256_S2048x256_0_0)) (View.ld (k0_pay1 x2 x3) (Rect.unit (s := S4096x256) ![2048, 0] S2048x256.size inb_S4096x256_S2048x256_2048_0)) x4 x5 := by
  unfold runFirst; dsimp only
  rw [Cert.UnitRows.read_writes_whole _ _ hz2, first_top, first_bot]
  simp only [View.readAt_eq_ld, harg1.read_unread, harg2.read_unread, harg3.read_unread, harg4.read_unread, harg5.read_unread, harg6.read_unread, harg7.read_unread, harg9.read_unread, harg10.read_unread,
    View.ld_unit_zero (S := S1x1024x2048) hz3, View.ld_unit_zero (S := S4096x256) hz2, View.ld_unit_zero (S := S256x256) hz2, View.ld_unit_zero (S := S1x256) hz2, View.ld_unit_zero (S := S256x128) hz2, View.ld_unit_zero (S := S1x128) hz2]

theorem runFirst_rows (hcA : condA i) (hcB : condB i) (hcC : ¬condC i) :
    (runFirst c i arg1 harg1 arg2 harg2 arg3 harg3 arg4 harg4 arg5 harg5 arg6 harg6 arg7 harg7 arg8 harg8 arg9 harg9 arg10 harg10 hcA hcB hcC x0 x1 x2 x3 x4 x5 x6 xs0 xs1).2.2.1
      = [⟨Rect.unit (s := S4096x128) (k0_off1 i) S1024x128.size (k0_off1_inb i hcB), k0_pay5 x0 x1 (View.ld (k0_pay1 x2 x3) (Rect.unit (s := S4096x256) ![0, 0] S2048x256.size inb_S4096x256_S2048x256_0_0)) (View.ld (k0_pay1 x2 x3) (Rect.unit (s := S4096x256) ![2048, 0] S2048x256.size inb_S4096x256_S2048x256_2048_0)) x4 x5⟩] := by
  unfold runFirst; dsimp only
  rw [first_top, first_bot]
  simp only [View.readAt_eq_ld, harg1.read_unread, harg2.read_unread, harg3.read_unread, harg4.read_unread, harg5.read_unread, harg6.read_unread, harg7.read_unread, harg9.read_unread, harg10.read_unread,
    View.ld_unit_zero (S := S1x1024x2048) hz3, View.ld_unit_zero (S := S4096x256) hz2, View.ld_unit_zero (S := S256x256) hz2, View.ld_unit_zero (S := S1x256) hz2, View.ld_unit_zero (S := S256x128) hz2, View.ld_unit_zero (S := S1x128) hz2]

/-! ### A point t ≥ 4 -/

theorem runLate_out (hcA : ¬condA i) (hcB : ¬condB i) (hcC : condC i) (f : arg8.view.ty.Contents (Elt F)) :
    arg8.view.read (Elt F) (arg8.view.writes (Elt F) f (runLate c i arg1 harg1 arg2 harg2 arg3 harg3 arg4 harg4 arg5 harg5 arg6 harg6 arg7 harg7 arg8 harg8 arg9 harg9 arg10 harg10 hcA hcB hcC x0 x1 x2 x3 x4 x5 x6 xs0 xs1).1)
      = k0_pay6 x0 x1 (View.ld xs1 (Rect.unit (s := S4096x128) ![0, 0] S2048x128.size inb_S4096x128_S2048x128_0_0)) (View.ld xs1 (Rect.unit (s := S4096x128) ![2048, 0] S2048x128.size inb_S4096x128_S2048x128_2048_0)) x6 := by
  unfold runLate; dsimp only
  rw [Cert.UnitRows.read_writes_whole _ _ hz2]
  simp only [View.readAt_eq_ld, harg1.read_unread, harg2.read_unread, harg3.read_unread, harg4.read_unread, harg5.read_unread, harg6.read_unread, harg7.read_unread, harg9.read_unread, harg10.read_unread,
    View.ld_unit_zero (S := S1x1024x2048) hz3, View.ld_unit_zero (S := S4096x256) hz2, View.ld_unit_zero (S := S256x256) hz2, View.ld_unit_zero (S := S1x256) hz2, View.ld_unit_zero (S := S256x128) hz2, View.ld_unit_zero (S := S1x128) hz2]

end Reads

/-! ### The rows of the hidden projection known after a point below 4 -/

theorem rowsOk_step (c : Dev nD) (t : Fin cfg0.N) (hB : condB (grid0.coords t)) (d : Vec F S4096x128 .bf16)
    (h : RowsOk m c t.val d) :
    RowsOk m c (t.val + 1) (scM1.view.read (Elt F) (scM1.view.writes (Elt F) ((Memref.isWhole_whole cc0_scratch1).unread d)
      [⟨Rect.unit (s := S4096x128) (k0_off1 (grid0.coords t)) S1024x128.size (k0_off1_inb (grid0.coords t) hB), pblk m c t⟩])) := by
  intro i hi
  have hi0 : (i 0).val < 4096 := (i 0).isLt
  have hi1 : (i 1).val < 128 := (i 1).isLt
  have ht4 : t.val < 4 := (hcondB t).mp hB
  by_cases hlt : (i 0).val < 1024 * t.val
  · rw [View.read_writes_cons_unit_of_not_mem _ _ _ _ [] i (off1_eq t hB) 0 (Or.inl (by show (i 0).val < t.val * 1024; omega))]
    rw [View.writes_nil, Memref.IsWhole.read_unread]
    exact h i hlt
  · have hx : ∀ a, (i a).val = (![t.val * 1024, 0] : Fin 2 → ℕ) a
        + ((ix2 (⟨(i 0).val - 1024 * t.val, by omega⟩ : Fin 1024) (⟨(i 1).val, hi1⟩ : Fin 128) : S1024x128.Idx) a).val := fun a => by
      match a with
      | ⟨0, _⟩ => show (i 0).val = t.val * 1024 + ((i 0).val - 1024 * t.val); omega
      | ⟨1, _⟩ => show (i 1).val = 0 + (i 1).val; omega
    refine (View.read_writes_cons_unit_of_mem (s := S4096x128) (size := S1024x128.size) scM1.view _ (k0_off1_inb (grid0.coords t) hB) (pblk m c t) [] i
      (ix2 (⟨(i 0).val - 1024 * t.val, by omega⟩ : Fin 1024) (⟨(i 1).val, hi1⟩ : Fin 128)) (off1_eq t hB) hx).trans ?_
    unfold pall
    have e : (⟨(i 0).val / 1024, by rw [show cfg0.N = 8 from N_0]; omega⟩ : Fin cfg0.N) = t := Fin.ext (by show (i 0).val / 1024 = t.val; omega)
    have e2 : (⟨(i 0).val - 1024 * t.val, by omega⟩ : Fin 1024) = ⟨(i 0).val % 1024, Nat.mod_lt _ (by decide)⟩ := Fin.ext (by show (i 0).val - 1024 * t.val = (i 0).val % 1024; omega)
    rw [e, e2]

end Cert.KernelIdeal.Fr

end
-- ==== Proof.IdealFrame.lean ====
/-
  The frame of the region: the proof data, the body at every grid point, and the run from the launch to the end.

  After the body at point t each input window's buffer still holds its block and the result window's buffer holds
  `outAt t`. Between points the invariant holds X·W₀ in the first scratch array and, in the second, some contents that
  agree with the hidden projection on the rows computed so far (1024·(t + 1) rows after point t < 4, all of them
  from point 3 on). The adjacency array is read by two windows (the left and the right column halves of a row block):
  each holds it read-only at one half of its share, dealt at the region's entry and joined again at its exit; the
  result array is the only one the write-backs change.
-/
import proofs.«181898_g33612414058620_cont_8to1_b_1984_15_alg».proof.Proof.IdealRunReads

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## The invariant -/

/-- Before position n: before the first point the two scratch arrays at anything; afterwards X·W₀ and the rows of the
    hidden projection computed so far. -/
def PhiS (c : Dev nD) : ℕ → sProp 𝕄
  | 0 => Pipeline.ΦA spec0 c
  | n + 1 => iprop(iprop(owns (c : Thread nD τ) scM0 fullShare (xw m c) ∗ (∃ d, ⌜RowsOk m c (min (n + 1) 4) d⌝ ∗ owns (c : Thread nD τ) scM1 fullShare d)) ∗ (∃ r, prngReg c r))

theorem PhiS_succ (c : Dev nD) (n : ℕ) :
    PhiS m c (n + 1) = iprop(iprop(owns (c : Thread nD τ) scM0 fullShare (xw m c) ∗ (∃ d, ⌜RowsOk m c (min (n + 1) 4) d⌝ ∗ owns (c : Thread nD τ) scM1 fullShare d)) ∗ (∃ r, prngReg c r)) := rfl

theorem PhiS_pos (c : Dev nD) (n : ℕ) (hz : n ≠ 0) :
    PhiS m c n = iprop(iprop(owns (c : Thread nD τ) scM0 fullShare (xw m c) ∗ (∃ d, ⌜RowsOk m c (min n 4) d⌝ ∗ owns (c : Thread nD τ) scM1 fullShare d)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt m c t := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- X·W₀'s two halves as the first point's own loads read them. -/
theorem xwTop_eq (c : Dev nD) : View.ld (k0_pay1 (iblk m c 2 t0_0) (iblk m c 3 t0_0)) (Rect.unit (s := S4096x256) ![0, 0] S2048x256.size inb_S4096x256_S2048x256_0_0) = xwTop m c := rfl
theorem xwBot_eq (c : Dev nD) : View.ld (k0_pay1 (iblk m c 2 t0_0) (iblk m c 3 t0_0)) (Rect.unit (s := S4096x256) ![2048, 0] S2048x256.size inb_S4096x256_S2048x256_2048_0) = xwBot m c := rfl

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0 t) fullShare ((dats m 0 c).after 0 t) from by
    unfold Dat.leavesExact; rw [liveAt0 t], after_0]
  rw [show (dats m 0 c).leavesExact 1 t = owns (c : Thread nD τ) (ms1 t) fullShare ((dats m 0 c).after 1 t) from by
    unfold Dat.leavesExact; rw [liveAt1 t], after_1]
  rw [show (dats m 0 c).leavesExact 2 t = owns (c : Thread nD τ) (ms2 t) fullShare ((dats m 0 c).after 2 t) from by
    unfold Dat.leavesExact; rw [liveAt2 t], after_2]
  rw [show (dats m 0 c).leavesExact 3 t = owns (c : Thread nD τ) (ms3 t) fullShare ((dats m 0 c).after 3 t) from by
    unfold Dat.leavesExact; rw [liveAt3 t], after_3]
  rw [show (dats m 0 c).leavesExact 4 t = owns (c : Thread nD τ) (ms4 t) fullShare ((dats m 0 c).after 4 t) from by
    unfold Dat.leavesExact; rw [liveAt4 t], after_4]
  rw [show (dats m 0 c).leavesExact 5 t = owns (c : Thread nD τ) (ms5 t) fullShare ((dats m 0 c).after 5 t) from by
    unfold Dat.leavesExact; rw [liveAt5 t], after_5]
  rw [show (dats m 0 c).leavesExact 6 t = owns (c : Thread nD τ) (ms6 t) fullShare ((dats m 0 c).after 6 t) from by
    unfold Dat.leavesExact; rw [liveAt6 t], after_6]
  rw [show (dats m 0 c).leavesExact 7 t = owns (c : Thread nD τ) (ms7 t) fullShare ((dats m 0 c).after 7 t) from by
    unfold Dat.leavesExact; rw [liveAt7 t], after_7]
  have hN : t.val < 8 := lt_of_lt_of_eq t.isLt (show cfg0.N = 8 from N_0)
  rw [Phi_castSucc m c t]
  by_cases h0 : t.val = 0
  · -- the first point
    have hA : condA (grid0.coords t) := (hcondA t).mpr h0
    have hB : condB (grid0.coords t) := (hcondB t).mpr (by omega)
    have hC : ¬condC (grid0.coords t) := fun h => by have := (hcondC t).mp h; omega
    obtain rfl : t = t0_0 := Fin.ext h0
    rw [show PhiS m c (t0_0 : Fin cfg0.N).val = Pipeline.ΦA spec0 c from rfl, PhiA0_eq]
    iintro ⟨⟨⟨⟨%d0, HS0⟩, ⟨%d1, HS1⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
    iapply ((runFirst c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) (ms7 t0_0) (hs7 t0_0) scM0 (Memref.isWhole_whole _) scM1 (Memref.isWhole_whole _) hA hB hC (iblk m c 0 t0_0) (iblk m c 1 t0_0) (iblk m c 2 t0_0) (iblk m c 3 t0_0) (iblk m c 4 t0_0) (iblk m c 5 t0_0) (iblk m c 6 t0_0) d0 d1).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, ⟨%f7, H7⟩, HS0, HS1⟩
    isplitl [HS0 HS1 Hg]
    · isplitl [HS0 HS1]
      · isplitl [HS0]
        · unfold owns; iexists _; isplitr
          swap; · iexact HS0
          ipureintro; exact runFirst_xw c _ (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) (ms7 t0_0) (hs7 t0_0) scM0 (Memref.isWhole_whole _) scM1 (Memref.isWhole_whole _) (iblk m c 0 t0_0) (iblk m c 1 t0_0) (iblk m c 2 t0_0) (iblk m c 3 t0_0) (iblk m c 4 t0_0) (iblk m c 5 t0_0) (iblk m c 6 t0_0) d0 d1 hA hB hC _
        · iexists _; isplitr
          swap
          · unfold owns; iexists _; isplitr
            swap; · iexact HS1
            ipureintro; rfl
          ipureintro
          rw [runFirst_rows c _ (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) (ms7 t0_0) (hs7 t0_0) scM0 (Memref.isWhole_whole _) scM1 (Memref.isWhole_whole _) (iblk m c 0 t0_0) (iblk m c 1 t0_0) (iblk m c 2 t0_0) (iblk m c 3 t0_0) (iblk m c 4 t0_0) (iblk m c 5 t0_0) (iblk m c 6 t0_0) d0 d1 hA hB hC, xwTop_eq, xwBot_eq]
          exact rowsOk_step m c t0_0 hB d1 (fun i hi => absurd hi (by show ¬ (i 0).val < 1024 * 0; omega))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro
    rw [outAt_lo m c t0_0 (by show (0 : ℕ) < 4; omega), runFirst_out c _ (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) (ms7 t0_0) (hs7 t0_0) scM0 (Memref.isWhole_whole _) scM1 (Memref.isWhole_whole _) (iblk m c 0 t0_0) (iblk m c 1 t0_0) (iblk m c 2 t0_0) (iblk m c 3 t0_0) (iblk m c 4 t0_0) (iblk m c 5 t0_0) (iblk m c 6 t0_0) d0 d1 hA hB hC, xwTop_eq, xwBot_eq]
    rfl
  · have hA : ¬condA (grid0.coords t) := fun h => h0 ((hcondA t).mp h)
    rw [PhiS_pos m c _ h0]
    by_cases h4 : t.val < 4
    · -- a point 0 < t < 4
      have hB : condB (grid0.coords t) := (hcondB t).mpr h4
      have hC : ¬condC (grid0.coords t) := fun h => by have := (hcondC t).mp h; omega
      iintro ⟨⟨⟨HS0, ⟨%d1, %hd1, HS1⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
      iapply ((runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) hA hB hC (iblk m c 0 t) (iblk m c 1 t) (iblk m c 2 t) (iblk m c 3 t) (iblk m c 4 t) (iblk m c 5 t) (iblk m c 6 t) (xw m c) d1).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, ⟨%f7, H7⟩, HS0, HS1⟩
      isplitl [HS0 HS1 Hg]
      · isplitl [HS0 HS1]
        · isplitl [HS0]
          · iexact HS0
          · iexists _; isplitr
            swap
            · unfold owns; iexists _; isplitr
              swap; · iexact HS1
              ipureintro; rfl
            ipureintro
            rw [runMid_rows c _ (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) (iblk m c 0 t) (iblk m c 1 t) (iblk m c 2 t) (iblk m c 3 t) (iblk m c 4 t) (iblk m c 5 t) (iblk m c 6 t) (xw m c) d1 hA hB hC]
            rw [show min (t.val + 1) 4 = t.val + 1 from by omega]
            exact rowsOk_step m c t hB d1 (by rw [show min t.val 4 = t.val from by omega] at hd1; exact hd1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro
      rw [outAt_lo m c t h4, runMid_out c _ (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) (iblk m c 0 t) (iblk m c 1 t) (iblk m c 2 t) (iblk m c 3 t) (iblk m c 4 t) (iblk m c 5 t) (iblk m c 6 t) (xw m c) d1 hA hB hC]
      rfl
    · -- a point t ≥ 4
      have hB : ¬condB (grid0.coords t) := fun h => h4 ((hcondB t).mp h)
      have hC : condC (grid0.coords t) := (hcondC t).mpr (by omega)
      iintro ⟨⟨⟨HS0, ⟨%d1, %hd1, HS1⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
      obtain rfl : d1 = pall m c := RowsOk.eq_pall m hd1 (by omega)
      iapply ((runLate c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) hA hB hC (iblk m c 0 t) (iblk m c 1 t) (iblk m c 2 t) (iblk m c 3 t) (iblk m c 4 t) (iblk m c 5 t) (iblk m c 6 t) (xw m c) (pall m c)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, ⟨%f7, H7⟩, HS0, HS1⟩
      isplitl [HS0 HS1 Hg]
      · isplitl [HS0 HS1]
        · isplitl [HS0]
          · iexact HS0
          · iexists _; isplitr
            swap; · iexact HS1
            ipureintro
            exact fun i _ => rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro
      rw [outAt_hi m c t h4, runLate_out c _ (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) (iblk m c 0 t) (iblk m c 1 t) (iblk m c 2 t) (iblk m c 3 t) (iblk m c 4 t) (iblk m c 5 t) (iblk m c 6 t) (xw m c) (pall m c) hA hB hC]
      rfl

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 8 := N_0; omega), PhiA0_eq]
  iintro ⟨⟨HS0, ⟨%d1, -, HS1⟩⟩, Hg⟩
  isplitl [HS0 HS1]
  · isplitl [HS0]
    · iexists _; iexact HS0
    · iexists _; iexact HS1
  iexact Hg

end Cert.KernelIdeal.Fr

end
-- ==== Proof.IdealLaunch.lean ====
/-
  The run of @main from the launch to the end.

  The adjacency array stands behind two windows. Before the region it is held once, whole; at the region's entry its
  share is cut in two halves, one per window, and each window holds the array read-only; at the exit the two halves
  are put together again. Every other array stands behind one window and is held whole. The region changes the
  result array only: at the exit every buffer holds what it held at the entry, except the result array, which holds what
  the write-backs left in it.
-/
import proofs.«181898_g33612414058620_cont_8to1_b_1984_15_alg».proof.Proof.IdealFrame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrRef)

/-- The buffers' contents at the region's exit: the result array at what the write-backs left, everything else as at
    the entry. -/
def Wexit (c : Dev nD) : Valuation τ sig (Elt F) := by
  classical
  exact Function.update (V0 m c) (Proc.devRef .tc main_v0) ((dats m 0 c).arrAt 7 cfg0.N)

theorem Wexit_out (c : Dev nD) : Wexit m c (Proc.devRef .tc main_v0) = (dats m 0 c).arrAt 7 cfg0.N := by
  classical
  unfold Wexit
  exact Function.update_self _ _ _

theorem Wexit_of_ne (c : Dev nD) (b : Ref sig .tc) (h : b ≠ main_v0) : Wexit m c (Proc.devRef .tc b) = V0 m c (Proc.devRef .tc b) := by
  classical
  unfold Wexit
  exact Function.update_of_ne (fun e => h (Proc.devRef_injective _ e)) _ _

/-- The distinct buffers behind the windows, one by one. -/
theorem arrBufs_eq (c : Dev nD) (Vv : (b : Ref sig .tc) → Buf (Elt F) ((c.tc : Thread nD τ).loc b)) :
    (Pipeline.arrBufs spec0 c Vv : sProp 𝕄)
      = iprop((((c.tc : Thread nD τ).loc main_arg1) ↦{fullShare} Vv main_arg1) ∗ (((c.tc : Thread nD τ).loc main_arg0) ↦{fullShare} Vv main_arg0) ∗ (((c.tc : Thread nD τ).loc main_arg2) ↦{fullShare} Vv main_arg2) ∗ (((c.tc : Thread nD τ).loc main_call0_v0) ↦{fullShare} Vv main_call0_v0) ∗ (((c.tc : Thread nD τ).loc main_arg4) ↦{fullShare} Vv main_arg4) ∗ (((c.tc : Thread nD τ).loc main_call0_v1) ↦{fullShare} Vv main_call0_v1) ∗ (((c.tc : Thread nD τ).loc main_v0) ↦{fullShare} Vv main_v0)) := by
  unfold Pipeline.arrBufs
  exact bigSep_eq_bigSepL_of_eq [main_arg1, main_arg0, main_arg2, main_call0_v0, main_arg4, main_call0_v1, main_v0] (by decide) (by decide) _

/-- The windows' arrays as the proof data holds them, one by one: the adjacency array twice, at the two halves of the
    full share; every other array whole. -/
theorem arrays_eq (c : Dev nD) (Fw : (w : Fin cfg0.W) → Buf (Elt F) ((cfg0.win w).arr.view.loc (c.tc : Thread nD τ))) :
    ((dats m 0 c).arrays Fw : sProp 𝕄)
      = iprop((((c.tc : Thread nD τ).loc main_arg1) ↦{fullShare.left} Fw 0) ∗ (((c.tc : Thread nD τ).loc main_arg1) ↦{fullShare.right} Fw 1) ∗ (((c.tc : Thread nD τ).loc main_arg0) ↦{fullShare} Fw 2) ∗ (((c.tc : Thread nD τ).loc main_arg2) ↦{fullShare} Fw 3) ∗ (((c.tc : Thread nD τ).loc main_call0_v0) ↦{fullShare} Fw 4) ∗ (((c.tc : Thread nD τ).loc main_arg4) ↦{fullShare} Fw 5) ∗ (((c.tc : Thread nD τ).loc main_call0_v1) ↦{fullShare} Fw 6) ∗ (((c.tc : Thread nD τ).loc main_v0) ↦{fullShare} Fw 7)) := by
  unfold Dat.arrays
  rw [bigSep_W0]
  rw [show (cfg0.win 0).arr.view.set = Finset.univ from (arr_whole0 0).set_eq_univ]
  rw [show (cfg0.win 2).arr.view.set = Finset.univ from (arr_whole0 2).set_eq_univ]
  rw [show (cfg0.win 3).arr.view.set = Finset.univ from (arr_whole0 3).set_eq_univ]
  rw [show (cfg0.win 4).arr.view.set = Finset.univ from (arr_whole0 4).set_eq_univ]
  rw [show (cfg0.win 5).arr.view.set = Finset.univ from (arr_whole0 5).set_eq_univ]
  rw [show (cfg0.win 6).arr.view.set = Finset.univ from (arr_whole0 6).set_eq_univ]
  rw [show (cfg0.win 7).arr.view.set = Finset.univ from (arr_whole0 7).set_eq_univ]
  rfl

/-- At the entry: the adjacency array's share is cut in two, one half per window. -/
theorem hdeal (c : Dev nD) :
    (Pipeline.arrBufs spec0 c (fun b => V0 m c (Proc.devRef .tc b)) : sProp 𝕄) ⊢ (dats m 0 c).arrays ((dats m 0 c).arrAt · 0) := by
  rw [arrBufs_eq, arrays_eq]
  iintro ⟨Ha, H2, H3, H4, H5, H6, H7⟩
  ihave Hlr := (pointsTo_share (PosShare.mem_left_op_right fullShare)).1 $$ Ha
  icases Hlr with ⟨Hl, Hr⟩
  isplitl [Hl]; · iexact Hl
  isplitl [Hr]; · iexact Hr
  isplitl [H2]; · iexact H2
  isplitl [H3]; · iexact H3
  isplitl [H4]; · iexact H4
  isplitl [H5]; · iexact H5
  isplitl [H6]; · iexact H6
  iexact H7

/-- An input array is never written back. -/
theorem arrAt_in (c : Dev nD) (w : Fin cfg0.W) (hw : (cfg0.win w).isOut = false) (n : ℕ) :
    (dats m 0 c).arrAt w n = V m c (Pipeline.arrRef spec0 w) :=
  ((dats m 0 c).arrAt_in w hw n).trans (A_eq m c w)

/-- At the exit: the two halves are joined again. -/
theorem hjoin (c : Dev nD) :
    (dats m 0 c).arrays ((dats m 0 c).arrAt · cfg0.N) ⊢ (Pipeline.arrBufs spec0 c (fun b => Wexit m c (Proc.devRef .tc b)) : sProp 𝕄) := by
  rw [arrBufs_eq, arrays_eq]
  rw [arrAt_in m c 0 rfl, arrAt_in m c 1 rfl, arrAt_in m c 2 rfl, arrAt_in m c 3 rfl, arrAt_in m c 4 rfl, arrAt_in m c 5 rfl, arrAt_in m c 6 rfl]
  rw [Wexit_of_ne m c main_arg1 (by decide), Wexit_of_ne m c main_arg0 (by decide), Wexit_of_ne m c main_arg2 (by decide), Wexit_of_ne m c main_call0_v0 (by decide), Wexit_of_ne m c main_arg4 (by decide), Wexit_of_ne m c main_call0_v1 (by decide), Wexit_out]
  iintro ⟨Hl, Hr, H2, H3, H4, H5, H6, H7⟩
  isplitl [Hl Hr]
  · iapply (pointsTo_share (PosShare.mem_left_op_right fullShare)).2
    isplitl [Hl]; · iexact Hl
    iexact Hr
  isplitl [H2]; · iexact H2
  isplitl [H3]; · iexact H3
  isplitl [H4]; · iexact H4
  isplitl [H5]; · iexact H5
  isplitl [H6]; · iexact H6
  iexact H7

/-- And cut again, should anything follow the region. -/
theorem hdeal' (c : Dev nD) :
    (Pipeline.arrBufs spec0 c (fun b => Wexit m c (Proc.devRef .tc b)) : sProp 𝕄) ⊢ (dats m 0 c).arrays ((dats m 0 c).arrAt · cfg0.N) := by
  rw [arrBufs_eq, arrays_eq]
  rw [arrAt_in m c 0 rfl, arrAt_in m c 1 rfl, arrAt_in m c 2 rfl, arrAt_in m c 3 rfl, arrAt_in m c 4 rfl, arrAt_in m c 5 rfl, arrAt_in m c 6 rfl]
  rw [Wexit_of_ne m c main_arg1 (by decide), Wexit_of_ne m c main_arg0 (by decide), Wexit_of_ne m c main_arg2 (by decide), Wexit_of_ne m c main_call0_v0 (by decide), Wexit_of_ne m c main_arg4 (by decide), Wexit_of_ne m c main_call0_v1 (by decide), Wexit_out]
  iintro ⟨Ha, H2, H3, H4, H5, H6, H7⟩
  ihave Hlr := (pointsTo_share (PosShare.mem_left_op_right fullShare)).1 $$ Ha
  icases Hlr with ⟨Hl, Hr⟩
  isplitl [Hl]; · iexact Hl
  isplitl [Hr]; · iexact Hr
  isplitl [H2]; · iexact H2
  isplitl [H3]; · iexact H3
  isplitl [H4]; · iexact H4
  isplitl [H5]; · iexact H5
  isplitl [H6]; · iexact H6
  iexact H7

/-- Off the windows' arrays the exit contents are the entry contents. -/
theorem hWrest (c : Dev nD) : ∀ b ∈ Pipeline.restRefs sig spec0, Wexit m c (Proc.devRef .tc b) = V0 m c (Proc.devRef .tc b) := by
  intro b hb
  refine Wexit_of_ne m c b (fun e => ?_)
  subst e
  revert hb
  decide

set_option backward.isDefEq.respectTransparency.types false in
/-- THE RUN: every weakly fair execution of @main terminates; each window's array ends at what the write-backs leave in
    it, and every other unscoped buffer as the region found it. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N)
        ∧ ∀ b ∈ Pipeline.restRefs sig spec0, r.2.mem ((c.tc : Thread nD τ).loc b) = Cert.SharedFrame.finalAt (Wexit m) [] c b) :=
  Cert.SharedFrame.θ_run_around_shared cfgs (dats m) (0 : Fin 1) defs₀ Variants.none
    cellOf_inj winFacts₀0 block_pos0 arr_whole0 stage_whole0 m ρ main
    (hbody := fun c => (body_obligation m c).loose) (howed := fun _ _ => rfl)
    (V₀ := V0 m) (W := Wexit m) (opss := [])
    (hsub := fun _ h => absurd h (List.not_mem_nil)) (hfresh := fun _ h => absurd h (List.not_mem_nil)) (hkeep := fun _ h => absurd h (List.not_mem_nil))
    (hmain := hmain m Variants.none) (hWrest := hWrest m)
    (hdeal := hdeal m) (hjoin := hjoin m) (hdeal' := hdeal' m) (hin := hin m) (hout := hout m)

/-- THE FRAME: the argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 2).trans ((arrAt_in m c 2 rfl _).trans (V_main_arg0 m c)),
     ((h c).1 0).trans ((arrAt_in m c 0 rfl _).trans (V_main_arg1 m c)),
     ((h c).1 3).trans ((arrAt_in m c 3 rfl _).trans (V_main_arg2 m c)),
     ((h c).2 main_arg3 (by decide)).trans ((hWrest m c main_arg3 (by decide)).trans (V_main_arg3 m c)),
     ((h c).1 5).trans ((arrAt_in m c 5 rfl _).trans (V_main_arg4 m c)),
     ((h c).2 main_arg5 (by decide)).trans ((hWrest m c main_arg5 (by decide)).trans (V_main_arg5 m c))⟩) (run_main m ρ)

end Cert.KernelIdeal.Fr

end
-- ==== Proof.LibRowSoftmax.lean ====
/-
  Softmax along the last axis, on the extended reals, and the operations a vector kernel or a host program builds it from,
  each read at one element, over any sizes.

  For a row `r` of extended reals, `rowMax r` is the greatest entry (the fold of `max` from −∞) and
  `rowSoftmax r j = exp (r j − rowMax r) / ∑ k, exp (r k − rowMax r)`, with the exponential and the quotient of the
  ideal float values (so the corners are theirs: exp (−∞) = 0, x / ±∞ = 0, …). `softmax2` and `softmax4` apply it to
  every row of a matrix and to every last-axis row of a rank-4 array. A softmax only looks along rows: two arrays that
  hold the same row give the same values on it (`softmax2_row`, `softmax4_row2`), which is what carries the function
  through blocks, sub-blocks and reshapes that keep rows whole.

  Read at an element: a lane maximum of an [a, b] vector from −∞ is `rowMax` of the row (`laneMax_apply`), a lane sum is
  the row's sum (`laneSum_apply`), a reduced column cast to [a, 1] and broadcast to [a, b] reads its row's entry
  (`keepdimsCol_apply`); the host's max-reduction over the last of four axes from −∞ is `rowMax` of that row
  (`hostRowMax_apply`), and a further `max` with −∞ changes nothing (`max_negInf`).
-/
import Idealize.ShloMosaic.PureOps.Ideal.Laws
import Idealize.ShloMosaic.Lib.ValueIdx
import Idealize.ShloMosaic.Lib.Pipeline.Value

noncomputable section

open scoped BigOperators

namespace Cert.RowSoftmax

open Idealize.ShloMosaic Idealize.ShloMosaic.ValueIdx

/-! ## The function -/

/-- The f32 pattern of −∞ denotes the least extended real. -/
theorem negInf_eq_bot : Ideal.ofBits .f32 0xFF800000#32 = (⊥ : EReal) := by simp [Ideal.ofBits, Ideal.ieee]

/-- The maximum with −∞ is the other operand. -/
theorem max_negInf (x : EReal) : max (Ideal.ofBits .f32 0xFF800000#32) x = x := by
  rw [negInf_eq_bot]; exact max_eq_right bot_le

/-- The greatest entry of a row: the fold of `max` from −∞ (−∞ itself for an empty row). -/
def rowMax {n : ℕ} (r : Fin n → EReal) : EReal :=
  (Finset.univ : Finset (Fin n)).fold max (Ideal.ofBits .f32 0xFF800000#32) r

/-- Softmax of a row at position `j`: the entry's exponential, shifted by the row's maximum, over the sum of all the
    row's shifted exponentials. -/
def rowSoftmax {n : ℕ} (r : Fin n → EReal) (j : Fin n) : EReal :=
  Ideal.div (Ideal.exp (r j - rowMax r)) (∑ k : Fin n, Ideal.exp (r k - rowMax r))

/-- Softmax of every row of a matrix. -/
def softmax2 {a b : ℕ} (x : (⟨2, ![a, b]⟩ : Shape).Idx → EReal) : (⟨2, ![a, b]⟩ : Shape).Idx → EReal :=
  fun y => rowSoftmax (fun k : Fin b => x (ix2 (n0 := a) (y 0) k)) (y 1)

theorem softmax2_ix2 {a b : ℕ} (x : (⟨2, ![a, b]⟩ : Shape).Idx → EReal) (p : Fin a) (q : Fin b) :
    softmax2 x (ix2 p q) = rowSoftmax (fun k => x (ix2 p k)) q := rfl

/-- Softmax along the last axis of a rank-4 array. -/
def softmax4 {a b c d : ℕ} (x : (⟨4, ![a, b, c, d]⟩ : Shape).Idx → EReal) : (⟨4, ![a, b, c, d]⟩ : Shape).Idx → EReal :=
  fun y => rowSoftmax (fun k : Fin d => x (ix4 (n0 := a) (n1 := b) (n2 := c) (y 0) (y 1) (y 2) k)) (y 3)

theorem softmax4_ix4 {a b c d : ℕ} (x : (⟨4, ![a, b, c, d]⟩ : Shape).Idx → EReal) (i : Fin a) (j : Fin b) (k : Fin c) (q : Fin d) :
    softmax4 x (ix4 i j k q) = rowSoftmax (fun l => x (ix4 i j k l)) q := rfl

/-- Two matrices holding the same row have the same softmax on it. -/
theorem softmax2_row {a a' b : ℕ} (x : (⟨2, ![a, b]⟩ : Shape).Idx → EReal) (x' : (⟨2, ![a', b]⟩ : Shape).Idx → EReal)
    (p : Fin a) (p' : Fin a') (h : ∀ k : Fin b, x' (ix2 p' k) = x (ix2 p k)) (q : Fin b) :
    softmax2 x' (ix2 p' q) = softmax2 x (ix2 p q) := by
  rw [softmax2_ix2, softmax2_ix2, funext h]

/-- A rank-4 array and a matrix holding the same row have the same softmax on it. -/
theorem softmax4_row2 {a b c d a' : ℕ} (x : (⟨4, ![a, b, c, d]⟩ : Shape).Idx → EReal) (x' : (⟨2, ![a', d]⟩ : Shape).Idx → EReal)
    (i : Fin a) (j : Fin b) (k : Fin c) (p' : Fin a') (h : ∀ l : Fin d, x' (ix2 p' l) = x (ix4 i j k l)) (q : Fin d) :
    softmax2 x' (ix2 p' q) = softmax4 x (ix4 i j k q) := by
  rw [softmax2_ix2, softmax4_ix4, funext h]

/-! ## A vector kernel's pieces, at an element -/

/-- A lane maximum of an [a, b] vector, from −∞, at row `p`: the row's greatest entry. -/
theorem laneMax_apply {a b : ℕ} (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ v 0xFF800000#32 h hφ hacc (ix1 p) = rowMax (fun k : Fin b => v (ix2 p k)) := by
  refine (Ideal.multiReduction_maximumf_single v _ h hφ hacc (ix1 p)).trans ?_
  unfold rowMax
  refine congrArg (fun f => Finset.fold max _ f Finset.univ) (funext fun k => congrArg v (funext fun c => Fin.ext ?_))
  match c with
  | ⟨0, _⟩ => rfl
  | ⟨1, _⟩ => rfl

/-- A lane sum of an [a, b] vector at row `p`: the sum of the row. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v _ h hφ hacc (ix1 p)).trans ?_
  refine Finset.sum_congr rfl fun k _ => congrArg v (funext fun c => Fin.ext ?_)
  match c with
  | ⟨0, _⟩ => rfl
  | ⟨1, _⟩ => rfl

/-- A column of `a` entries cast to [a, 1] and broadcast along the lanes to [a, b] reads, at (p, q), entry `p`. -/
theorem keepdimsCol_apply {α : Type} {a b : ℕ} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) := by
  refine (broadcastTo_apply _ hb (ix2 p q) (ix2 p (0 : Fin 1)) fun c => ?_).trans ?_
  · match c with
    | ⟨0, _⟩ =>
      show p.val = if a = 1 then 0 else p.val
      split
      · have := p.isLt; omega
      · rfl
    | ⟨1, _⟩ =>
      exact (if_pos rfl).symm
  · refine shapeCast_apply u hc (ix2 p (0 : Fin 1)) (ix1 p) ?_
    rw [Shape.rowMajor_val_one, Shape.rowMajor_val_two]
    show p.val = p.val * 1 + 0
    omega

/-- The whole vector expression — the lanes' maximum subtracted, the exponential, divided by the lanes' sum, the two
    reduced columns cast and broadcast back over the lanes — reads, at (p, q), the softmax of row `p` at `q`. -/
theorem vectorSoftmax_apply {a b : ℕ} (v : FVec Ideal ⟨2, ![a, b]⟩ .f32) (hr : Shape.Reduces ⟨2, ![a, b]⟩ [1] ⟨1, ![a]⟩)
    (hφ hφ' : FKind.Formats .f32) (hm : (0xFF800000#32 : BitVec 32) = FKind.maximumf.neutral .f32 hφ)
    (hs : (0x00000000#32 : BitVec 32) = FKind.add.neutral .f32 hφ')
    (hc : (⟨1, ![a]⟩ : Shape).ShapeCasts ⟨2, ![a, 1]⟩) (hb : (⟨2, ![a, 1]⟩ : Shape).Broadcasts ⟨2, ![a, b]⟩)
    (p : Fin a) (q : Fin b) :
    divf (exp (subf v (broadcastTo ⟨2, ![a, b]⟩ (shapeCast ⟨2, ![a, 1]⟩ (multiReduction .maximumf [1] ⟨1, ![a]⟩ v 0xFF800000#32 hr hφ hm) hc) hb)))
        (broadcastTo ⟨2, ![a, b]⟩ (shapeCast ⟨2, ![a, 1]⟩ (multiReduction .add [1] ⟨1, ![a]⟩
          (exp (subf v (broadcastTo ⟨2, ![a, b]⟩ (shapeCast ⟨2, ![a, 1]⟩ (multiReduction .maximumf [1] ⟨1, ![a]⟩ v 0xFF800000#32 hr hφ hm) hc) hb)))
          0x00000000#32 hr hφ' hs) hc) hb) (ix2 p q)
      = softmax2 v (ix2 p q) := by
  have hsub : ∀ k : Fin b, exp (subf v (broadcastTo ⟨2, ![a, b]⟩ (shapeCast ⟨2, ![a, 1]⟩ (multiReduction .maximumf [1] ⟨1, ![a]⟩ v 0xFF800000#32 hr hφ hm) hc) hb)) (ix2 p k)
      = Ideal.exp (v (ix2 p k) - rowMax (fun l : Fin b => v (ix2 p l))) := fun k => by
    show Ideal.exp (v (ix2 p k) - broadcastTo ⟨2, ![a, b]⟩ (shapeCast ⟨2, ![a, 1]⟩ (multiReduction .maximumf [1] ⟨1, ![a]⟩ v 0xFF800000#32 hr hφ hm) hc) hb (ix2 p k)) = _
    rw [keepdimsCol_apply, laneMax_apply]
  rw [softmax2_ix2]
  unfold rowSoftmax
  show Ideal.div (exp (subf v _) (ix2 p q)) (broadcastTo ⟨2, ![a, b]⟩ (shapeCast ⟨2, ![a, 1]⟩ _ hc) hb (ix2 p q)) = _
  rw [keepdimsCol_apply, laneSum_apply, hsub q]
  exact congrArg _ (Finset.sum_congr rfl fun k _ => hsub k)

/-! ## The host's pieces, at an element -/

/-- The host's max-reduction over the last of four axes, from an initial value, at (i, j, k): the fold of `max` from the
    initial value over that row. -/
theorem hostRowFold_apply {a b c d : ℕ} (x : FVec Ideal ⟨4, ![a, b, c, d]⟩ .f32) (init : FVec Ideal ⟨0, ![]⟩ .f32)
    (h' : Shape.ReducesTo ⟨4, ![a, b, c, d]⟩ [3] ⟨3, ![a, b, c]⟩) (h : Shape.Reduces ⟨4, ![a, b, c, d]⟩ [3] ⟨3, ![a, b, c]⟩)
    (hu : 0 < (⟨0, ![]⟩ : Shape).numel) (i : Fin a) (j : Fin b) (k : Fin c) :
    Host.reduce FloatOps.maximumf x init h' hu (ix3 i j k)
      = (Finset.univ : Finset (Fin d)).fold max (init (Shape.Idx.first hu)) (fun l : Fin d => x (ix4 i j k l)) := by
  refine (Host.reduce_eq_fold_single FloatOps.maximumf x init h' h hu (ix3 i j k)).trans ?_
  refine congrArg (fun f => Finset.fold max _ f Finset.univ) (funext fun l => congrArg x (funext fun e => Fin.ext ?_))
  match e with
  | ⟨0, _⟩ => rfl
  | ⟨1, _⟩ => rfl
  | ⟨2, _⟩ => rfl
  | ⟨3, _⟩ => rfl

end Cert.RowSoftmax

end
-- ==== Proof.LibHostRowSoftmax.lean ====
/-
  Softmax along the last axis of a matrix as a host program spells it, read at one element on the extended reals, over
  any sizes: the row maximum by a max-reduction from −∞ (and one more maximum with −∞, which changes nothing), cast to a
  column and broadcast back, subtracted; the exponential; the row sum by an add-reduction from zero, cast and broadcast
  back; the quotient. At (p, q) the whole expression is the softmax of row p at q.
-/
import Idealize.ShloMosaic.PureOps.Ideal.Laws
import Idealize.ShloMosaic.Lib.ValueIdx
import Idealize.ShloMosaic.Lib.Pipeline.Value
import proofs.«181898_g33612414058620_cont_8to1_b_1984_15_alg».proof.Proof.LibRowSoftmax

noncomputable section

open scoped BigOperators

namespace Cert.HostRowSoftmax

open Idealize.ShloMosaic Idealize.ShloMosaic.ValueIdx Cert.RowSoftmax

/-- The host's max-reduction over the last of two axes, from an initial value, at row p: the fold of `max` from the
    initial value over that row. -/
theorem hostRowFold_apply {a b : ℕ} (x : FVec Ideal ⟨2, ![a, b]⟩ .f32) (init : FVec Ideal ⟨0, ![]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (p : Fin a) :
    Host.reduce FloatOps.maximumf x init h' hu (ix1 p)
      = (Finset.univ : Finset (Fin b)).fold max (init (Shape.Idx.first hu)) (fun l : Fin b => x (ix2 p l)) := by
  refine (Host.reduce_eq_fold_single FloatOps.maximumf x init h' h hu (ix1 p)).trans ?_
  refine congrArg (fun f => Finset.fold max _ f Finset.univ) (funext fun l => congrArg x (funext fun e => Fin.ext ?_))
  match e with
  | ⟨0, _⟩ => rfl
  | ⟨1, _⟩ => rfl

/-- The host's add-reduction over the last of two axes, from the zero word, at row p: the sum of that row. -/
theorem hostRowSum_apply {a b : ℕ} (x : FVec Ideal ⟨2, ![a, b]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (p : Fin a) :
    Host.reduceAdd x (constant (F := Ideal) ⟨0, ![]⟩ .f32 0x00000000#32) h' hu (ix1 p) = ∑ l : Fin b, x (ix2 p l) := by
  simp only [Host.reduceAdd, Ideal.hostReduceAdd_def]
  rw [Ideal.hostReduceAdd_single h' h]
  rw [constant_apply, Ideal.ofBits_zero_f32, zero_add]
  refine Finset.sum_congr rfl fun l _ => congrArg x (funext fun e => Fin.ext ?_)
  match e with
  | ⟨0, _⟩ => rfl
  | ⟨1, _⟩ => rfl

/-- A vector of `a` entries laid as a column [a, 1] and then along the lanes to [a, b] by two `broadcast_in_dim`s reads,
    at (p, q), entry p. -/
theorem keepdimsCol_apply {α : Type} {a b : ℕ} (u : (⟨1, ![a]⟩ : Shape).Idx → α)
    (b1 : (⟨1, ![a]⟩ : Shape).BroadcastsInDim ⟨2, ![a, 1]⟩ ![0])
    (b2 : (⟨2, ![a, 1]⟩ : Shape).BroadcastsInDim ⟨2, ![a, b]⟩ ![0, 1]) (p : Fin a) (q : Fin b) :
    broadcastInDim ⟨2, ![a, b]⟩ ![0, 1] b2 (broadcastInDim ⟨2, ![a, 1]⟩ ![0] b1 u) (ix2 p q) = u (ix1 p) := by
  refine (broadcastInDim_apply _ b2 _ (ix2 p q) (ix2 p (0 : Fin 1)) fun c => ?_).trans ?_
  · match c with
    | ⟨0, _⟩ =>
      show p.val = if a = 1 then 0 else p.val
      split
      · have := p.isLt; omega
      · rfl
    | ⟨1, _⟩ => exact (if_pos rfl).symm
  · refine broadcastInDim_apply _ b1 u (ix2 p (0 : Fin 1)) (ix1 p) fun c => ?_
    match c with
    | ⟨0, _⟩ =>
      show p.val = if a = 1 then 0 else p.val
      split
      · have := p.isLt; omega
      · rfl

/-- The row maximum as the host takes it — the max-reduction from −∞, then the maximum with −∞ broadcast from rank
    zero — at row p: the row's greatest entry. -/
theorem hostRowMax_apply {a b : ℕ} (s : FVec Ideal ⟨2, ![a, b]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (b0 : (⟨0, ![]⟩ : Shape).BroadcastsInDim ⟨1, ![a]⟩ ![]) (p : Fin a) :
    maximumf (broadcastInDim ⟨1, ![a]⟩ ![] b0 (constant (F := Ideal) ⟨0, ![]⟩ .f32 0xFF800000#32))
        (Host.reduce FloatOps.maximumf s (constant (F := Ideal) ⟨0, ![]⟩ .f32 0xFF800000#32) h' hu) (ix1 p)
      = rowMax (fun l : Fin b => s (ix2 p l)) := by
  have e1 : broadcastInDim ⟨1, ![a]⟩ ![] b0 (constant (F := Ideal) ⟨0, ![]⟩ .f32 0xFF800000#32) (ix1 p)
      = Ideal.ofBits .f32 0xFF800000#32 :=
    broadcastInDim_apply ![] b0 (constant (F := Ideal) ⟨0, ![]⟩ .f32 0xFF800000#32) (ix1 p) (fun e => e.elim0) (fun e => e.elim0)
  rw [maximumf_apply, e1, max_negInf, hostRowFold_apply s _ h' h hu p, constant_apply]
  unfold rowMax
  rfl

/-- The host's exponential of a difference at an index. -/
theorem hostExpSub_apply {t : Shape} (s B : FVec Ideal t .f32) (i : t.Idx) :
    Host.exp (subf s B) i = Ideal.exp (s i - B i) := rfl

/-- The host's quotient at an index. -/
theorem hostDivf_apply {t : Shape} (u v : FVec Ideal t .f32) (i : t.Idx) :
    Host.divf u v i = Ideal.div (u i) (v i) := rfl

/-- The host's whole softmax expression at (p, q): the softmax of row p at q. -/
theorem hostSoftmax_apply {a b : ℕ} (s : FVec Ideal ⟨2, ![a, b]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (b0 : (⟨0, ![]⟩ : Shape).BroadcastsInDim ⟨1, ![a]⟩ ![])
    (b1 : (⟨1, ![a]⟩ : Shape).BroadcastsInDim ⟨2, ![a, 1]⟩ ![0])
    (b2 : (⟨2, ![a, 1]⟩ : Shape).BroadcastsInDim ⟨2, ![a, b]⟩ ![0, 1]) (p : Fin a) (q : Fin b) :
    Host.divf
        (Host.exp (subf s (broadcastInDim ⟨2, ![a, b]⟩ ![0, 1] b2 (broadcastInDim ⟨2, ![a, 1]⟩ ![0] b1
          (maximumf (broadcastInDim ⟨1, ![a]⟩ ![] b0 (constant (F := Ideal) ⟨0, ![]⟩ .f32 0xFF800000#32))
            (Host.reduce FloatOps.maximumf s (constant (F := Ideal) ⟨0, ![]⟩ .f32 0xFF800000#32) h' hu))))))
        (broadcastInDim ⟨2, ![a, b]⟩ ![0, 1] b2 (broadcastInDim ⟨2, ![a, 1]⟩ ![0] b1
          (Host.reduceAdd (Host.exp (subf s (broadcastInDim ⟨2, ![a, b]⟩ ![0, 1] b2 (broadcastInDim ⟨2, ![a, 1]⟩ ![0] b1
            (maximumf (broadcastInDim ⟨1, ![a]⟩ ![] b0 (constant (F := Ideal) ⟨0, ![]⟩ .f32 0xFF800000#32))
              (Host.reduce FloatOps.maximumf s (constant (F := Ideal) ⟨0, ![]⟩ .f32 0xFF800000#32) h' hu))))))
            (constant (F := Ideal) ⟨0, ![]⟩ .f32 0x00000000#32) h' hu))) (ix2 p q)
      = softmax2 s (ix2 p q) := by
  have hsub : ∀ k : Fin b, Host.exp (subf s (broadcastInDim ⟨2, ![a, b]⟩ ![0, 1] b2 (broadcastInDim ⟨2, ![a, 1]⟩ ![0] b1
        (maximumf (broadcastInDim ⟨1, ![a]⟩ ![] b0 (constant (F := Ideal) ⟨0, ![]⟩ .f32 0xFF800000#32))
          (Host.reduce FloatOps.maximumf s (constant (F := Ideal) ⟨0, ![]⟩ .f32 0xFF800000#32) h' hu))))) (ix2 p k)
      = Ideal.exp (s (ix2 p k) - rowMax (fun l : Fin b => s (ix2 p l))) := fun k => by
    rw [hostExpSub_apply, keepdimsCol_apply, hostRowMax_apply s h' h hu b0 p]
  rw [softmax2_ix2]
  unfold rowSoftmax
  rw [hostDivf_apply, keepdimsCol_apply, hostRowSum_apply _ h' h hu p, hsub q]
  exact congrArg _ (Finset.sum_congr rfl fun k _ => hsub k)

end Cert.HostRowSoftmax

end
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.LibRowLogSoftmax.lean ====
/-
  Log-softmax along the last axis of a matrix, on the extended reals, read at one element, over any sizes.

  For a row `r` with greatest entry `m = rowMax r`, the log-softmax at position `j` is

      (r j − m) − log (Σ_k exp (r k − m)),

  with the exponential, the logarithm and the subtraction of the ideal float values (`rowLogSoftmax`). A vector kernel and
  a host program both build it from the same pieces — the row maximum from −∞, subtracted; the exponential; the row sum
  from zero; its logarithm taken ON THE REDUCED COLUMN and only then laid back along the lanes; subtracted again — and
  differ only in how the reduced columns are laid back: the vector unit casts a vector [a] to [a, 1] and broadcasts it to
  [a, b], the host uses two `broadcast_in_dim`s (and one more maximum with −∞, which changes nothing). At (p, q) either
  expression is `rowLogSoftmax` of row p at q (`vector_apply`, `host_apply`); like a softmax, it only looks along rows.
-/
import Idealize.ShloMosaic.PureOps.Ideal.Laws
import Idealize.ShloMosaic.Lib.ValueIdx
import Idealize.ShloMosaic.Lib.Pipeline.Value
import proofs.«181898_g33612414058620_cont_8to1_b_1984_15_alg».proof.Proof.LibRowSoftmax
import proofs.«181898_g33612414058620_cont_8to1_b_1984_15_alg».proof.Proof.LibHostRowSoftmax
import proofs.«181898_g33612414058620_cont_8to1_b_1984_15_alg».proof.Proof.LibColRowBroadcast

noncomputable section

open scoped BigOperators

namespace Cert.RowLogSoftmax

open Idealize.ShloMosaic Idealize.ShloMosaic.ValueIdx Cert.RowSoftmax

/-- Log-softmax of a row at position `j`: the entry shifted by the row's maximum, less the logarithm of the sum of all
    the row's shifted exponentials. -/
def rowLogSoftmax {n : ℕ} (r : Fin n → EReal) (j : Fin n) : EReal :=
  (r j - rowMax r) - Ideal.log (∑ k : Fin n, Ideal.exp (r k - rowMax r))

/-- Log-softmax of every row of a matrix. -/
def logSoftmax2 {a b : ℕ} (x : (⟨2, ![a, b]⟩ : Shape).Idx → EReal) : (⟨2, ![a, b]⟩ : Shape).Idx → EReal :=
  fun y => rowLogSoftmax (fun k : Fin b => x (ix2 (n0 := a) (y 0) k)) (y 1)

theorem logSoftmax2_ix2 {a b : ℕ} (x : (⟨2, ![a, b]⟩ : Shape).Idx → EReal) (p : Fin a) (q : Fin b) :
    logSoftmax2 x (ix2 p q) = rowLogSoftmax (fun k => x (ix2 p k)) q := rfl

/-! ## The vector unit's spelling -/

/-- The whole vector expression — the lanes' maximum subtracted, the exponential, the lanes' sum, its logarithm on the
    reduced column, broadcast back and subtracted — reads, at (p, q), the log-softmax of row `p` at `q`. -/
theorem vector_apply {a b : ℕ} (v : FVec Ideal ⟨2, ![a, b]⟩ .f32) (hr : Shape.Reduces ⟨2, ![a, b]⟩ [1] ⟨1, ![a]⟩)
    (hφ hφ' : FKind.Formats .f32) (hm : (0xFF800000#32 : BitVec 32) = FKind.maximumf.neutral .f32 hφ)
    (hs : (0x00000000#32 : BitVec 32) = FKind.add.neutral .f32 hφ')
    (hc : (⟨1, ![a]⟩ : Shape).ShapeCasts ⟨2, ![a, 1]⟩) (hb : (⟨2, ![a, 1]⟩ : Shape).Broadcasts ⟨2, ![a, b]⟩)
    (p : Fin a) (q : Fin b) :
    subf (subf v (broadcastTo ⟨2, ![a, b]⟩ (shapeCast ⟨2, ![a, 1]⟩ (multiReduction .maximumf [1] ⟨1, ![a]⟩ v 0xFF800000#32 hr hφ hm) hc) hb))
        (broadcastTo ⟨2, ![a, b]⟩ (log (shapeCast ⟨2, ![a, 1]⟩ (multiReduction .add [1] ⟨1, ![a]⟩
          (exp (subf v (broadcastTo ⟨2, ![a, b]⟩ (shapeCast ⟨2, ![a, 1]⟩ (multiReduction .maximumf [1] ⟨1, ![a]⟩ v 0xFF800000#32 hr hφ hm) hc) hb)))
          0x00000000#32 hr hφ' hs) hc)) hb) (ix2 p q)
      = rowLogSoftmax (fun k => v (ix2 p k)) q := by
  have hsub : ∀ k : Fin b, subf v (broadcastTo ⟨2, ![a, b]⟩ (shapeCast ⟨2, ![a, 1]⟩ (multiReduction .maximumf [1] ⟨1, ![a]⟩ v 0xFF800000#32 hr hφ hm) hc) hb) (ix2 p k)
      = v (ix2 p k) - rowMax (fun l : Fin b => v (ix2 p l)) := fun k => by
    rw [subf_apply, keepdimsCol_apply, laneMax_apply]
  unfold rowLogSoftmax
  rw [subf_apply, hsub q, Cert.ColRowBroadcast.colBroadcast_apply]
  show _ - Ideal.log (shapeCast ⟨2, ![a, 1]⟩ (multiReduction .add [1] ⟨1, ![a]⟩
      (exp (subf v (broadcastTo ⟨2, ![a, b]⟩ (shapeCast ⟨2, ![a, 1]⟩ (multiReduction .maximumf [1] ⟨1, ![a]⟩ v 0xFF800000#32 hr hφ hm) hc) hb)))
      0x00000000#32 hr hφ' hs) hc (ix2 p (0 : Fin 1))) = _
  rw [Cert.ColRowBroadcast.colCast_apply, laneSum_apply]
  refine congrArg (fun z => _ - Ideal.log z) (Finset.sum_congr rfl fun k _ => ?_)
  show Ideal.exp (subf v _ (ix2 p k)) = _
  rw [hsub k]

/-! ## The host's spelling -/

/-- A vector of `a` entries laid as a column [a, 1] by a `broadcast_in_dim` reads, at (p, 0), entry p. -/
theorem hostColCast_apply {α : Type} {a : ℕ} (u : (⟨1, ![a]⟩ : Shape).Idx → α)
    (b1 : (⟨1, ![a]⟩ : Shape).BroadcastsInDim ⟨2, ![a, 1]⟩ ![0]) (p : Fin a) (z : Fin 1) :
    broadcastInDim ⟨2, ![a, 1]⟩ ![0] b1 u (ix2 p z) = u (ix1 p) := by
  refine broadcastInDim_apply _ b1 u (ix2 p z) (ix1 p) fun c => ?_
  match c with
  | ⟨0, _⟩ =>
    show p.val = if a = 1 then 0 else p.val
    split
    · have := p.isLt; omega
    · rfl

/-- A column [a, 1] laid along the lanes to [a, b] by a `broadcast_in_dim` reads, at (p, q), the column at (p, 0). -/
theorem hostColBroadcast_apply {α : Type} {a b : ℕ} (w : (⟨2, ![a, 1]⟩ : Shape).Idx → α)
    (b2 : (⟨2, ![a, 1]⟩ : Shape).BroadcastsInDim ⟨2, ![a, b]⟩ ![0, 1]) (p : Fin a) (q : Fin b) :
    broadcastInDim ⟨2, ![a, b]⟩ ![0, 1] b2 w (ix2 p q) = w (ix2 p (0 : Fin 1)) := by
  refine broadcastInDim_apply _ b2 w (ix2 p q) (ix2 p (0 : Fin 1)) fun c => ?_
  match c with
  | ⟨0, _⟩ =>
    show p.val = if a = 1 then 0 else p.val
    split
    · have := p.isLt; omega
    · rfl
  | ⟨1, _⟩ => exact (if_pos rfl).symm

/-- The host's whole log-softmax expression at (p, q): the log-softmax of row p at q. -/
theorem host_apply {a b : ℕ} (s : FVec Ideal ⟨2, ![a, b]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (b0 : (⟨0, ![]⟩ : Shape).BroadcastsInDim ⟨1, ![a]⟩ ![])
    (b1 : (⟨1, ![a]⟩ : Shape).BroadcastsInDim ⟨2, ![a, 1]⟩ ![0])
    (b2 : (⟨2, ![a, 1]⟩ : Shape).BroadcastsInDim ⟨2, ![a, b]⟩ ![0, 1]) (p : Fin a) (q : Fin b) :
    subf
        (subf s (broadcastInDim ⟨2, ![a, b]⟩ ![0, 1] b2 (broadcastInDim ⟨2, ![a, 1]⟩ ![0] b1
          (maximumf (broadcastInDim ⟨1, ![a]⟩ ![] b0 (constant (F := Ideal) ⟨0, ![]⟩ .f32 0xFF800000#32))
            (Host.reduce FloatOps.maximumf s (constant (F := Ideal) ⟨0, ![]⟩ .f32 0xFF800000#32) h' hu)))))
        (broadcastInDim ⟨2, ![a, b]⟩ ![0, 1] b2 (Host.log (broadcastInDim ⟨2, ![a, 1]⟩ ![0] b1
          (Host.reduceAdd (Host.exp (subf s (broadcastInDim ⟨2, ![a, b]⟩ ![0, 1] b2 (broadcastInDim ⟨2, ![a, 1]⟩ ![0] b1
            (maximumf (broadcastInDim ⟨1, ![a]⟩ ![] b0 (constant (F := Ideal) ⟨0, ![]⟩ .f32 0xFF800000#32))
              (Host.reduce FloatOps.maximumf s (constant (F := Ideal) ⟨0, ![]⟩ .f32 0xFF800000#32) h' hu))))))
            (constant (F := Ideal) ⟨0, ![]⟩ .f32 0x00000000#32) h' hu)))) (ix2 p q)
      = rowLogSoftmax (fun k => s (ix2 p k)) q := by
  have hsub : ∀ k : Fin b, subf s (broadcastInDim ⟨2, ![a, b]⟩ ![0, 1] b2 (broadcastInDim ⟨2, ![a, 1]⟩ ![0] b1
        (maximumf (broadcastInDim ⟨1, ![a]⟩ ![] b0 (constant (F := Ideal) ⟨0, ![]⟩ .f32 0xFF800000#32))
          (Host.reduce FloatOps.maximumf s (constant (F := Ideal) ⟨0, ![]⟩ .f32 0xFF800000#32) h' hu)))) (ix2 p k)
      = s (ix2 p k) - rowMax (fun l : Fin b => s (ix2 p l)) := fun k => by
    rw [subf_apply, Cert.HostRowSoftmax.keepdimsCol_apply, Cert.HostRowSoftmax.hostRowMax_apply s h' h hu b0 p]
  unfold rowLogSoftmax
  rw [subf_apply, hsub q, hostColBroadcast_apply]
  show _ - Ideal.log (broadcastInDim ⟨2, ![a, 1]⟩ ![0] b1
      (Host.reduceAdd (Host.exp (subf s (broadcastInDim ⟨2, ![a, b]⟩ ![0, 1] b2 (broadcastInDim ⟨2, ![a, 1]⟩ ![0] b1
        (maximumf (broadcastInDim ⟨1, ![a]⟩ ![] b0 (constant (F := Ideal) ⟨0, ![]⟩ .f32 0xFF800000#32))
          (Host.reduce FloatOps.maximumf s (constant (F := Ideal) ⟨0, ![]⟩ .f32 0xFF800000#32) h' hu))))))
        (constant (F := Ideal) ⟨0, ![]⟩ .f32 0x00000000#32) h' hu) (ix2 p (0 : Fin 1))) = _
  rw [hostColCast_apply, Cert.HostRowSoftmax.hostRowSum_apply _ h' h hu p]
  refine congrArg (fun z => _ - Ideal.log z) (Finset.sum_congr rfl fun k _ => ?_)
  show Ideal.exp (subf s _ (ix2 p k)) = _
  rw [hsub k]

end Cert.RowLogSoftmax

end
-- ==== Proof.Spec.lean ====
/-
  What the two-layer graph convolution computes, entry by entry, on the extended reals.

  With X the node features [4096, 256], A₀ and A₁ the two dense adjacency matrices (the two slabs of a [2, 4096, 4096]
  array), W₀ [256, 256], b₀ [256], W₁ [256, 128], b₁ [128]:

      XW₀ (r, c)   = Σ_k X (r, k) · W₀ (k, c)                           (k < 256)
      H (r, c)     = max ((Σ_k A₀ (r, k) · XW₀ (k, c)) + b₀ c, 0)       (k < 4096)
      P (r, j)     = Σ_c H (r, c) · W₁ (c, j)                           (c < 256)
      Z (r, j)     = (Σ_k A₁ (r, k) · P (k, j)) + b₁ j                  (k < 4096)
      out (r, j)   = log-softmax of row r of Z at j.

  Every sum is a finite sum of extended reals, whose addition is commutative and associative with no side condition, so a
  sum over 4096 columns may be taken as the sum over the first 2048 plus the sum over the last 2048 (`sum_halves`): this is
  the only law that joins a kernel that streams each adjacency row block as two column halves to the plain products.
-/
import Idealize.ShloMosaic.PureOps.Ideal
import Idealize.ShloMosaic.Lib.ValueIdx
import Mathlib.Algebra.BigOperators.Fin
import proofs.«181898_g33612414058620_cont_8to1_b_1984_15_alg».proof.Proof.LibRowLogSoftmax

noncomputable section

open scoped BigOperators

namespace Cert.Gcn2

open Idealize.ShloMosaic Idealize.ShloMosaic.ValueIdx

/-- The arrays, as functions of their indices. -/
abbrev Feat := (⟨2, ![4096, 256]⟩ : Shape).Idx → EReal
abbrev Adjs := (⟨3, ![2, 4096, 4096]⟩ : Shape).Idx → EReal
abbrev Wt0 := (⟨2, ![256, 256]⟩ : Shape).Idx → EReal
abbrev Bs0 := (⟨1, ![256]⟩ : Shape).Idx → EReal
abbrev Wt1 := (⟨2, ![256, 128]⟩ : Shape).Idx → EReal
abbrev Bs1 := (⟨1, ![128]⟩ : Shape).Idx → EReal

/-- The zero every rectifier compares with: the f32 word of +0. -/
abbrev zeroWord : EReal := Ideal.ofBits .f32 0x00000000#32

/-- X·W₀ at (r, c). -/
def xw0 (x : Feat) (W0 : Wt0) (r : Fin 4096) (c : Fin 256) : EReal :=
  ∑ k : Fin 256, x (ix2 r k) * W0 (ix2 k c)

/-- The hidden layer max (A₀·(X·W₀) + b₀, 0) at (r, c). -/
def hid (x : Feat) (adjs : Adjs) (W0 : Wt0) (b0 : Bs0) (r : Fin 4096) (c : Fin 256) : EReal :=
  max ((∑ k : Fin 4096, adjs (ix3 (0 : Fin 2) r k) * xw0 x W0 k c) + b0 (ix1 c)) zeroWord

/-- H·W₁ at (r, j). -/
def proj (x : Feat) (adjs : Adjs) (W0 : Wt0) (b0 : Bs0) (W1 : Wt1) (r : Fin 4096) (j : Fin 128) : EReal :=
  ∑ c : Fin 256, hid x adjs W0 b0 r c * W1 (ix2 c j)

/-- The output layer A₁·(H·W₁) + b₁ at (r, j), before the log-softmax. -/
def logits (x : Feat) (adjs : Adjs) (W0 : Wt0) (b0 : Bs0) (W1 : Wt1) (b1 : Bs1) (r : Fin 4096) (j : Fin 128) : EReal :=
  (∑ k : Fin 4096, adjs (ix3 (1 : Fin 2) r k) * proj x adjs W0 b0 W1 k j) + b1 (ix1 j)

/-- The result: the log-softmax of each row of the output layer. -/
def out (x : Feat) (adjs : Adjs) (W0 : Wt0) (b0 : Bs0) (W1 : Wt1) (b1 : Bs1) : (⟨2, ![4096, 128]⟩ : Shape).Idx → EReal :=
  Cert.RowLogSoftmax.logSoftmax2 fun y => logits x adjs W0 b0 W1 b1 (y 0) (y 1)

theorem out_ix2 (x : Feat) (adjs : Adjs) (W0 : Wt0) (b0 : Bs0) (W1 : Wt1) (b1 : Bs1) (r : Fin 4096) (j : Fin 128) :
    out x adjs W0 b0 W1 b1 (ix2 r j) = Cert.RowLogSoftmax.rowLogSoftmax (fun q => logits x adjs W0 b0 W1 b1 r q) j := rfl

/-- A sum over 2048 + 2048 terms is the sum of its first 2048 plus the sum of its last 2048, in any commutative additive
    monoid. -/
theorem sum_halves {M : Type*} [AddCommMonoid M] (f : Fin 4096 → M) :
    ∑ k : Fin 4096, f k
      = (∑ k : Fin 2048, f ⟨k.val, by have := k.isLt; omega⟩) + ∑ k : Fin 2048, f ⟨2048 + k.val, by have := k.isLt; omega⟩ := by
  have h := Fin.sum_univ_add (M := M) (a := 2048) (b := 2048) f
  rw [h]
  rfl

end Cert.Gcn2

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.PayloadReads.lean ====
/-
  The kernel body's arithmetic, read one entry at a time on the extended reals.

  A grid step works on a block of 1024 rows of one adjacency matrix, delivered as two column halves L and R
  (each [1, 1024, 2048], the unit axis dropped before use), and on a 4096-row matrix kept from earlier steps, read as
  its top 2048 rows T and its bottom 2048 rows B. Changes of float format are the identity on the extended reals, and
  a product into a zero accumulator is the plain sum of products, so the four payloads read:

    * the feature product:  (X·W₀)(r, c) = Σ_k X (r, k) · W₀ (k, c)                                        (k < 256);
    * a first-layer step:   P (p, j) = Σ_c max ((Σ_k L (p, k)·T (k, c) + Σ_k R (p, k)·B (k, c)) + b₀ c, 0) · W₁ (c, j),
      stored twice, once after a format change that changes nothing;
    * a second-layer step:  the log-softmax along row p of (Σ_k L (p, k)·T (k, j) + Σ_k R (p, k)·B (k, j)) + b₁ j.

  Nothing here joins the two half sums into one sum over 4096 columns: that is the caller's step.
-/
import proofs.«181898_g33612414058620_cont_8to1_b_1984_15_alg».proof.Proof.Gen.KernelIdeal.Skeleton
import proofs.«181898_g33612414058620_cont_8to1_b_1984_15_alg».proof.Proof.Spec
import proofs.«181898_g33612414058620_cont_8to1_b_1984_15_alg».proof.Proof.LibPlainMatmul
import proofs.«181898_g33612414058620_cont_8to1_b_1984_15_alg».proof.Proof.LibColRowBroadcast
import proofs.«181898_g33612414058620_cont_8to1_b_1984_15_alg».proof.Proof.LibRowLogSoftmax
import Idealize.ShloMosaic.Lib.Pipeline.Value
import Idealize.ShloMosaic.Lib.ValueIdx

noncomputable section

open scoped BigOperators

namespace Cert.Gcn2.Pay

open Idealize.ShloMosaic Idealize.ShloMosaic.ValueIdx Cert.KernelIdeal Cert.KernelIdeal.Gen

/-! ## The four products are plain M × K by K × N products -/

theorem dims_feat : dot_S4096x256_S256x256_S4096x256_1_0_0_1_n_n = DotDims.plain 4096 256 256 := rfl
theorem dims_half256 : dot_S1024x2048_S2048x256_S1024x256_1_0_0_1_n_n = DotDims.plain 1024 2048 256 := rfl
theorem dims_proj : dot_S1024x256_S256x128_S1024x128_1_0_0_1_n_n = DotDims.plain 1024 256 128 := rfl
theorem dims_half128 : dot_S1024x2048_S2048x128_S1024x128_1_0_0_1_n_n = DotDims.plain 1024 2048 128 := rfl

/-! ## The feature product -/

/-- Entry (r, c) of the stored feature product: the format change and the cast to the same shape change nothing. -/
theorem pay1_apply (v15 : Vec Ideal S4096x256 .f32) (v16 : Vec Ideal S256x256 .f32) (r : Fin 4096) (c : Fin 256) :
    k0_pay1 (F := Ideal) v15 v16 (ix2 r c) = ∑ k : Fin 256, v15 (ix2 r k) * v16 (ix2 k c) := by
  unfold k0_pay1
  rw [shapeCast_self]
  exact Cert.PlainMatmul.matmul_zero_apply (φ₁ := .f32) (φ₂ := .f32) 4096 256 256 none v15 v16 r c

/-! ## A half block of adjacency rows with its unit axis dropped -/

/-- A [1, a, b] array cast to [a, b] reads, at (p, k), the array at (0, p, k). -/
theorem dropUnit_apply {α : Type} {a b : ℕ} (x : (⟨3, ![1, a, b]⟩ : Shape).Idx → α)
    (h : (⟨3, ![1, a, b]⟩ : Shape).ShapeCasts ⟨2, ![a, b]⟩) (p : Fin a) (k : Fin b) :
    shapeCast ⟨2, ![a, b]⟩ x h (ix2 p k) = x (ix3 (0 : Fin 1) p k) := by
  refine shapeCast_apply x h (ix2 p k) (ix3 (0 : Fin 1) p k) ?_
  rw [Shape.rowMajor_val_three, Shape.rowMajor_val_two]
  show ((0 : Fin 1).val * a + p.val) * b + k.val = p.val * b + k.val
  simp

/-- The left half block at (p, k). -/
theorem pay2_apply (v3 : Vec Ideal S1x1024x2048 .f32) (p : Fin 1024) (k : Fin 2048) :
    k0_pay2 (F := Ideal) v3 (ix2 p k) = v3 (ix3 (0 : Fin 1) p k) := by
  unfold k0_pay2
  exact dropUnit_apply v3 _ p k

/-- The right half block at (p, k). -/
theorem pay3_apply (v6 : Vec Ideal S1x1024x2048 .f32) (p : Fin 1024) (k : Fin 2048) :
    k0_pay3 (F := Ideal) v6 (ix2 p k) = v6 (ix3 (0 : Fin 1) p k) := by
  unfold k0_pay3
  exact dropUnit_apply v6 _ p k

/-! ## The two half products plus the bias row -/

/-- A half block times 2048 kept rows of width 256, at (p, c). -/
theorem half256_apply (w : FVec Ideal S1024x2048 .bf16) (v : Vec Ideal S2048x256 .bf16) (p : Fin 1024) (c : Fin 256) :
    matmul (φ₁ := .bf16) (φ₂ := .bf16) dot_S1024x2048_S2048x256_S1024x256_1_0_0_1_n_n none w v (constant (F := Ideal) S1024x256 .f32 0x00000000#32) (ix2 p c)
      = ∑ k : Fin 2048, w (ix2 p k) * v (ix2 k c) :=
  Cert.PlainMatmul.matmul_zero_apply 1024 2048 256 none w v p c

/-- A half block times 2048 kept rows of width 128, at (p, j). -/
theorem half128_apply (w : FVec Ideal S1024x2048 .bf16) (v : Vec Ideal S2048x128 .bf16) (p : Fin 1024) (j : Fin 128) :
    matmul (φ₁ := .bf16) (φ₂ := .bf16) dot_S1024x2048_S2048x128_S1024x128_1_0_0_1_n_n none w v (constant (F := Ideal) S1024x128 .f32 0x00000000#32) (ix2 p j)
      = ∑ k : Fin 2048, w (ix2 p k) * v (ix2 k j) :=
  Cert.PlainMatmul.matmul_zero_apply 1024 2048 128 none w v p j

/-- The first layer before its rectifier, at (p, c): left half product plus right half product plus the bias. -/
theorem pre256_apply (v3 v6 : Vec Ideal S1x1024x2048 .f32) (v15 v17 : Vec Ideal S2048x256 .bf16) (v20 : Vec Ideal S1x256 .f32)
    (p : Fin 1024) (c : Fin 256) :
    addf (addf (matmul (φ₁ := .bf16) (φ₂ := .bf16) dot_S1024x2048_S2048x256_S1024x256_1_0_0_1_n_n none (k0_pay2 (F := Ideal) v3) v15 (constant (F := Ideal) S1024x256 .f32 0x00000000#32))
          (matmul (φ₁ := .bf16) (φ₂ := .bf16) dot_S1024x2048_S2048x256_S1024x256_1_0_0_1_n_n none (k0_pay3 (F := Ideal) v6) v17 (constant (F := Ideal) S1024x256 .f32 0x00000000#32)))
        (broadcastTo S1024x256 (shapeCast S1x256 v20 shapeCasts_S1x256_S1x256) broadcasts_S1x256_S1024x256) (ix2 p c)
      = ((∑ k : Fin 2048, v3 (ix3 (0 : Fin 1) p k) * v15 (ix2 k c)) + (∑ k : Fin 2048, v6 (ix3 (0 : Fin 1) p k) * v17 (ix2 k c)))
          + v20 (ix2 (0 : Fin 1) c) := by
  rw [addf_apply, addf_apply, half256_apply, half256_apply, Cert.ColRowBroadcast.rowBroadcast_apply, shapeCast_self]
  simp only [pay2_apply, pay3_apply]

/-- The second layer before its log-softmax, at (p, j). -/
theorem pre128_apply (v3 v6 : Vec Ideal S1x1024x2048 .f32) (v15 v17 : Vec Ideal S2048x128 .bf16) (v20 : Vec Ideal S1x128 .f32)
    (p : Fin 1024) (j : Fin 128) :
    addf (addf (matmul (φ₁ := .bf16) (φ₂ := .bf16) dot_S1024x2048_S2048x128_S1024x128_1_0_0_1_n_n none (k0_pay2 (F := Ideal) v3) v15 (constant (F := Ideal) S1024x128 .f32 0x00000000#32))
          (matmul (φ₁ := .bf16) (φ₂ := .bf16) dot_S1024x2048_S2048x128_S1024x128_1_0_0_1_n_n none (k0_pay3 (F := Ideal) v6) v17 (constant (F := Ideal) S1024x128 .f32 0x00000000#32)))
        (broadcastTo S1024x128 (shapeCast S1x128 v20 shapeCasts_S1x128_S1x128) broadcasts_S1x128_S1024x128) (ix2 p j)
      = ((∑ k : Fin 2048, v3 (ix3 (0 : Fin 1) p k) * v15 (ix2 k j)) + (∑ k : Fin 2048, v6 (ix3 (0 : Fin 1) p k) * v17 (ix2 k j)))
          + v20 (ix2 (0 : Fin 1) j) := by
  rw [addf_apply, addf_apply, half128_apply, half128_apply, Cert.ColRowBroadcast.rowBroadcast_apply, shapeCast_self]
  simp only [pay2_apply, pay3_apply]

/-! ## A first-layer step -/

/-- Entry (p, j) of a first-layer step: the rectified rows times W₁. -/
theorem pay4_apply (v3 v6 : Vec Ideal S1x1024x2048 .f32) (v15 v17 : Vec Ideal S2048x256 .bf16) (v20 : Vec Ideal S1x256 .f32)
    (v26 : Vec Ideal S256x128 .f32) (p : Fin 1024) (j : Fin 128) :
    k0_pay4 (F := Ideal) v3 v6 v15 v17 v20 v26 (ix2 p j)
      = ∑ c : Fin 256, max (((∑ k : Fin 2048, v3 (ix3 (0 : Fin 1) p k) * v15 (ix2 k c))
            + (∑ k : Fin 2048, v6 (ix3 (0 : Fin 1) p k) * v17 (ix2 k c))) + v20 (ix2 (0 : Fin 1) c)) Cert.Gcn2.zeroWord * v26 (ix2 c j) := by
  unfold k0_pay4
  refine (Cert.PlainMatmul.matmul_zero_apply (φ₁ := .f32) (φ₂ := .f32) 1024 256 128 none _ v26 p j).trans ?_
  refine Finset.sum_congr rfl fun c _ => ?_
  refine congrArg (· * v26 (ix2 c j)) ?_
  exact congrArg (fun z => max z Cert.Gcn2.zeroWord) (pre256_apply v3 v6 v15 v17 v20 p c)

/-- The copy of a first-layer step kept for the second layer is the same function: a format change and a cast to the
    same shape. -/
theorem pay5_eq (v3 v6 : Vec Ideal S1x1024x2048 .f32) (v15 v17 : Vec Ideal S2048x256 .bf16) (v20 : Vec Ideal S1x256 .f32)
    (v26 : Vec Ideal S256x128 .f32) :
    k0_pay5 (F := Ideal) v3 v6 v15 v17 v20 v26 = k0_pay4 (F := Ideal) v3 v6 v15 v17 v20 v26 := by
  unfold k0_pay5
  exact shapeCast_self _ _

/-! ## A second-layer step -/

/-- Entry (p, q) of a second-layer step: the log-softmax of row p of the output layer at q. -/
theorem pay6_apply (v3 v6 : Vec Ideal S1x1024x2048 .f32) (v15 v17 : Vec Ideal S2048x128 .bf16) (v20 : Vec Ideal S1x128 .f32)
    (p : Fin 1024) (q : Fin 128) :
    k0_pay6 (F := Ideal) v3 v6 v15 v17 v20 (ix2 p q)
      = Cert.RowLogSoftmax.rowLogSoftmax (fun j : Fin 128 => ((∑ k : Fin 2048, v3 (ix3 (0 : Fin 1) p k) * v15 (ix2 k j))
            + (∑ k : Fin 2048, v6 (ix3 (0 : Fin 1) p k) * v17 (ix2 k j))) + v20 (ix2 (0 : Fin 1) j)) q := by
  unfold k0_pay6
  refine (Cert.RowLogSoftmax.vector_apply (a := 1024) (b := 128) _ reduces_S1024x128_S1024 (.inl rfl) (.inl rfl) rfl rfl
    shapeCasts_S1024_S1024x1 broadcasts_S1024x1_S1024x128 p q).trans ?_
  exact congrArg (fun f => Cert.RowLogSoftmax.rowLogSoftmax f q) (funext fun j => pre128_apply v3 v6 v15 v17 v20 p j)

end Cert.Gcn2.Pay

end
-- ==== Proof.IdealValues.lean ====
/-
  What the kernel's blocks and scratch arrays hold, entry by entry, in terms of the six argument arrays.

  Every input window reads a block of an array as the region finds it. The windows of X, W₀ and W₁ hold the whole
  array at every grid point; the two bias windows hold the bias vector laid as one row; at point t the two adjacency
  windows hold rows 1024·(t mod 4) to 1024·(t mod 4) + 1023 of matrix t div 4, columns 0 to 2047 and 2048 to 4095. With
  these, X·W₀ as the first point leaves it is the specification's X·W₀; the hidden projection, assembled from the four
  row blocks of points 0 to 3, is the specification's H·W₁ (the two half sums over 2048 columns joined into one sum
  over 4096); and the block a point t ≥ 4 computes is rows 1024·(t − 4) onward of the specification's result.
-/
import proofs.«181898_g33612414058620_cont_8to1_b_1984_15_alg».proof.Proof.IdealContents
import proofs.«181898_g33612414058620_cont_8to1_b_1984_15_alg».proof.Proof.PayloadReads
import proofs.«181898_g33612414058620_cont_8to1_b_1984_15_alg».proof.Proof.Spec
import proofs.«181898_g33612414058620_cont_8to1_b_1984_15_alg».proof.Proof.LibColRowBroadcast
import Idealize.ShloMosaic.Lib.Pipeline.Value
import Idealize.ShloMosaic.Lib.ValueIdx

set_option maxRecDepth 16384

noncomputable section

open scoped BigOperators

namespace Cert.Gcn2.Val

open Cert.KernelIdeal Cert.KernelIdeal.Gen Cert.KernelIdeal.Fr Idealize.ShloMosaic Idealize.ShloMosaic.TcCoe
  Idealize.ShloMosaic.ValueIdx Idealize.SL.Sem

variable (m : (ℓ : Loc nD τ sig) → Buf (Elt Ideal) ℓ) (c : Dev nD)

/-! ## The windows that hold a whole array -/

/-- The index maps of the windows of X, W₀, the two bias rows and W₁ are constantly zero. -/
theorem whole_idx : ∀ t : Fin cfg0.N,
    win0_2.index t = ![0, 0] ∧ win0_3.index t = ![0, 0] ∧ win0_4.index t = ![0, 0] ∧ win0_5.index t = ![0, 0]
      ∧ win0_6.index t = ![0, 0] :=
  (by decide +kernel : ∀ t : Fin grid0.N, _)

/-- The window of X holds X at every point. -/
theorem iblk_x (t : Fin cfg0.N) (r : Fin 4096) (k : Fin 256) :
    iblk m c 2 t (ix2 r k) = m ((c.tc : Thread nD τ).loc main_arg0) (ix2 r k) := by
  have e := (whole_idx t).1
  show V m c main_arg0 (((cfg0.win 2).blk t).view.emb (ix2 r k)) = _
  rw [V_main_arg0]
  refine congrArg (m ((c.tc : Thread nD τ).loc main_arg0)) (funext fun a => Fin.ext ?_)
  match a with
  | ⟨0, _⟩ => show win0_2.index t (0 : Fin 2) * 4096 + 1 * r.val = r.val; rw [e]; show 0 * 4096 + 1 * r.val = r.val; omega
  | ⟨1, _⟩ => show win0_2.index t (1 : Fin 2) * 256 + 1 * k.val = k.val; rw [e]; show 0 * 256 + 1 * k.val = k.val; omega

/-- The window of W₀ holds W₀ at every point. -/
theorem iblk_w0 (t : Fin cfg0.N) (k : Fin 256) (cc : Fin 256) :
    iblk m c 3 t (ix2 k cc) = m ((c.tc : Thread nD τ).loc main_arg2) (ix2 k cc) := by
  have e := (whole_idx t).2.1
  show V m c main_arg2 (((cfg0.win 3).blk t).view.emb (ix2 k cc)) = _
  rw [V_main_arg2]
  refine congrArg (m ((c.tc : Thread nD τ).loc main_arg2)) (funext fun a => Fin.ext ?_)
  match a with
  | ⟨0, _⟩ => show win0_3.index t (0 : Fin 2) * 256 + 1 * k.val = k.val; rw [e]; show 0 * 256 + 1 * k.val = k.val; omega
  | ⟨1, _⟩ => show win0_3.index t (1 : Fin 2) * 256 + 1 * cc.val = cc.val; rw [e]; show 0 * 256 + 1 * cc.val = cc.val; omega

/-- The window of W₁ holds W₁ at every point. -/
theorem iblk_w1 (t : Fin cfg0.N) (cc : Fin 256) (j : Fin 128) :
    iblk m c 5 t (ix2 cc j) = m ((c.tc : Thread nD τ).loc main_arg4) (ix2 cc j) := by
  have e := (whole_idx t).2.2.2.1
  show V m c main_arg4 (((cfg0.win 5).blk t).view.emb (ix2 cc j)) = _
  rw [V_main_arg4]
  refine congrArg (m ((c.tc : Thread nD τ).loc main_arg4)) (funext fun a => Fin.ext ?_)
  match a with
  | ⟨0, _⟩ => show win0_5.index t (0 : Fin 2) * 256 + 1 * cc.val = cc.val; rw [e]; show 0 * 256 + 1 * cc.val = cc.val; omega
  | ⟨1, _⟩ => show win0_5.index t (1 : Fin 2) * 128 + 1 * j.val = j.val; rw [e]; show 0 * 128 + 1 * j.val = j.val; omega

/-! ## The two bias rows -/

/-- The region finds the first bias laid as one row of 256 entries. -/
theorem V_bias0 : (V m c main_call0_v0 : S1x256.Idx → EReal)
    = shapeCast S1x256 (m ((c.tc : Thread nD τ).loc main_arg3)) shapeCasts_S256_S1x256 := by
  dsimp only [V, V0, hostOps0]
  simp only [List.flatten_cons, List.flatten_nil, List.append_nil]
  after_results
  rfl

/-- The region finds the second bias laid as one row of 128 entries. -/
theorem V_bias1 : (V m c main_call0_v1 : S1x128.Idx → EReal)
    = shapeCast S1x128 (m ((c.tc : Thread nD τ).loc main_arg5)) shapeCasts_S128_S1x128 := by
  dsimp only [V, V0, hostOps0]
  simp only [List.flatten_cons, List.flatten_nil, List.append_nil]
  after_results
  rfl

/-- The window of the first bias row holds b₀ at every point. -/
theorem iblk_b0 (t : Fin cfg0.N) (cc : Fin 256) :
    iblk m c 4 t (ix2 (0 : Fin 1) cc) = m ((c.tc : Thread nD τ).loc main_arg3) (ix1 cc) := by
  have e := (whole_idx t).2.2.1
  show (V m c main_call0_v0 : S1x256.Idx → EReal) (((cfg0.win 4).blk t).view.emb (ix2 (0 : Fin 1) cc)) = _
  rw [V_bias0]
  have hi : ((cfg0.win 4).blk t).view.emb (ix2 (0 : Fin 1) cc) = ix2 (0 : Fin 1) cc := funext fun a => Fin.ext (by
    match a with
    | ⟨0, _⟩ => show win0_4.index t (0 : Fin 2) * 1 + 1 * (0 : Fin 1).val = (0 : Fin 1).val; rw [e]; rfl
    | ⟨1, _⟩ => show win0_4.index t (1 : Fin 2) * 256 + 1 * cc.val = cc.val; rw [e]; show 0 * 256 + 1 * cc.val = cc.val; omega)
  rw [hi]
  exact Cert.ColRowBroadcast.rowCast_apply _ _ (0 : Fin 1) cc

/-- The window of the second bias row holds b₁ at every point. -/
theorem iblk_b1 (t : Fin cfg0.N) (q : Fin 128) :
    iblk m c 6 t (ix2 (0 : Fin 1) q) = m ((c.tc : Thread nD τ).loc main_arg5) (ix1 q) := by
  have e := (whole_idx t).2.2.2.2
  show (V m c main_call0_v1 : S1x128.Idx → EReal) (((cfg0.win 6).blk t).view.emb (ix2 (0 : Fin 1) q)) = _
  rw [V_bias1]
  have hi : ((cfg0.win 6).blk t).view.emb (ix2 (0 : Fin 1) q) = ix2 (0 : Fin 1) q := funext fun a => Fin.ext (by
    match a with
    | ⟨0, _⟩ => show win0_6.index t (0 : Fin 2) * 1 + 1 * (0 : Fin 1).val = (0 : Fin 1).val; rw [e]; rfl
    | ⟨1, _⟩ => show win0_6.index t (1 : Fin 2) * 128 + 1 * q.val = q.val; rw [e]; show 0 * 128 + 1 * q.val = q.val; omega)
  rw [hi]
  exact Cert.ColRowBroadcast.rowCast_apply _ _ (0 : Fin 1) q

/-! ## The two halves of a row block of an adjacency matrix -/

/-- Point t reads matrix t div 4, row block t mod 4, the left half through window 0 and the right half through window 1. -/
theorem adj_idx : ∀ t : Fin cfg0.N,
    win0_0.index t = ![t.val / 4, t.val % 4, 0] ∧ win0_1.index t = ![t.val / 4, t.val % 4, 1] :=
  (by decide +kernel : ∀ t : Fin grid0.N, _)

theorem point_lt (t : Fin cfg0.N) : t.val < 8 := Nat.lt_of_lt_of_eq t.isLt N_0

/-- The left half block at (0, p, k): the adjacency array at (t div 4, 1024·(t mod 4) + p, k). -/
theorem iblk_adjL (t : Fin cfg0.N) (p : Fin 1024) (k : Fin 2048) :
    iblk m c 0 t (ix3 (0 : Fin 1) p k)
      = m ((c.tc : Thread nD τ).loc main_arg1)
          (ix3 (⟨t.val / 4, by have := point_lt t; omega⟩ : Fin 2)
            (⟨1024 * (t.val % 4) + p.val, by have := p.isLt; omega⟩ : Fin 4096) (⟨k.val, by have := k.isLt; omega⟩ : Fin 4096)) := by
  have e := (adj_idx t).1
  show V m c main_arg1 (((cfg0.win 0).blk t).view.emb (ix3 (0 : Fin 1) p k)) = _
  rw [V_main_arg1]
  refine congrArg (m ((c.tc : Thread nD τ).loc main_arg1)) (funext fun a => Fin.ext ?_)
  match a with
  | ⟨0, _⟩ => show win0_0.index t (0 : Fin 3) * 1 + 1 * (0 : Fin 1).val = t.val / 4; rw [e]; show t.val / 4 * 1 + 1 * 0 = t.val / 4; omega
  | ⟨1, _⟩ => show win0_0.index t (1 : Fin 3) * 1024 + 1 * p.val = 1024 * (t.val % 4) + p.val; rw [e]; show t.val % 4 * 1024 + 1 * p.val = 1024 * (t.val % 4) + p.val; omega
  | ⟨2, _⟩ => show win0_0.index t (2 : Fin 3) * 2048 + 1 * k.val = k.val; rw [e]; show 0 * 2048 + 1 * k.val = k.val; omega

/-- The right half block at (0, p, k): the adjacency array at (t div 4, 1024·(t mod 4) + p, 2048 + k). -/
theorem iblk_adjR (t : Fin cfg0.N) (p : Fin 1024) (k : Fin 2048) :
    iblk m c 1 t (ix3 (0 : Fin 1) p k)
      = m ((c.tc : Thread nD τ).loc main_arg1)
          (ix3 (⟨t.val / 4, by have := point_lt t; omega⟩ : Fin 2)
            (⟨1024 * (t.val % 4) + p.val, by have := p.isLt; omega⟩ : Fin 4096) (⟨2048 + k.val, by have := k.isLt; omega⟩ : Fin 4096)) := by
  have e := (adj_idx t).2
  show V m c main_arg1 (((cfg0.win 1).blk t).view.emb (ix3 (0 : Fin 1) p k)) = _
  rw [V_main_arg1]
  refine congrArg (m ((c.tc : Thread nD τ).loc main_arg1)) (funext fun a => Fin.ext ?_)
  match a with
  | ⟨0, _⟩ => show win0_1.index t (0 : Fin 3) * 1 + 1 * (0 : Fin 1).val = t.val / 4; rw [e]; show t.val / 4 * 1 + 1 * 0 = t.val / 4; omega
  | ⟨1, _⟩ => show win0_1.index t (1 : Fin 3) * 1024 + 1 * p.val = 1024 * (t.val % 4) + p.val; rw [e]; show t.val % 4 * 1024 + 1 * p.val = 1024 * (t.val % 4) + p.val; omega
  | ⟨2, _⟩ => show win0_1.index t (2 : Fin 3) * 2048 + 1 * k.val = 2048 + k.val; rw [e]; show 1 * 2048 + 1 * k.val = 2048 + k.val; omega

/-! ## X·W₀ and its two halves -/

/-- X·W₀ as the first point computes it is the specification's X·W₀. -/
theorem xw_apply (r : Fin 4096) (k : Fin 256) :
    xw m c (ix2 r k) = Cert.Gcn2.xw0 (m ((c.tc : Thread nD τ).loc main_arg0)) (m ((c.tc : Thread nD τ).loc main_arg2)) r k := by
  unfold xw Cert.Gcn2.xw0
  refine (Cert.Gcn2.Pay.pay1_apply (iblk m c 2 t0_0) (iblk m c 3 t0_0) r k).trans ?_
  exact Finset.sum_congr rfl fun j _ => by rw [iblk_x m c t0_0 r j, iblk_w0 m c t0_0 j k]

/-- The position, in a [4096, n] array, of entry (k, j) of the 2048 rows that start at row o. -/
theorem rows_idx {n : ℕ} (off : Fin 2 → ℕ) (o : ℕ) (h0 : off 0 = o) (h1 : off 1 = 0)
    (inb : ∀ a, off a + (⟨2, ![2048, n]⟩ : Shape).size a ≤ (⟨2, ![4096, n]⟩ : Shape).size a) (k : Fin 2048) (j : Fin n)
    (r : Fin 4096) (hr : r.val = o + k.val) :
    (Rect.unit (s := ⟨2, ![4096, n]⟩) off (⟨2, ![2048, n]⟩ : Shape).size inb).idx (ix2 k j) = ix2 r j := by
  refine funext fun a => Fin.ext ?_
  match a with
  | ⟨0, _⟩ => show off 0 + 1 * k.val = r.val; rw [h0, hr]; omega
  | ⟨1, _⟩ => show off 1 + 1 * j.val = j.val; rw [h1]; omega

/-- Row k of the first 2048 rows of X·W₀ is its row k. -/
theorem xwTop_apply (k : Fin 2048) (cc : Fin 256) :
    xwTop m c (ix2 k cc) = Cert.Gcn2.xw0 (m ((c.tc : Thread nD τ).loc main_arg0)) (m ((c.tc : Thread nD τ).loc main_arg2))
      (⟨k.val, by have := k.isLt; omega⟩ : Fin 4096) cc := by
  unfold xwTop
  exact (congrArg (xw m c) (rows_idx ![0, 0] 0 rfl rfl inb_S4096x256_S2048x256_0_0 k cc ⟨k.val, by have := k.isLt; omega⟩
    (by show k.val = 0 + k.val; omega))).trans (xw_apply m c _ cc)

/-- Row k of the last 2048 rows of X·W₀ is its row 2048 + k. -/
theorem xwBot_apply (k : Fin 2048) (cc : Fin 256) :
    xwBot m c (ix2 k cc) = Cert.Gcn2.xw0 (m ((c.tc : Thread nD τ).loc main_arg0)) (m ((c.tc : Thread nD τ).loc main_arg2))
      (⟨2048 + k.val, by have := k.isLt; omega⟩ : Fin 4096) cc := by
  unfold xwBot
  exact (congrArg (xw m c) (rows_idx ![2048, 0] 2048 rfl rfl inb_S4096x256_S2048x256_2048_0 k cc
    ⟨2048 + k.val, by have := k.isLt; omega⟩ rfl)).trans (xw_apply m c _ cc)

/-! ## The hidden projection -/

/-- The argument arrays of core c as the launch finds them, at the specification's types. -/
abbrev arrX : Cert.Gcn2.Feat := m ((c.tc : Thread nD τ).loc main_arg0)
abbrev arrA : Cert.Gcn2.Adjs := m ((c.tc : Thread nD τ).loc main_arg1)
abbrev arrW0 : Cert.Gcn2.Wt0 := m ((c.tc : Thread nD τ).loc main_arg2)
abbrev arrB0 : Cert.Gcn2.Bs0 := m ((c.tc : Thread nD τ).loc main_arg3)
abbrev arrW1 : Cert.Gcn2.Wt1 := m ((c.tc : Thread nD τ).loc main_arg4)
abbrev arrB1 : Cert.Gcn2.Bs1 := m ((c.tc : Thread nD τ).loc main_arg5)

/-- The row block of the hidden projection point t computes, at (p, j): the two half sums over 2048 columns are one sum
    over the 4096 columns of row r = 1024·(t mod 4) + p of matrix g = t div 4. -/
theorem pblk_row (t : Fin cfg0.N) (p : Fin 1024) (j : Fin 128) (g : Fin 2) (r : Fin 4096) (hg : g.val = t.val / 4)
    (hr : r.val = 1024 * (t.val % 4) + p.val) :
    pblk m c t (ix2 p j)
      = ∑ cc : Fin 256,
          max ((∑ k : Fin 4096, arrA m c (ix3 g r k) * Cert.Gcn2.xw0 (arrX m c) (arrW0 m c) k cc) + arrB0 m c (ix1 cc))
              Cert.Gcn2.zeroWord * arrW1 m c (ix2 cc j) := by
  have ht8 := point_lt t
  have hp : p.val < 1024 := p.isLt
  have eg : (⟨t.val / 4, by omega⟩ : Fin 2) = g := Fin.ext hg.symm
  have er : (⟨1024 * (t.val % 4) + p.val, by omega⟩ : Fin 4096) = r := Fin.ext hr.symm
  unfold pblk
  refine (congrFun (Cert.Gcn2.Pay.pay5_eq (iblk m c 0 t) (iblk m c 1 t) (xwTop m c) (xwBot m c) (iblk m c 4 t) (iblk m c 5 t)) (ix2 p j)).trans ?_
  refine (Cert.Gcn2.Pay.pay4_apply (iblk m c 0 t) (iblk m c 1 t) (xwTop m c) (xwBot m c) (iblk m c 4 t) (iblk m c 5 t) p j).trans ?_
  refine Finset.sum_congr rfl fun cc _ => ?_
  rw [iblk_b0 m c t cc, iblk_w1 m c t cc j, Cert.Gcn2.sum_halves]
  refine congrArg (fun z => max (z + arrB0 m c (ix1 cc)) Cert.Gcn2.zeroWord * arrW1 m c (ix2 cc j)) ?_
  refine congrArg₂ (· + ·) (Finset.sum_congr rfl fun k _ => ?_) (Finset.sum_congr rfl fun k _ => ?_)
  · rw [iblk_adjL m c t p k, xwTop_apply m c k cc, eg, er]
  · rw [iblk_adjR m c t p k, xwBot_apply m c k cc, eg, er]

/-- The hidden projection assembled from the four row blocks is the specification's H·W₁. -/
theorem pall_apply (r : Fin 4096) (j : Fin 128) :
    pall m c (ix2 r j)
      = Cert.Gcn2.proj (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) r j := by
  have hr : r.val < 4096 := r.isLt
  show pblk m c ⟨r.val / 1024, _⟩ (ix2 (⟨r.val % 1024, _⟩ : Fin 1024) (⟨j.val, _⟩ : Fin 128)) = _
  refine pblk_row m c _ _ _ (0 : Fin 2) r ?_ ?_
  · show 0 = r.val / 1024 / 4; omega
  · show r.val = 1024 * (r.val / 1024 % 4) + r.val % 1024; omega

/-- Row k of the first 2048 rows of the hidden projection is its row k. -/
theorem pTop_apply (k : Fin 2048) (j : Fin 128) :
    pTop m c (ix2 k j)
      = Cert.Gcn2.proj (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (⟨k.val, by have := k.isLt; omega⟩ : Fin 4096) j := by
  unfold pTop
  exact (congrArg (pall m c) (rows_idx ![0, 0] 0 rfl rfl inb_S4096x128_S2048x128_0_0 k j ⟨k.val, by have := k.isLt; omega⟩
    (by show k.val = 0 + k.val; omega))).trans (pall_apply m c _ j)

/-- Row k of the last 2048 rows of the hidden projection is its row 2048 + k. -/
theorem pBot_apply (k : Fin 2048) (j : Fin 128) :
    pBot m c (ix2 k j)
      = Cert.Gcn2.proj (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (⟨2048 + k.val, by have := k.isLt; omega⟩ : Fin 4096) j := by
  unfold pBot
  exact (congrArg (pall m c) (rows_idx ![2048, 0] 2048 rfl rfl inb_S4096x128_S2048x128_2048_0 k j
    ⟨2048 + k.val, by have := k.isLt; omega⟩ rfl)).trans (pall_apply m c _ j)

/-! ## A block of the result -/

/-- The block a point t ≥ 4 computes, at (p, q): the log-softmax of row r = 1024·(t − 4) + p of the output layer at q. -/
theorem oblk_row (t : Fin cfg0.N) (ht : 4 ≤ t.val) (p : Fin 1024) (q : Fin 128) (r : Fin 4096) (hr : r.val = 1024 * (t.val - 4) + p.val) :
    oblk m c t (ix2 p q)
      = Cert.Gcn2.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) (ix2 r q) := by
  have ht8 := point_lt t
  have hp : p.val < 1024 := p.isLt
  have eg : (⟨t.val / 4, by omega⟩ : Fin 2) = (1 : Fin 2) := Fin.ext (by show t.val / 4 = 1; omega)
  have er : (⟨1024 * (t.val % 4) + p.val, by omega⟩ : Fin 4096) = r := Fin.ext (by show 1024 * (t.val % 4) + p.val = r.val; omega)
  unfold oblk
  refine (Cert.Gcn2.Pay.pay6_apply (iblk m c 0 t) (iblk m c 1 t) (pTop m c) (pBot m c) (iblk m c 6 t) p q).trans ?_
  rw [Cert.Gcn2.out_ix2]
  refine congrArg (fun f => Cert.RowLogSoftmax.rowLogSoftmax f q) (funext fun j => ?_)
  unfold Cert.Gcn2.logits
  rw [iblk_b1 m c t j, Cert.Gcn2.sum_halves]
  refine congrArg (· + arrB1 m c (ix1 j)) ?_
  refine congrArg₂ (· + ·) (Finset.sum_congr rfl fun k _ => ?_) (Finset.sum_congr rfl fun k _ => ?_)
  · rw [iblk_adjL m c t p k, pTop_apply m c k j, eg, er]
  · rw [iblk_adjR m c t p k, pBot_apply m c k j, eg, er]

/-- The block a point t ≥ 4 computes is rows 1024·(t − 4) to 1024·(t − 4) + 1023 of the specification's result. -/
theorem oblk_apply (t : Fin cfg0.N) (ht : 4 ≤ t.val) (p : Fin 1024) (q : Fin 128) :
    oblk m c t (ix2 p q)
      = Cert.Gcn2.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (ix2 (⟨1024 * (t.val - 4) + p.val, by have := point_lt t; have := p.isLt; omega⟩ : Fin 4096) q) :=
  oblk_row m c t ht p q _ rfl

/-! ## The result window -/

/-- Point t writes back row block t mod 4 of the result. -/
theorem out_idx : ∀ t : Fin cfg0.N, win0_7.index t = ![t.val % 4, 0] :=
  (by decide +kernel : ∀ t : Fin grid0.N, _)

/-- Whatever the result array holds, the block of a point t ≥ 4 reads, at (p, q), the array at (1024·(t − 4) + p, q). -/
theorem out_block_read (G : Buf (Elt Ideal) ((cfg0.win 7).arr.view.loc (c.tc : Thread nD τ))) (t : Fin cfg0.N) (ht : 4 ≤ t.val)
    (p : Fin 1024) (q : Fin 128) :
    ((cfg0.win 7).blk t).view.read (Elt Ideal) G (ix2 p q)
      = (G : S4096x128.Idx → EReal) (ix2 (⟨1024 * (t.val - 4) + p.val, by have := point_lt t; have := p.isLt; omega⟩ : Fin 4096) q) := by
  have ht8 := point_lt t
  have e := out_idx t
  show (G : S4096x128.Idx → EReal) (((cfg0.win 7).blk t).view.emb (ix2 p q)) = _
  refine congrArg (G : S4096x128.Idx → EReal) (funext fun a => Fin.ext ?_)
  match a with
  | ⟨0, _⟩ =>
    show win0_7.index t (0 : Fin 2) * 1024 + 1 * p.val = 1024 * (t.val - 4) + p.val
    rw [e]; show t.val % 4 * 1024 + 1 * p.val = 1024 * (t.val - 4) + p.val; omega
  | ⟨1, _⟩ => show win0_7.index t (1 : Fin 2) * 128 + 1 * q.val = q.val; rw [e]; show 0 * 128 + 1 * q.val = q.val; omega

/-- An entry of the result array is in point t's block iff each coordinate is in the block's range on its axis. -/
theorem mem_out_block (t : Fin cfg0.N) (i : S4096x128.Idx) :
    i ∈ ((cfg0.win 7).blk t).view.set
      ↔ ∀ a : Fin 2, win0_7.index t a * S1024x128.size a ≤ (i a).val ∧ (i a).val < win0_7.index t a * S1024x128.size a + S1024x128.size a := by
  show i ∈ ((View.whole main_v0).slice (win0_7.rect t)).set ↔ _
  rw [View.set_slice_whole, Rect.mem_set_unit]
  exact Iff.rfl

/-- Every entry of the result array lies in the block of a point from 4 on, which writes its block back: row r is in
    the block of point 4 + r div 1024. -/
theorem out_cover_idx (i : S4096x128.Idx) :
    ∃ t : Fin cfg0.N, 4 ≤ t.val ∧ (cfg0.win 7).flush t = true ∧ i ∈ ((cfg0.win 7).blk t).view.set := by
  have h0 : (i 0).val < 4096 := (i 0).isLt
  have h1 : (i 1).val < 128 := (i 1).isLt
  refine ⟨⟨4 + (i 0).val / 1024, Nat.lt_of_lt_of_eq (by omega : 4 + (i 0).val / 1024 < 8) N_0.symm⟩, ?_, flush0_7 _, ?_⟩
  · show 4 ≤ 4 + (i 0).val / 1024; omega
  rw [mem_out_block]
  have e := out_idx ⟨4 + (i 0).val / 1024, Nat.lt_of_lt_of_eq (by omega : 4 + (i 0).val / 1024 < 8) N_0.symm⟩
  intro a
  match a with
  | ⟨0, _⟩ =>
    rw [e]
    show (4 + (i 0).val / 1024) % 4 * 1024 ≤ (i 0).val ∧ (i 0).val < (4 + (i 0).val / 1024) % 4 * 1024 + 1024
    omega
  | ⟨1, _⟩ =>
    rw [e]
    show 0 * 128 ≤ (i 1).val ∧ (i 1).val < 0 * 128 + 128
    omega

/-- The same, at the index type of the result window's array on core c. -/
theorem out_cover : ∀ i : ((cfg0.win 7).arr.view.loc (c.tc : Thread nD τ)).2.ty.Idx,
    ∃ t : Fin cfg0.N, 4 ≤ t.val ∧ (cfg0.win 7).flush t = true ∧ i ∈ ((cfg0.win 7).blk t).view.set :=
  fun i => out_cover_idx i

end Cert.Gcn2.Val

end
-- ==== Proof.LibLateFlush.lean ====
/-
  An output array whose blocks are written back more than once — first with a placeholder, later with the result.

  If from point `k` on every write-back is its block of one whole-array contents `G`, then an index that some
  write-back at a point ≥ k covers reads `G` after the run, whatever the earlier points wrote there: a later point
  that covers the index again is itself ≥ k and writes `G`'s value, and the earlier ones are overwritten. When the
  blocks written back from `k` on cover the array, the array ends holding `G`.
-/
import Idealize.ShloMosaic.Lib.Pipeline.Value

noncomputable section

namespace Idealize.ShloMosaic

open Idealize.SL
open Idealize.SL.BI (sProp)
open scoped Idealize.SL.BI
open Idealize.SL.BI.BIBase Idealize.SL.BI.Laws Idealize.SL.Sem Idealize.SL.ProofMode
open Idealize.SL.RA

namespace Pipeline

variable {nD : Nat} {τ : Topo} {sig : RefSig} {Val : EltTy → Type}
variable {Ix : Type} [DecidableEq Ix] {Name : Type} [DecidableEq Name] {U : Type} [URA U] {Lvl : Type}
variable {Λ₀ : SL.Sem.Labels} {cfg : Cfg sig Λ₀} {c : Dev nD} (dat : Dat τ Val Ix Name U Lvl cfg c)

/-- An index in a block written back at a point `t ≥ k` reads `G` after the write-backs below `n > t`, when every
    write-back from `k` on is its block of `G`. -/
theorem Dat.arrAt_apply_of_mem_from (w : Fin cfg.W) (G : Buf Val ((cfg.win w).arr.view.loc (c.tc : Thread nD τ))) (k : Nat)
    (hG : ∀ t : Fin cfg.N, k ≤ t.val → (cfg.win w).flush t = true → dat.flushed w t = ((cfg.win w).blk t).view.read Val G) :
    ∀ (n : Nat) (t : Fin cfg.N) (i : ((cfg.win w).arr.view.loc (c.tc : Thread nD τ)).2.ty.Idx),
      k ≤ t.val → t.val < n → (cfg.win w).flush t = true → i ∈ ((cfg.win w).blk t).view.set → dat.arrAt w n i = G i
  | 0, _, _, _, ht, _, _ => absurd ht (Nat.not_lt_zero _)
  | n + 1, t, i, hk, ht, hf, hi => by
    rw [dat.arrAt_succ_apply]
    by_cases hn : n < cfg.N
    swap
    · rw [dif_neg hn]
      exact Dat.arrAt_apply_of_mem_from w G k hG n t i hk (by have := t.isLt; omega) hf hi
    rw [dif_pos hn]
    by_cases hfn : (cfg.win w).flush ⟨n, hn⟩ = true
    · rw [if_pos hfn, hG ⟨n, hn⟩ (by show k ≤ n; omega) hfn, View.write_read_eq_piecewise]
      by_cases hin : i ∈ ((cfg.win w).blk ⟨n, hn⟩).view.setOn Finset.univ
      · rw [Finset.piecewise_eq_of_mem _ _ _ hin]
      · rw [Finset.piecewise_eq_of_notMem _ _ _ hin]
        have htn : t.val ≠ n := fun e => hin (by rw [View.setOn_univ]; have : t = ⟨n, hn⟩ := Fin.ext e; exact this ▸ hi)
        exact Dat.arrAt_apply_of_mem_from w G k hG n t i hk (by omega) hf hi
    · rw [if_neg hfn]
      have htn : t.val ≠ n := fun e => hfn (by have : t = ⟨n, hn⟩ := Fin.ext e; exact this ▸ hf)
      exact Dat.arrAt_apply_of_mem_from w G k hG n t i hk (by omega) hf hi

/-- When the blocks written back from point `k` on cover the array, it ends holding `G`. -/
theorem Dat.arrAt_eq_of_cover_from (w : Fin cfg.W) (G : Buf Val ((cfg.win w).arr.view.loc (c.tc : Thread nD τ))) (k : Nat)
    (hG : ∀ t : Fin cfg.N, k ≤ t.val → (cfg.win w).flush t = true → dat.flushed w t = ((cfg.win w).blk t).view.read Val G)
    (hcover : ∀ i : ((cfg.win w).arr.view.loc (c.tc : Thread nD τ)).2.ty.Idx,
      ∃ t : Fin cfg.N, k ≤ t.val ∧ (cfg.win w).flush t = true ∧ i ∈ ((cfg.win w).blk t).view.set) :
    dat.arrAt w cfg.N = G :=
  funext fun i => by
    obtain ⟨t, hk, hf, hi⟩ := hcover i
    exact dat.arrAt_apply_of_mem_from w G k hG cfg.N t i hk t.isLt hf hi

end Pipeline

end Idealize.ShloMosaic

end
-- ==== Proof.IdealResult.lean ====
/-
  What the result array holds after the run, on the extended reals.

  Every point from 4 on writes back its block of the specification's result (rows 1024·(t − 4) … 1024·(t − 4) + 1023:
  the log-softmax of A₁·P + b₁ on those rows, P the hidden projection), and those four blocks cover the array; the
  placeholders the points below 4 wrote into the same blocks are overwritten. So the array ends holding the
  specification's function of the argument arrays.
-/
import proofs.«181898_g33612414058620_cont_8to1_b_1984_15_alg».proof.Proof.IdealLaunch
import proofs.«181898_g33612414058620_cont_8to1_b_1984_15_alg».proof.Proof.IdealValues
import proofs.«181898_g33612414058620_cont_8to1_b_1984_15_alg».proof.Proof.LibLateFlush

set_option maxRecDepth 16384

noncomputable section

namespace Cert.Gcn2.Res

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The specification's result at the launch contents of the argument arrays. -/
def G (c : Dev nD) : Buf (Elt Ideal) ((cfg0.win 7).arr.view.loc (c.tc : Thread nD τ)) :=
  Cert.Gcn2.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- What a point from 4 on writes back is its block of `G`. -/
theorem flushed_eq (c : Dev nD) (t : Fin cfg0.N) (ht : 4 ≤ t.val) :
    (dats m 0 c).flushed 7 t = ((cfg0.win 7).blk t).view.read (Elt Ideal) (G m c) := by
  show (cfg0.win 7).cut (grid0.coords t) ((dats m 0 c).after 7 t) = _
  rw [after_7, outAt_hi m c t (by omega)]
  funext y
  obtain ⟨p, q, rfl⟩ : ∃ (p : Fin 1024) (q : Fin 128), y = ix2 p q := ⟨y 0, y 1, eq_ix2 y⟩
  exact (Cert.Gcn2.Val.oblk_apply m c t ht p q).trans (Cert.Gcn2.Val.out_block_read c (G m c) t ht p q).symm

/-- The result array after the run. -/
theorem final (c : Dev nD) : (dats m 0 c).arrAt 7 cfg0.N = G m c :=
  (dats m 0 c).arrAt_eq_of_cover_from 7 (G m c) 4 (fun t ht _ => flushed_eq m c t ht) (Cert.Gcn2.Val.out_cover c)

/-- The run, read: the result array at the specification's function, the arguments unchanged. -/
theorem run : θ_run defs (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 7).trans (final m c),
     ((h c).1 2).trans ((arrAt_in m c 2 rfl _).trans (V_main_arg0 m c)),
     ((h c).1 0).trans ((arrAt_in m c 0 rfl _).trans (V_main_arg1 m c)),
     ((h c).1 3).trans ((arrAt_in m c 3 rfl _).trans (V_main_arg2 m c)),
     ((h c).2 main_arg3 (by decide)).trans ((hWrest m c main_arg3 (by decide)).trans (V_main_arg3 m c)),
     ((h c).1 5).trans ((arrAt_in m c 5 rfl _).trans (V_main_arg4 m c)),
     ((h c).2 main_arg5 (by decide)).trans ((hWrest m c main_arg5 (by decide)).trans (V_main_arg5 m c))⟩) (run_main m ρ)

end Cert.Gcn2.Res

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.RefSpec.lean ====
/-
  The reference's run, read one operation at a time, is the specification's function of the argument arrays.

  The reference picks each adjacency matrix out of the [2, 4096, 4096] array by a slice and a reshape, lays each bias
  vector along the rows by two broadcasts, multiplies with four plain matrix products, rectifies against a broadcast zero
  and ends with the host's log-softmax. Read at an entry (r, c), each stage is the specification's stage of the same
  name: the slab at (r, k) is the array at (g, r, k); the bias rows at (r, c) are the vector at c; a product at (r, c) is
  the sum over k of the left factor at (r, k) times the right factor at (k, c); the tail is the log-softmax of row r.
-/
import proofs.«181898_g33612414058620_cont_8to1_b_1984_15_alg».proof.Proof.RefReadP
import proofs.«181898_g33612414058620_cont_8to1_b_1984_15_alg».proof.Proof.Spec
import proofs.«181898_g33612414058620_cont_8to1_b_1984_15_alg».proof.Proof.LibHostReads
import proofs.«181898_g33612414058620_cont_8to1_b_1984_15_alg».proof.Proof.LibRowLogSoftmax

noncomputable section

open scoped BigOperators

namespace Cert.Gcn2.Ref

open Cert.ReferenceIdeal Cert.ReferenceIdeal.Gen Cert.ReferenceIdeal.ReadP Idealize.ShloMosaic Idealize.ShloMosaic.ValueIdx
  Idealize.ShloMosaic.TcCoe Idealize.SL.Sem Idealize.ShloMosaic.StableHlo

/-! ## The two adjacency matrices -/

/-- One matrix of a [G, M, N] array, picked by a slice of the first axis at g and a reshape that drops it, at (r, k). -/
theorem slab_apply {α : Type} {G M N : ℕ} (A : (⟨3, ![G, M, N]⟩ : Shape).Idx → α) (g : Fin G)
    (h1 : (⟨3, ![G, M, N]⟩ : Shape).Slices ![g.val, 0, 0] ⟨3, ![1, M, N]⟩)
    (h2 : (⟨3, ![1, M, N]⟩ : Shape).ShapeCasts ⟨2, ![M, N]⟩) (r : Fin M) (k : Fin N) :
    shapeCast ⟨2, ![M, N]⟩ (extractStridedSlice ⟨3, ![1, M, N]⟩ ![g.val, 0, 0] A h1) h2 (ix2 r k) = A (ix3 g r k) := by
  refine (shapeCast_apply _ h2 (ix2 r k) (ix3 (0 : Fin 1) r k) ?_).trans ?_
  · rw [Shape.rowMajor_val_three, Shape.rowMajor_val_two]
    show ((0 : Fin 1).val * M + r.val) * N + k.val = r.val * N + k.val
    simp
  refine extractStridedSlice_apply ![g.val, 0, 0] A h1 (ix3 (0 : Fin 1) r k) (ix3 g r k) ?_
  intro a
  match a with
  | ⟨0, _⟩ => show g.val = g.val + (0 : Fin 1).val; simp
  | ⟨1, _⟩ => show r.val = 0 + r.val; omega
  | ⟨2, _⟩ => show k.val = 0 + k.val; omega

/-- The first adjacency matrix at (r, k). -/
theorem adj0_apply (x1 : Adjs) (r k : Fin 4096) : val_main_v1 (F := Ideal) x1 (ix2 r k) = x1 (ix3 (0 : Fin 2) r k) :=
  slab_apply x1 (0 : Fin 2) slices_S2x4096x4096_S1x4096x4096_0_0_0 shapeCasts_S1x4096x4096_S4096x4096 r k

/-- The second adjacency matrix at (r, k). -/
theorem adj1_apply (x1 : Adjs) (r k : Fin 4096) : val_main_v9 (F := Ideal) x1 (ix2 r k) = x1 (ix3 (1 : Fin 2) r k) :=
  slab_apply x1 (1 : Fin 2) slices_S2x4096x4096_S1x4096x4096_1_0_0 shapeCasts_S1x4096x4096_S4096x4096 r k

/-! ## The first layer -/

/-- X·W₀ at (r, c). -/
theorem xw0_apply (x0 : Feat) (x2 : Wt0) (r : Fin 4096) (c : Fin 256) :
    val_main_v2 (F := Ideal) x0 x2 (ix2 r c) = xw0 x0 x2 r c :=
  Cert.LibHostReads.dotGeneral_plain_apply (φ₁ := .f32) (φ₂ := .f32) 4096 256 256 none x0 x2 r c

/-- A₀·(X·W₀) at (r, c). -/
theorem agg0_apply (x0 : Feat) (x1 : Adjs) (x2 : Wt0) (r : Fin 4096) (c : Fin 256) :
    val_main_v3 (F := Ideal) x0 x1 x2 (ix2 r c) = ∑ k : Fin 4096, x1 (ix3 (0 : Fin 2) r k) * xw0 x0 x2 k c := by
  unfold val_main_v3
  refine (Cert.LibHostReads.dotGeneral_plain_apply (φ₁ := .f32) (φ₂ := .f32) 4096 4096 256 none _ _ r c).trans ?_
  exact Finset.sum_congr rfl fun k _ => by rw [adj0_apply, xw0_apply]

/-- The first bias laid along the rows, at (r, c). -/
theorem bias0_apply (x3 : Bs0) (r : Fin 4096) (c : Fin 256) : val_main_v5 (F := Ideal) x3 (ix2 r c) = x3 (ix1 c) := by
  rw [val_main_v5_apply, val_main_v4_apply]
  exact congrArg x3 (funext fun a => Fin.ext (by match a with | ⟨0, _⟩ => rfl))

/-- The hidden layer at (r, c). -/
theorem hid_apply (x0 : Feat) (x1 : Adjs) (x2 : Wt0) (x3 : Bs0) (r : Fin 4096) (c : Fin 256) :
    val_main_v7 (F := Ideal) x0 x1 x2 x3 (ix2 r c) = hid x0 x1 x2 x3 r c := by
  rw [val_main_v7_apply, val_main_v6_apply, agg0_apply, bias0_apply, val_main_call0_v0_apply, val_main_call0_cst_apply]
  rfl

/-- H·W₁ at (r, j). -/
theorem proj_apply (x0 : Feat) (x1 : Adjs) (x2 : Wt0) (x3 : Bs0) (x4 : Wt1) (r : Fin 4096) (j : Fin 128) :
    val_main_v10 (F := Ideal) x0 x1 x2 x3 x4 (ix2 r j) = proj x0 x1 x2 x3 x4 r j := by
  unfold val_main_v10 proj
  refine (Cert.LibHostReads.dotGeneral_plain_apply (φ₁ := .f32) (φ₂ := .f32) 4096 256 128 none _ x4 r j).trans ?_
  exact Finset.sum_congr rfl fun c _ => by rw [hid_apply]

/-! ## The output layer -/

/-- The second bias laid along the rows, at (r, j). -/
theorem bias1_apply (x5 : Bs1) (r : Fin 4096) (j : Fin 128) : val_main_v13 (F := Ideal) x5 (ix2 r j) = x5 (ix1 j) := by
  rw [val_main_v13_apply, val_main_v12_apply]
  exact congrArg x5 (funext fun a => Fin.ext (by match a with | ⟨0, _⟩ => rfl))

/-- The output layer before the log-softmax, at (r, j). -/
theorem logits_apply (x0 : Feat) (x1 : Adjs) (x2 : Wt0) (x3 : Bs0) (x4 : Wt1) (x5 : Bs1) (r : Fin 4096) (j : Fin 128) :
    val_main_v14 (F := Ideal) x0 x1 x2 x3 x4 x5 (ix2 r j) = logits x0 x1 x2 x3 x4 x5 r j := by
  rw [val_main_v14_apply, bias1_apply]
  unfold val_main_v11 logits
  refine congrArg (· + x5 (ix1 j)) ?_
  refine (Cert.LibHostReads.dotGeneral_plain_apply (φ₁ := .f32) (φ₂ := .f32) 4096 4096 128 none _ _ r j).trans ?_
  exact Finset.sum_congr rfl fun k _ => by rw [adj1_apply, proj_apply]

/-! ## The whole reference -/

/-- The reference's last stage is the specification. -/
theorem val15_eq_out (x0 : Feat) (x1 : Adjs) (x2 : Wt0) (x3 : Bs0) (x4 : Wt1) (x5 : Bs1) :
    val_main_v15 (F := Ideal) x0 x1 x2 x3 x4 x5 = Cert.Gcn2.out x0 x1 x2 x3 x4 x5 := by
  funext i
  obtain ⟨r, j, rfl⟩ : ∃ (r : Fin 4096) (j : Fin 128), i = ix2 r j := ⟨i 0, i 1, eq_ix2 i⟩
  rw [out_ix2]
  refine (Cert.RowLogSoftmax.host_apply (a := 4096) (b := 128) (val_main_v14 (F := Ideal) x0 x1 x2 x3 x4 x5)
    reducesTo_S4096x128_S4096_d1 (by decide) h_S_ bcast_S_S4096 bcast_S4096_S4096x1_0 bcast_S4096x1_S4096x128_0_1 r j).trans ?_
  exact congrArg (fun f => Cert.RowLogSoftmax.rowLogSoftmax f j) (funext fun q => logits_apply x0 x1 x2 x3 x4 x5 r q)

/-- The reference's result is the specification's function of the six argument arrays as the run found them. -/
theorem result_eq (m : (ℓ : Loc nD τ sig) → Buf (Elt Ideal) ℓ) (c : Dev nD) :
    Cert.ReferenceIdeal.ValueP.res_main_v15 (F := Ideal) m c
      = Cert.Gcn2.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [val_main_v15_eq]
  exact val15_eq_out _ _ _ _ _ _

end Cert.Gcn2.Ref

end
-- ==== Proof.lean ====
/-
  A two-layer graph convolution with a log-softmax, as one kernel over a grid of eight points, against its plain
  reference.

  With X the node features [4096, 256], A₀ and A₁ the two slabs of the adjacency array [2, 4096, 4096], and the layer
  parameters W₀, b₀, W₁, b₁, both programs compute

      out = log_softmax (A₁ · (max (A₀ · (X · W₀) + b₀, 0) · W₁) + b₁)        (row by row),

  in that association. The kernel computes X·W₀ once, at the first point, into a scratch array; points 0 to 3 each
  compute 1024 rows of the hidden projection P = max (A₀·(X·W₀) + b₀, 0)·W₁ into a second scratch array (and leave a
  copy in the result window, as a placeholder); points 4 to 7 each compute 1024 rows of the result from A₁, the whole of
  P and b₁, overwriting the placeholders. A point reads its row block of A₀ or A₁ as two column halves, through two
  windows on the one adjacency array, and adds the two half products: on the extended reals a sum over 4096 terms is the
  sum of its two halves with no side condition, so no finiteness is used. The reference's extra maximum with −∞ before
  the subtraction changes nothing, and a change of float format is the identity.

  The frames: each window's staging buffer, the two scratch arrays and the shared adjacency array (held by its two
  windows at the two halves of its share) are accounted for point by point (the modules IdealFrame / BitsFrame and
  IdealLaunch / BitsLaunch, one text read at the two instances); the reference's frame is its run with the result
  dropped. The kernel's value: IdealResult (the result array after the run is the specification's function of the
  argument arrays, from the block readings of IdealValues and the payload readings of PayloadReads); the reference's:
  RefSpec. No operation was rewritten by the idealization, so the preservation claim is trivially true.
-/
import proofs.«181898_g33612414058620_cont_8to1_b_1984_15_alg».proof.Defs
import proofs.«181898_g33612414058620_cont_8to1_b_1984_15_alg».proof.Proof.Gen.Kernel
import proofs.«181898_g33612414058620_cont_8to1_b_1984_15_alg».proof.Proof.Gen.KernelIdeal
import proofs.«181898_g33612414058620_cont_8to1_b_1984_15_alg».proof.Proof.Gen.ReferenceIdeal
import proofs.«181898_g33612414058620_cont_8to1_b_1984_15_alg».proof.Proof.Gen.Pre_finite_inputs
import proofs.«181898_g33612414058620_cont_8to1_b_1984_15_alg».proof.Proof.BitsLaunch
import proofs.«181898_g33612414058620_cont_8to1_b_1984_15_alg».proof.Proof.IdealResult
import proofs.«181898_g33612414058620_cont_8to1_b_1984_15_alg».proof.Proof.RefSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result array at the specification's function of the argument arrays, which agree. -/
theorem algebraic : Cert.algebraic_KernelIdeal_ReferenceIdeal := by
  intro m ρ m' ρ' _ hagree
  refine ⟨fun c => Cert.Gcn2.Res.G m c, Cert.Gcn2.Res.run m ρ, ?_⟩
  refine (θ_run Cert.ReferenceIdeal.defs _ _).mono (fun _ h c => ⟨(h c).1.trans ?_, (h c).2⟩)
    (Cert.ReferenceIdeal.ValueP.run (F := Ideal) m' ρ')
  rw [Cert.Gcn2.Ref.result_eq, (hagree c).1, (hagree c).2.1, (hagree c).2.2.1, (hagree c).2.2.2.1, (hagree c).2.2.2.2.1,
    (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
